-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part6 {F : FTy → Type} [FloatOps F] (main_arg21 : FVec F S2048 .f32) (main_arg22 : FVec F S2048 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048 .f32 := Host.absf main_arg21
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  let main_v109 : FVec F S2048 .f32 := Host.absf main_arg22
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  main_v113

def fn_part5 {F : FTy → Type} [FloatOps F] (main_arg18 : FVec F S2048 .f32) (main_arg19 : FVec F S2048 .f32) (main_arg20 : FVec F S2048 .f32) (main_arg21 : FVec F S2048 .f32) (main_arg22 : FVec F S2048 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048 .f32 := Host.absf main_arg19
  let main_cst_36 : FVec F S_ .f32 := constant S_ .f32 0x7F800000#32
  let main_v95 : FVec F S2048 .f32 := broadcastInDim S2048 ![] bcast_S_S2048 main_cst_36
  let main_v96 : IVec S2048 1 := cmpf .olt main_v94 main_v95
  let main_c_37 : IVec S_ 1 := constantI S_ 1 1#1
  let main_v97 : IVec S_ 1 := (fun x v => Host.reduce IntOp.andi x v reducesTo_S2048_S_d0 h_S_) main_v96 main_c_37
  let main_v98 : IVec S_ 1 := andi main_v93 main_v97
  let main_v99 : FVec F S2048 .f32 := Host.absf main_arg20
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2048 .f32) (main_arg15 : FVec F S2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S2048x2048 .f32) (main_arg5 : FVec F S2048 .f32) (main_arg6 : FVec F S2048 .f32) (main_arg7 : FVec F S2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x2048 .f32) (main_arg1 : FVec F S8192x2048 .f32) (main_arg2 : FVec F S2048x2048 .f32) (main_arg3 : FVec F S2048x2048 .f32) (main_arg4 : FVec F S2048x2048 .f32) (main_arg5 : FVec F S2048 .f32) (main_arg6 : FVec F S2048 .f32) (main_arg7 : FVec F S2048 .f32) (main_arg8 : FVec F S2048x2048 .f32) (main_arg9 : FVec F S2048x2048 .f32) (main_arg10 : FVec F S2048x2048 .f32) (main_arg11 : FVec F S2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048 .f32) (main_arg20 : FVec F S2048 .f32) (main_arg21 : FVec F S2048 .f32) (main_arg22 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S2048x6144 : Shape := ⟨2, ![2048, 6144]⟩
abbrev S1x2048 : Shape := ⟨2, ![1, 2048]⟩
abbrev S_ : Shape := ⟨0, ![]⟩
abbrev S16x2048 : Shape := ⟨2, ![16, 2048]⟩
abbrev S128x2048 : Shape := ⟨2, ![128, 2048]⟩
abbrev S2 : Shape := ⟨1, ![2]⟩
abbrev S1 : Shape := ⟨1, ![1]⟩
abbrev S128 : Shape := ⟨1, ![128]⟩
abbrev S128x1 : Shape := ⟨2, ![128, 1]⟩

abbrev nBuf : Space → Nat
  | .hbm => 47
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S8192x2048, .bf16⟩
  | .hbm, ⟨24, _⟩ => ⟨S2048x6144, .f32⟩
  | .hbm, ⟨25, _⟩ => ⟨S2048x6144, .bf16⟩
  | .hbm, ⟨26, _⟩ => ⟨S2048x6144, .f32⟩
  | .hbm, ⟨27, _⟩ => ⟨S2048x6144, .bf16⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S_, .f32⟩
  | .hbm, ⟨44, _⟩ => ⟨S1x2048, .f32⟩
  | .hbm, ⟨45, _⟩ => ⟨S16x2048, .f32⟩
  | .hbm, ⟨46, _⟩ => ⟨S8192x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S16x2048, .f32⟩
  | .local _ .vmem, ⟨5, _⟩ => ⟨S128x2048, .f32⟩
  | .local _ .vmem, ⟨6, _⟩ => ⟨S128x2048, .f32⟩
  | .local _ .vmem, ⟨7, _⟩ => ⟨S2048x6144, .bf16⟩
  | .local _ .vmem, ⟨8, _⟩ => ⟨S2048x6144, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  concatenates_S2048x2048_S2048x2048_S2048x2048_S2048x6144_d1 : Shape.Concatenates [S2048x2048, S2048x2048, S2048x2048] S2048x6144 1
  shapeCasts_S2048_S1x2048 : S2048.ShapeCasts S1x2048
  bcast_S_S1x2048 : S_.BroadcastsInDim S1x2048 (![] : Fin 0 → Fin S1x2048.rank)
  concatenates_S1x2048_S1x2048_S1x2048_S1x2048_S1x2048_S1x2048_S1x2048_S1x2048_S1x2048_S1x2048_S1x2048_S1x2048_S1x2048_S1x2048_S1x2048_S1x2048_S16x2048_d0 : Shape.Concatenates [S1x2048, S1x2048, S1x2048, S1x2048, S1x2048, S1x2048, S1x2048, S1x2048, S1x2048, S1x2048, S1x2048, S1x2048, S1x2048, S1x2048, S1x2048, S1x2048] S16x2048 0
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S16x2048_S1x2048_0_0 : ∀ a, (![0, 0] : Fin 2 → Nat) a + S1x2048.size a ≤ S16x2048.size a
  h_S1x2048 : 0 < S1x2048.numel
  shapeCasts_S1x2048_S1x2048 : S1x2048.ShapeCasts S1x2048
  inb_S16x2048_S1x2048_1_0 : ∀ a, (![1, 0] : Fin 2 → Nat) a + S1x2048.size a ≤ S16x2048.size a
  inb_S16x2048_S1x2048_2_0 : ∀ a, (![2, 0] : Fin 2 → Nat) a + S1x2048.size a ≤ S16x2048.size a
  inb_S16x2048_S1x2048_3_0 : ∀ a, (![3, 0] : Fin 2 → Nat) a + S1x2048.size a ≤ S16x2048.size a
  inb_S16x2048_S1x2048_4_0 : ∀ a, (![4, 0] : Fin 2 → Nat) a + S1x2048.size a ≤ S16x2048.size a
  inb_S16x2048_S1x2048_5_0 : ∀ a, (![5, 0] : Fin 2 → Nat) a + S1x2048.size a ≤ S16x2048.size a
  inb_S16x2048_S1x2048_6_0 : ∀ a, (![6, 0] : Fin 2 → Nat) a + S1x2048.size a ≤ S16x2048.size a
  inb_S16x2048_S1x2048_7_0 : ∀ a, (![7, 0] : Fin 2 → Nat) a + S1x2048.size a ≤ S16x2048.size a
  inb_S16x2048_S1x2048_8_0 : ∀ a, (![8, 0] : Fin 2 → Nat) a + S1x2048.size a ≤ S16x2048.size a
  inb_S16x2048_S1x2048_9_0 : ∀ a, (![9, 0] : Fin 2 → Nat) a + S1x2048.size a ≤ S16x2048.size a
  inb_S16x2048_S1x2048_10_0 : ∀ a, (![10, 0] : Fin 2 → Nat) a + S1x2048.size a ≤ S16x2048.size a
  inb_S16x2048_S1x2048_11_0 : ∀ a, (![11, 0] : Fin 2 → Nat) a + S1x2048.size a ≤ S16x2048.size a
  inb_S16x2048_S1x2048_12_0 : ∀ a, (![12, 0] : Fin 2 → Nat) a + S1x2048.size a ≤ S16x2048.size a
  inb_S16x2048_S1x2048_13_0 : ∀ a, (![13, 0] : Fin 2 → Nat) a + S1x2048.size a ≤ S16x2048.size a
  inb_S16x2048_S1x2048_14_0 : ∀ a, (![14, 0] : Fin 2 → Nat) a + S1x2048.size a ≤ S16x2048.size a
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x6144_S2048x2048_0_0 : ∀ a, (![0, 0] : Fin 2 → Nat) a + S2048x2048.size a ≤ S2048x6144.size a
  h_S2048x2048 : 0 < S2048x2048.numel
  broadcasts_S1x2048_S128x2048 : S1x2048.Broadcasts S128x2048
  reduces_S128x2048_S128 : S128x2048.Reduces [1] S128
  shapeCasts_S128_S128x1 : S128.ShapeCasts S128x1
  broadcasts_S128x1_S128x2048 : S128x1.Broadcasts S128x2048
  inb_S2048x6144_S2048x2048_0_2048 : ∀ a, (![0, 2048] : Fin 2 → Nat) a + S2048x2048.size a ≤ S2048x6144.size a
  inb_S2048x6144_S2048x2048_0_4096 : ∀ a, (![0, 4096] : Fin 2 → Nat) a + S2048x2048.size a ≤ S2048x6144.size a
  dot_S128x2048_S2048x2048_S128x2048_1_0_0_1_n_n_wf : DotDims.WF S128x2048 S2048x2048 S128x2048 [1] [0] [0] [1] [] []
  hcc0_scratch2 : 7 + S2.numel ≤ 9
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .bf16 = 32 ∨ (Rect.block (s := S8192x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_4 i = cc0_transform_4 i'
  hinb0_2 : ∀ (i : grid0.Coords) a, (cc0_transform_4 i a + 1) * S16x2048.size a ≤ S16x2048.size a
  hwx0_2 : ∀ i : grid0.Coords, EltTy.bits .f32 = 32 ∨ (Rect.block (s := S16x2048) S16x2048.size (cc0_transform_4 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_5 i = cc0_transform_5 i'
  hinb0_3 : ∀ (i : grid0.Coords) a, (cc0_transform_5 i a + 1) * S128x2048.size a ≤ S8192x2048.size a
  hwx0_3 : ∀ i : grid0.Coords, EltTy.bits .f32 = 32 ∨ (Rect.block (s := S8192x2048) S128x2048.size (cc0_transform_5 i) (hinb0_3 i)).WholeWords (EltTy.packing .f32)

variable [Facts₀]

abbrev cc0_scratch2 : DmaSems sig S2 := SemArray.consecutive 7 S2 hcc0_scratch2
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S16x2048.size cc0_transform_4 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x2048.size cc0_transform_5 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 239
  | .vmem => 0
  | .smem => 0
  | _ => 0

abbrev hbmTy0_0 (i : Nat) : BufTy := match i % 128 with
  | 0 => ⟨S8192x2048, .f32⟩
  | 1 => ⟨S8192x2048, .f32⟩
  | 2 => ⟨S2048x2048, .f32⟩
  | 3 => ⟨S2048x2048, .f32⟩
  | 4 => ⟨S2048x2048, .f32⟩
  | 5 => ⟨S2048, .f32⟩
  | 6 => ⟨S2048, .f32⟩
  | 7 => ⟨S2048, .f32⟩
  | 8 => ⟨S2048x2048, .f32⟩
  | 9 => ⟨S2048x2048, .f32⟩
  | 10 => ⟨S2048x2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S2048, .f32⟩
  | 20 => ⟨S2048, .f32⟩
  | 21 => ⟨S2048, .f32⟩
  | 22 => ⟨S2048, .f32⟩
  | 23 => ⟨S8192x2048, .f32⟩
  | 24 => ⟨S1x2048, .f32⟩
  | 25 => ⟨S8192x2048, .f32⟩
  | 26 => ⟨S8192x2048, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x2048, .f32⟩
  | 34 => ⟨S8192x2048, .f32⟩
  | 35 => ⟨S8192x2048, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S8192x2048, .f32⟩
  | 43 => ⟨S8192x2048, .f32⟩
  | 44 => ⟨S_, .f32⟩
  | 45 => ⟨S8192x1, .f32⟩
  | 46 => ⟨S8192x1, .f32⟩
  | 47 => ⟨S8192x1, .f32⟩
  | 48 => ⟨S8192x2048, .f32⟩
  | 49 => ⟨S8192x2048, .f32⟩
  | 50 => ⟨S1x2048, .f32⟩
  | 51 => ⟨S8192x2048, .f32⟩
  | 52 => ⟨S8192x2048, .f32⟩
  | 53 => ⟨S1x2048, .f32⟩
  | 54 => ⟨S8192x2048, .f32⟩
  | 55 => ⟨S8192x2048, .f32⟩
  | 56 => ⟨S8192x2048, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S8192x2048, .f32⟩
  | 64 => ⟨S8192x2048, .f32⟩
  | 65 => ⟨S8192x2048, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S8192x2048, .f32⟩
  | 73 => ⟨S8192x2048, .f32⟩
  | 74 => ⟨S_, .f32⟩
  | 75 => ⟨S8192x1, .f32⟩
  | 76 => ⟨S8192x1, .f32⟩
  | 77 => ⟨S8192x1, .f32⟩
  | 78 => ⟨S8192x2048, .f32⟩
  | 79 => ⟨S8192x2048, .f32⟩
  | 80 => ⟨S1x2048, .f32⟩
  | 81 => ⟨S8192x2048, .f32⟩
  | 82 => ⟨S8192x2048, .f32⟩
  | 83 => ⟨S1x2048, .f32⟩
  | 84 => ⟨S8192x2048, .f32⟩
  | 85 => ⟨S8192x2048, .f32⟩
  | 86 => ⟨S8192x2048, .f32⟩
  | 87 => ⟨S8192x2048, .f32⟩
  | 88 => ⟨S8192x2048, .f32⟩
  | 89 => ⟨S_, .f32⟩
  | 90 => ⟨S8192x2048, .f32⟩
  | 91 => ⟨S8192x2048, .f32⟩
  | 92 => ⟨S_, .f32⟩
  | 93 => ⟨S8192x2048, .f32⟩
  | 94 => ⟨S8192x2048, .f32⟩
  | 95 => ⟨S8192x2048, .f32⟩
  | 96 => ⟨S1x2048, .f32⟩
  | 97 => ⟨S8192x2048, .f32⟩
  | 98 => ⟨S8192x2048, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x2048, .f32⟩
  | 106 => ⟨S8192x2048, .f32⟩
  | 107 => ⟨S8192x2048, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S8192x2048, .f32⟩
  | 115 => ⟨S8192x2048, .f32⟩
  | 116 => ⟨S_, .f32⟩
  | 117 => ⟨S8192x1, .f32⟩
  | 118 => ⟨S8192x1, .f32⟩
  | 119 => ⟨S8192x1, .f32⟩
  | 120 => ⟨S8192x2048, .f32⟩
  | 121 => ⟨S8192x2048, .f32⟩
  | 122 => ⟨S1x2048, .f32⟩
  | 123 => ⟨S8192x2048, .f32⟩
  | 124 => ⟨S8192x2048, .f32⟩
  | 125 => ⟨S1x2048, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S_, .f32⟩
  | 2 => ⟨S8192, .f32⟩
  | 3 => ⟨S8192x1, .f32⟩
  | 4 => ⟨S_, .f32⟩
  | 5 => ⟨S8192x1, .f32⟩
  | 6 => ⟨S8192x1, .f32⟩
  | 7 => ⟨S8192x2048, .f32⟩
  | 8 => ⟨S8192x2048, .f32⟩
  | 9 => ⟨S8192x2048, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x2048, .f32⟩
  | 17 => ⟨S8192x2048, .f32⟩
  | 18 => ⟨S_, .f32⟩
  | 19 => ⟨S8192x1, .f32⟩
  | 20 => ⟨S8192x1, .f32⟩
  | 21 => ⟨S8192x1, .f32⟩
  | 22 => ⟨S8192x2048, .f32⟩
  | 23 => ⟨S8192x2048, .f32⟩
  | 24 => ⟨S1x2048, .f32⟩
  | 25 => ⟨S8192x2048, .f32⟩
  | 26 => ⟨S8192x2048, .f32⟩
  | 27 => ⟨S1x2048, .f32⟩
  | 28 => ⟨S8192x2048, .f32⟩
  | 29 => ⟨S8192x2048, .f32⟩
  | 30 => ⟨S8192x2048, .f32⟩
  | 31 => ⟨S8192x2048, .f32⟩
  | 32 => ⟨S8192x2048, .f32⟩
  | 33 => ⟨S_, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S8192x2048, .f32⟩
  | 40 => ⟨S1x2048, .f32⟩
  | 41 => ⟨S8192x2048, .f32⟩
  | 42 => ⟨S8192x2048, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x2048, .f32⟩
  | 50 => ⟨S8192x2048, .f32⟩
  | 51 => ⟨S8192x2048, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S8192x2048, .f32⟩
  | 59 => ⟨S8192x2048, .f32⟩
  | 60 => ⟨S_, .f32⟩
  | 61 => ⟨S8192x1, .f32⟩
  | 62 => ⟨S8192x1, .f32⟩
  | 63 => ⟨S8192x1, .f32⟩
  | 64 => ⟨S8192x2048, .f32⟩
  | 65 => ⟨S8192x2048, .f32⟩
  | 66 => ⟨S1x2048, .f32⟩
  | 67 => ⟨S8192x2048, .f32⟩
  | 68 => ⟨S8192x2048, .f32⟩
  | 69 => ⟨S1x2048, .f32⟩
  | 70 => ⟨S8192x2048, .f32⟩
  | 71 => ⟨S8192x2048, .f32⟩
  | 72 => ⟨S8192x2048, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S8192x2048, .f32⟩
  | 80 => ⟨S8192x2048, .f32⟩
  | 81 => ⟨S8192x2048, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S8192x2048, .f32⟩
  | 89 => ⟨S8192x2048, .f32⟩
  | 90 => ⟨S_, .f32⟩
  | 91 => ⟨S8192x1, .f32⟩
  | 92 => ⟨S8192x1, .f32⟩
  | 93 => ⟨S8192x1, .f32⟩
  | 94 => ⟨S8192x2048, .f32⟩
  | 95 => ⟨S8192x2048, .f32⟩
  | 96 => ⟨S1x2048, .f32⟩
  | 97 => ⟨S8192x2048, .f32⟩
  | 98 => ⟨S8192x2048, .f32⟩
  | 99 => ⟨S1x2048, .f32⟩
  | 100 => ⟨S8192x2048, .f32⟩
  | 101 => ⟨S8192x2048, .f32⟩
  | 102 => ⟨S8192x2048, .f32⟩
  | 103 => ⟨S8192x2048, .f32⟩
  | 104 => ⟨S8192x2048, .f32⟩
  | 105 => ⟨S_, .f32⟩
  | 106 => ⟨S8192x2048, .f32⟩
  | 107 => ⟨S8192x2048, .f32⟩
  | 108 => ⟨S8192x2048, .f32⟩
  | 109 => ⟨S8192x2048, .f32⟩
  | 110 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_cst_10 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_13 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_15 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_16 : Ref sig .tc := ⟨.hbm, 129, rfl⟩
abbrev main_v89 : Ref sig .tc := ⟨.hbm, 130, rfl⟩
abbrev main_v90 : Ref sig .tc := ⟨.hbm, 131, rfl⟩
abbrev main_cst_17 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_18 : Ref sig .tc := ⟨.hbm, 138, rfl⟩
abbrev main_v96 : Ref sig .tc := ⟨.hbm, 139, rfl⟩
abbrev main_v97 : Ref sig .tc := ⟨.hbm, 140, rfl⟩
abbrev main_cst_19 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_20 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_21 : Ref sig .tc := ⟨.hbm, 161, rfl⟩
abbrev main_v116 : Ref sig .tc := ⟨.hbm, 162, rfl⟩
abbrev main_v117 : Ref sig .tc := ⟨.hbm, 163, rfl⟩
abbrev main_cst_22 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_23 : Ref sig .tc := ⟨.hbm, 171, rfl⟩
abbrev main_v124 : Ref sig .tc := ⟨.hbm, 172, rfl⟩
abbrev main_v125 : Ref sig .tc := ⟨.hbm, 173, rfl⟩
abbrev main_cst_24 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_25 : Ref sig .tc := ⟨.hbm, 180, rfl⟩
abbrev main_v131 : Ref sig .tc := ⟨.hbm, 181, rfl⟩
abbrev main_v132 : Ref sig .tc := ⟨.hbm, 182, rfl⟩
abbrev main_cst_26 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_27 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_cst_28 : Ref sig .tc := ⟨.hbm, 201, rfl⟩
abbrev main_v149 : Ref sig .tc := ⟨.hbm, 202, rfl⟩
abbrev main_v150 : Ref sig .tc := ⟨.hbm, 203, rfl⟩
abbrev main_cst_29 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_cst_30 : Ref sig .tc := ⟨.hbm, 210, rfl⟩
abbrev main_v156 : Ref sig .tc := ⟨.hbm, 211, rfl⟩
abbrev main_v157 : Ref sig .tc := ⟨.hbm, 212, rfl⟩
abbrev main_cst_31 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_32 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_33 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.RefFrame.lean ====
/-
  The reference program is host operations only: its generated run ends with every result at the
  operations' composed term and every argument array unchanged.  Dropping the result gives its frame.
-/
import proofs.«101222_j4458176053543_2_alg».proof.Defs
import proofs.«101222_j4458176053543_2_alg».proof.Proof.Gen.ReferenceIdeal.Run
import proofs.«101222_j4458176053543_2_alg».proof.Proof.Gen.ReferenceIdeal
import proofs.«101222_j4458176053543_2_alg».proof.Proof.Gen.Pre_finite_inputs

noncomputable section

open Idealize.ShloMosaic Idealize.SL.Sem

namespace Cert.Proof.RefClaims

/-- The reference terminates without a fault and leaves its argument arrays as they were. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.RefClaims

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibHostRowSum.lean ====
/-
  The host's float sum along the rows of a matrix, read at a row, at the ideal values.

  For an `M × N` array `x` summed over its second axis from an initial value, entry `p` of the result is the initial
  value plus the sum of row `p`'s `N` entries.
-/
import Idealize.ShloMosaic.Lib.ValueIdx
import Idealize.ShloMosaic.PureOps.Ideal.Laws

noncomputable section

open scoped BigOperators

namespace Cert.Lib.HostRowSum

open Idealize.ShloMosaic Idealize.ShloMosaic.ValueIdx

variable {M N : Nat}

/-- Over row `p`, the index with `k` put on the summed axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- The host's sum over the second axis of an `M × N` array, at row `p`: the initial value plus the row's sum. -/
theorem hostRowSum_apply {φ : FTy} {u : Shape} (x : FVec Ideal ⟨2, ![M, N]⟩ φ) (init : u.Idx → Ideal φ)
    (h' : (⟨2, ![M, N]⟩ : Shape).ReducesTo [1] ⟨1, ![M]⟩) (hu : 0 < u.numel)
    (h : (⟨2, ![M, N]⟩ : Shape).Reduces [1] ⟨1, ![M]⟩) (p : Fin M) :
    Host.reduceAdd x init h' hu (ix1 p) = init (Shape.Idx.first hu) + ∑ k : Fin N, x (ix2 p k) := by
  show Ideal.hostReduceAdd h' x (init (Shape.Idx.first hu)) (ix1 p) = _
  rw [Ideal.hostReduceAdd_single h' h]
  exact congrArg (init (Shape.Idx.first hu) + ·) (Finset.sum_congr rfl fun k _ => congrArg x (lift_row h p k))

end Cert.Lib.HostRowSum

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.RefOps.lean ====
/-
  The reference's array operations, each read at one entry, on the extended reals.

  The reference is written over whole arrays: a batch of 8192 rows with 2048 features, weights of 2048 by 2048
  and vectors of length 2048. Entry by entry its non-pointwise operations are these:
  * a batch array times a weight has, at row `p` and feature `q`, the sum over `k` of the batch array at
    `(p, k)` times the weight at `(k, q)` (`dot_apply`);
  * a vector viewed as one row and repeated down the batch has, at `(p, q)`, the vector at `q` (`rowB_apply`);
  * a column of one value per row repeated along the features has, at `(p, q)`, the column at `(p, 0)`
    (`colB_apply`);
  * the sum along the features from the zero word has, at row `p`, the sum of that row's entries (`rowSum_apply`).
  The pointwise host operations (quotient, reciprocal square root, hyperbolic tangent, exponential, negation) are
  their textbook functions at each entry.
-/
import proofs.«101222_j4458176053543_2_alg».proof.ReferenceIdeal
import proofs.«101222_j4458176053543_2_alg».proof.Proof.Gen.ReferenceIdeal
import proofs.«101222_j4458176053543_2_alg».proof.Proof.LibPlainDot
import proofs.«101222_j4458176053543_2_alg».proof.Proof.LibHostRowSum
import proofs.«101222_j4458176053543_2_alg».proof.Proof.LibSpread
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- A batch array times a weight, at row `p` and feature `q`. -/
theorem dot_apply (x : FVec Ideal S8192x2048 .f32) (W : FVec Ideal S2048x2048 .f32) (p : Fin 8192) (q : Fin 2048) :
    Host.dotGeneral dot_S8192x2048_S2048x2048_S8192x2048_1_0_0_1_n_n none x W (ix2 p q)
      = ∑ k : Fin 2048, x (ix2 p k) * W (ix2 k q) :=
  Cert.Lib.PlainDot.dotGeneral_apply none .single x W p q

/-- A vector viewed as one row and repeated down the batch reads, at `(p, q)`, the vector at `q`. -/
theorem rowB_apply {α : Type} (b : S2048.Idx → α)
    (h1 : S2048.BroadcastsInDim S1x2048 (![1] : Fin 1 → Fin S1x2048.rank))
    (h2 : S1x2048.BroadcastsInDim S8192x2048 (![0, 1] : Fin 2 → Fin S8192x2048.rank)) (p : Fin 8192) (q : Fin 2048) :
    broadcastInDim S8192x2048 ![0, 1] h2 (broadcastInDim S1x2048 ![1] h1 b) (ix2 p q) = b (ix1 q) := by
  refine (broadcastInDim_apply ![0, 1] h2 _ (ix2 p q) (ix2 (0 : Fin 1) q) (fun a => ?_)).trans ?_
  · match a with
    | ⟨0, _⟩ => exact (if_pos rfl).symm
    | ⟨1, _⟩ => exact (if_neg (show ¬((2048 : Nat) = 1) by decide)).symm
  · refine broadcastInDim_apply ![1] h1 b (ix2 (0 : Fin 1) q) (ix1 q) (fun a => ?_)
    match a with
    | ⟨0, _⟩ => exact (if_neg (show ¬((2048 : Nat) = 1) by decide)).symm

/-- A column of one value per row repeated along the features reads, at `(p, q)`, the column at `(p, 0)`. -/
theorem colB_apply {α : Type} (c : S8192x1.Idx → α)
    (h : S8192x1.BroadcastsInDim S8192x2048 (![0, 1] : Fin 2 → Fin S8192x2048.rank)) (p : Fin 8192) (q : Fin 2048) :
    broadcastInDim S8192x2048 ![0, 1] h c (ix2 p q) = c (ix2 p (0 : Fin 1)) := by
  refine broadcastInDim_apply ![0, 1] h c (ix2 p q) (ix2 p (0 : Fin 1)) (fun a => ?_)
  match a with
  | ⟨0, _⟩ => exact (if_neg (show ¬((8192 : Nat) = 1) by decide)).symm
  | ⟨1, _⟩ => exact (if_pos rfl).symm

/-- The sum along the features from the zero word, at row `p`: the sum of the row's 2048 entries. -/
theorem rowSum_apply (v : FVec Ideal S8192x2048 .f32) (h' : S8192x2048.ReducesTo [1] S8192) (hu : 0 < S_.numel)
    (p : Fin 8192) :
    Host.reduceAdd v (constant (F := Ideal) S_ .f32 0x00000000#32) h' hu (ix1 p) = ∑ k : Fin 2048, v (ix2 p k) := by
  rw [Cert.Lib.HostRowSum.hostRowSum_apply v _ h' hu (by decide) p, constant_apply, Ideal.ofBits_zero_f32, zero_add]

/-! The host's pointwise operations at an entry. -/

theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl
theorem htanh_apply {s : Shape} (a : FVec Ideal s .f32) (i : s.Idx) : Host.tanh a i = Ideal.tanh (a i) := rfl
theorem hexp_apply {s : Shape} (a : FVec Ideal s .f32) (i : s.Idx) : Host.exp a i = Ideal.exp (a i) := rfl
theorem hnegf_apply {s : Shape} (a : FVec Ideal s .f32) (i : s.Idx) : Host.negf a i = -(a i) := rfl

end Cert.ReferenceIdeal.RefValue

end
-- ==== Proof.GruSpec.lean ====
/-
  The layer-normalised GRU cell as one function of its 23 argument arrays, on the extended reals.
  Every row of the batch is treated alone: with a row `x` of the input and a row `h` of the state,
    r = σ(LN(x·W_ir + b_ir; g_ir, β_ir) + LN(h·W_hr; g_hr, β_hr))
    z = σ(LN(x·W_iz + b_iz; g_iz, β_iz) + LN(h·W_hz; g_hz, β_hz))
    n = tanh(LN(x·W_in + b_in; g_in, β_in) + r · LN(h·W_hn; g_hn, β_hn))
    out = (1 − z)·n + z·h
  where LN(v; g, β)_q = (v_q − μ)·rsqrt(var + ε)·g_q + β_q, μ the mean of the row's 2048 entries and var the
  mean of the squared deviations (each mean a sum divided by the word 2048.0), ε the word of 1e-5.
  The float literals stay as their words: both programs spell the same ones.
-/
import Idealize.ShloMosaic.PureOps.Ideal
import Idealize.ShloMosaic.Lib.ValueIdx

noncomputable section

open scoped BigOperators

namespace Gru

open Idealize.ShloMosaic Idealize.ShloMosaic.ValueIdx

/-- The batch-by-feature shape, the weight shape and the vector shape. -/
abbrev SB : Shape := ⟨2, ![8192, 2048]⟩
abbrev SW : Shape := ⟨2, ![2048, 2048]⟩
abbrev SV : Shape := ⟨1, ![2048]⟩

/-- The words the two programs share: 2048.0, 1e-5 (rounded to f32) and 1.0. -/
abbrev nW : EReal := Ideal.ofBits .f32 0x45000000#32
abbrev epsW : EReal := Ideal.ofBits .f32 0x3727C5AC#32
abbrev oneW : EReal := Ideal.ofBits .f32 0x3F800000#32

/-- The mean of a row of 2048 entries: their sum divided by the word 2048.0. -/
def mean (v : Fin 2048 → EReal) : EReal := Ideal.div (∑ j : Fin 2048, v j) nW

/-- Layer normalisation of the row `v` with scale `g` and shift `b`, at feature `q`. -/
def lnRow (v g b : Fin 2048 → EReal) (q : Fin 2048) : EReal :=
  (v q - mean v) * Ideal.rsqrt (mean (fun j => (v j - mean v) * (v j - mean v)) + epsW) * g q + b q

/-- A row times a 2048 x 2048 weight, at output feature `q`. -/
def dotRow (x : Fin 2048 → EReal) (W : SW.Idx → EReal) (q : Fin 2048) : EReal :=
  ∑ k : Fin 2048, x k * W (ix2 k q)

/-- The 23 argument arrays, in the order the programs take them. -/
structure Inputs where
  x : SB.Idx → EReal
  h : SB.Idx → EReal
  Wir : SW.Idx → EReal
  Wiz : SW.Idx → EReal
  Win : SW.Idx → EReal
  bir : SV.Idx → EReal
  biz : SV.Idx → EReal
  bin : SV.Idx → EReal
  Whr : SW.Idx → EReal
  Whz : SW.Idx → EReal
  Whn : SW.Idx → EReal
  gir : SV.Idx → EReal
  beir : SV.Idx → EReal
  giz : SV.Idx → EReal
  beiz : SV.Idx → EReal
  gin : SV.Idx → EReal
  bein : SV.Idx → EReal
  ghr : SV.Idx → EReal
  behr : SV.Idx → EReal
  ghz : SV.Idx → EReal
  behz : SV.Idx → EReal
  ghn : SV.Idx → EReal
  behn : SV.Idx → EReal

/-- A vector argument as a function of the feature. -/
abbrev vec (v : SV.Idx → EReal) : Fin 2048 → EReal := fun q => v (ix1 q)

/-- Row `p` of a batch array. -/
abbrev row (a : SB.Idx → EReal) (p : Fin 8192) : Fin 2048 → EReal := fun k => a (ix2 p k)

/-- A gate's two normalised pre-activations for row `p`: the input side with its bias, and the hidden side. -/
def inSide (a : Inputs) (W : SW.Idx → EReal) (b g be : SV.Idx → EReal) (p : Fin 8192) (q : Fin 2048) : EReal :=
  lnRow (fun q' => dotRow (row a.x p) W q' + vec b q') (vec g) (vec be) q
def hidSide (a : Inputs) (W : SW.Idx → EReal) (g be : SV.Idx → EReal) (p : Fin 8192) (q : Fin 2048) : EReal :=
  lnRow (fun q' => dotRow (row a.h p) W q') (vec g) (vec be) q

/-- The reset gate, the update gate and the candidate state of row `p` at feature `q`. -/
def rGate (a : Inputs) (p : Fin 8192) (q : Fin 2048) : EReal :=
  Ideal.logistic (inSide a a.Wir a.bir a.gir a.beir p q + hidSide a a.Whr a.ghr a.behr p q)
def zGate (a : Inputs) (p : Fin 8192) (q : Fin 2048) : EReal :=
  Ideal.logistic (inSide a a.Wiz a.biz a.giz a.beiz p q + hidSide a a.Whz a.ghz a.behz p q)
def cand (a : Inputs) (p : Fin 8192) (q : Fin 2048) : EReal :=
  Ideal.tanh (inSide a a.Win a.bin a.gin a.bein p q + rGate a p q * hidSide a a.Whn a.ghn a.behn p q)

/-- The new state: `(1 − z)·n + z·h`, entry by entry. -/
def G (a : Inputs) : SB.Idx → EReal := fun i =>
  (oneW - zGate a (i 0) (i 1)) * cand a (i 0) (i 1) + zGate a (i 0) (i 1) * a.h i

end Gru

end
-- ==== Proof.LibFlagLaw.lean ====
/-
  A one-bit flag as a number, and selecting between two values by it, on the extended reals.

  * The word of the float 1.0 denotes 1 (`one_word`); a one-bit word read as a number is 0 or 1 (`bit_cases`).
  * `law`: for a flag `f` that is 0 or 1, weighting two values `a`, `b` by `f · n` and `(1 - f) · n` and adding is
    forming `a · f + b · (1 - f)` and then multiplying by `n`. For `f = 0` both are `b · n`, for `f = 1` both are
    `a · n`: on the extended reals this takes only `0 · y = 0`, `y + 0 = y`, `1 · y = y`, `1 - 1 = 0` and
    associativity of the product, so none of `a`, `b`, `n` has to be finite.
-/
import Idealize.ShloMosaic.PureOps.Ideal.Laws

noncomputable section

namespace Cert.Lib.FlagLaw

open Idealize.ShloMosaic

/-- The word of the float 1.0 denotes 1. -/
theorem one_word : Ideal.ofBits .f32 0x3F800000#32 = (1 : EReal) := by
  simp [Ideal.ofBits, Ideal.ieee]
  norm_cast
  norm_num

/-- A one-bit word read as a number is 0 or 1. -/
theorem bit_cases (b : BitVec 1) : ((b.toNat : ℝ) : EReal) = 0 ∨ ((b.toNat : ℝ) : EReal) = 1 := by
  have h : b.toNat < 2 := b.isLt
  interval_cases hb : b.toNat <;> simp

theorem one_sub_one : (1 : EReal) - 1 = 0 := by
  rw [← EReal.coe_one, ← EReal.coe_sub]; simp

/-- Weighting each projection by its scaled flag is weighting the flagged sum. -/
theorem law (a b n f : EReal) (hf : f = 0 ∨ f = 1) :
    a * (f * n) + b * ((1 - f) * n) = (a * f + b * (1 - f)) * n := by
  rcases hf with rfl | rfl
  · simp [mul_assoc]
  · simp [one_sub_one]

end Cert.Lib.FlagLaw

end
-- ==== Proof.RefLayers.lean ====
/-
  The reference's building blocks as whole-array functions, each read at one entry as the row function it is.

  The reference applies the same short chains of array operations several times over:
  * the mean of each row, kept as a column (`muT`): the row's sum divided by the word 2048.0;
  * a row's entries minus the row's mean (`cenT`);
  * layer normalisation (`lnT`): the centred entries times the reciprocal square root of the mean of their
    squares plus the word of 1e-5, times a scale vector, plus a shift vector — six times;
  * a product with a weight plus a bias vector (`biasDotT`), three times, and the bare product (`dotT`), three times;
  * the logistic function spelt as `1 / (1 + exp (−y))` with the word of 1.0 (`sigT`), twice.
  Each is stated here once over variables, and read at row `p`, feature `q` as the corresponding function of row `p`
  alone (`Gru.mean`, `Gru.lnRow`, `Gru.dotRow`, `Ideal.logistic`). The word of 1.0 is the only literal whose value
  is used (it denotes 1); the words 2048.0 and 1e-5 stay as they are.
-/
import proofs.«101222_j4458176053543_2_alg».proof.Proof.RefOps
import proofs.«101222_j4458176053543_2_alg».proof.Proof.GruSpec
import proofs.«101222_j4458176053543_2_alg».proof.Proof.LibFlagLaw

noncomputable section

open scoped BigOperators

namespace Cert.ReferenceIdeal.RefValue

open Cert.ReferenceIdeal Cert.ReferenceIdeal.Gen Idealize.ShloMosaic Idealize.ShloMosaic.ValueIdx

/-- The mean of each row, as a column: the row's sum from the zero word, divided by the word 2048.0. -/
def muT (v : FVec Ideal S8192x2048 .f32) : FVec Ideal S8192x1 .f32 :=
  Host.divf
    (broadcastInDim S8192x1 ![0] bcast_S8192_S8192x1_0
      (Host.reduceAdd v (constant (F := Ideal) S_ .f32 0x00000000#32) reducesTo_S8192x2048_S8192_d1 h_S_))
    (broadcastInDim S8192x1 ![] bcast_S_S8192x1 (constant (F := Ideal) S_ .f32 0x45000000#32))

theorem muT_apply (v : FVec Ideal S8192x2048 .f32) (p : Fin 8192) :
    muT v (ix2 p (0 : Fin 1)) = Gru.mean (fun j => v (ix2 p j)) := by
  unfold muT Gru.mean
  rw [hdivf_apply, Cert.Lib.Spread.col_apply, rowSum_apply, Cert.Lib.Spread.splat_apply]

/-- Each entry minus its row's mean. -/
def cenT (v : FVec Ideal S8192x2048 .f32) : FVec Ideal S8192x2048 .f32 :=
  subf v (broadcastInDim S8192x2048 ![0, 1] bcast_S8192x1_S8192x2048_0_1 (muT v))

theorem cenT_apply (v : FVec Ideal S8192x2048 .f32) (p : Fin 8192) (q : Fin 2048) :
    cenT v (ix2 p q) = v (ix2 p q) - Gru.mean (fun j => v (ix2 p j)) := by
  unfold cenT
  rw [subf_apply, colB_apply, muT_apply]

/-- Layer normalisation of every row of `v` with scale `g` and shift `be`. -/
def lnT (v : FVec Ideal S8192x2048 .f32) (g be : FVec Ideal S2048 .f32) : FVec Ideal S8192x2048 .f32 :=
  addf
    (mulf
      (mulf (cenT v)
        (broadcastInDim S8192x2048 ![0, 1] bcast_S8192x1_S8192x2048_0_1
          (Host.rsqrt
            (addf (muT (mulf (cenT v) (cenT v)))
              (broadcastInDim S8192x1 ![] bcast_S_S8192x1 (constant (F := Ideal) S_ .f32 0x3727C5AC#32))))))
      (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 be))

theorem lnT_apply (v : FVec Ideal S8192x2048 .f32) (g be : FVec Ideal S2048 .f32) (p : Fin 8192) (q : Fin 2048) :
    lnT v g be (ix2 p q) = Gru.lnRow (fun j => v (ix2 p j)) (Gru.vec g) (Gru.vec be) q := by
  unfold lnT Gru.lnRow
  rw [addf_apply, mulf_apply, mulf_apply, rowB_apply, rowB_apply, colB_apply, hrsqrt_apply, addf_apply,
    Cert.Lib.Spread.splat_apply, muT_apply, cenT_apply]
  simp only [mulf_apply, cenT_apply]

/-- A batch array times a weight plus a bias vector. -/
def biasDotT (x : FVec Ideal S8192x2048 .f32) (W : FVec Ideal S2048x2048 .f32) (b : FVec Ideal S2048 .f32) :
    FVec Ideal S8192x2048 .f32 :=
  addf (Host.dotGeneral dot_S8192x2048_S2048x2048_S8192x2048_1_0_0_1_n_n none x W)
    (broadcastInDim S8192x2048 ![0, 1] bcast_S1x2048_S8192x2048_0_1 (broadcastInDim S1x2048 ![1] bcast_S2048_S1x2048_1 b))

theorem biasDotT_apply (x : FVec Ideal S8192x2048 .f32) (W : FVec Ideal S2048x2048 .f32) (b : FVec Ideal S2048 .f32)
    (p : Fin 8192) (q : Fin 2048) :
    biasDotT x W b (ix2 p q) = Gru.dotRow (fun k => x (ix2 p k)) W q + Gru.vec b q := by
  unfold biasDotT Gru.dotRow
  rw [addf_apply, dot_apply, rowB_apply]

/-- A batch array times a weight. -/
def dotT (x : FVec Ideal S8192x2048 .f32) (W : FVec Ideal S2048x2048 .f32) : FVec Ideal S8192x2048 .f32 :=
  Host.dotGeneral dot_S8192x2048_S2048x2048_S8192x2048_1_0_0_1_n_n none x W

theorem dotT_apply (x : FVec Ideal S8192x2048 .f32) (W : FVec Ideal S2048x2048 .f32) (p : Fin 8192) (q : Fin 2048) :
    dotT x W (ix2 p q) = Gru.dotRow (fun k => x (ix2 p k)) W q := by
  unfold dotT Gru.dotRow
  rw [dot_apply]

/-- The logistic function as the reference spells it: the word of 1.0 over the word of 1.0 plus `exp (−y)`. -/
def sigT (y : FVec Ideal S8192x2048 .f32) : FVec Ideal S8192x2048 .f32 :=
  Host.divf (broadcastInDim S8192x2048 ![] bcast_S_S8192x2048 (constant (F := Ideal) S_ .f32 0x3F800000#32))
    (addf (broadcastInDim S8192x2048 ![] bcast_S_S8192x2048 (constant (F := Ideal) S_ .f32 0x3F800000#32))
      (Host.exp (Host.negf y)))

theorem sigT_apply (y : FVec Ideal S8192x2048 .f32) (i : S8192x2048.Idx) : sigT y i = Ideal.logistic (y i) := by
  unfold sigT Ideal.logistic
  rw [hdivf_apply, addf_apply, Cert.Lib.Spread.splat_apply, hexp_apply, hnegf_apply, Cert.Lib.FlagLaw.one_word]

end Cert.ReferenceIdeal.RefValue

end
-- ==== Proof.RefValue.lean ====
/-
  The reference's result is the layer-normalised GRU cell of its 23 argument arrays.

  The reference's run ends with its result array at the composed term of its 216 array operations. That term is the
  following arrangement of the building blocks (read off the operations in order):
    r = σ(LN(x·W_ir + b_ir; g_ir, β_ir) + LN(h·W_hr; g_hr, β_hr))        (`rT`)
    z = σ(LN(x·W_iz + b_iz; g_iz, β_iz) + LN(h·W_hz; g_hz, β_hz))        (`zT`)
    n = tanh(LN(x·W_in + b_in; g_in, β_in) + r · LN(h·W_hn; g_hn, β_hn))  (`nT`)
    out = (1 − z)·n + z·h                                                 (`outT`)
  with `1` the word of 1.0 spread over the array. Entry `(p, q)` of each depends on row `p` of `x` and of `h` only,
  and is the specification's gate of that row (`rT_apply`, `zT_apply`, `nT_apply`), so the whole array is `Gru.G`
  (`outT_eq`). `run_G` restates the reference's run with its result named that way.
-/
import proofs.«101222_j4458176053543_2_alg».proof.Proof.RefLayers
import proofs.«101222_j4458176053543_2_alg».proof.Proof.Gen.ReferenceIdeal.Run

noncomputable section

open scoped BigOperators

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

/-- The reset gate, the update gate, the candidate state and the new state, as the reference composes them. -/
def rT (a : Gru.Inputs) : FVec Ideal S8192x2048 .f32 :=
  sigT (addf (lnT (biasDotT a.x a.Wir a.bir) a.gir a.beir) (lnT (dotT a.h a.Whr) a.ghr a.behr))
def zT (a : Gru.Inputs) : FVec Ideal S8192x2048 .f32 :=
  sigT (addf (lnT (biasDotT a.x a.Wiz a.biz) a.giz a.beiz) (lnT (dotT a.h a.Whz) a.ghz a.behz))
def nT (a : Gru.Inputs) : FVec Ideal S8192x2048 .f32 :=
  Host.tanh (addf (lnT (biasDotT a.x a.Win a.bin) a.gin a.bein) (mulf (rT a) (lnT (dotT a.h a.Whn) a.ghn a.behn)))
def outT (a : Gru.Inputs) : FVec Ideal S8192x2048 .f32 :=
  addf
    (mulf (subf (broadcastInDim S8192x2048 ![] bcast_S_S8192x2048 (constant (F := Ideal) S_ .f32 0x3F800000#32)) (zT a)) (nT a))
    (mulf (zT a) a.h)

theorem rT_apply (a : Gru.Inputs) (p : Fin 8192) (q : Fin 2048) : rT a (ix2 p q) = Gru.rGate a p q := by
  unfold rT Gru.rGate Gru.inSide Gru.hidSide
  rw [sigT_apply, addf_apply, lnT_apply, lnT_apply]
  simp only [biasDotT_apply, dotT_apply]

theorem zT_apply (a : Gru.Inputs) (p : Fin 8192) (q : Fin 2048) : zT a (ix2 p q) = Gru.zGate a p q := by
  unfold zT Gru.zGate Gru.inSide Gru.hidSide
  rw [sigT_apply, addf_apply, lnT_apply, lnT_apply]
  simp only [biasDotT_apply, dotT_apply]

theorem nT_apply (a : Gru.Inputs) (p : Fin 8192) (q : Fin 2048) : nT a (ix2 p q) = Gru.cand a p q := by
  unfold nT Gru.cand Gru.inSide Gru.hidSide
  rw [htanh_apply, addf_apply, mulf_apply, rT_apply, lnT_apply, lnT_apply]
  simp only [biasDotT_apply, dotT_apply]

/-- The reference's arrangement, entry by entry, is the specification. -/
theorem outT_eq (a : Gru.Inputs) : outT a = Gru.G a := by
  funext i
  obtain ⟨p, q, rfl⟩ : ∃ (p : Fin 8192) (q : Fin 2048), i = ix2 p q := ⟨i 0, i 1, eq_ix2 i⟩
  unfold outT Gru.G
  rw [addf_apply, mulf_apply, mulf_apply, subf_apply, Cert.Lib.Spread.splat_apply, zT_apply, nT_apply]

/-- The 23 argument arrays as device `c` holds them at launch. -/
def inputs (m : (ℓ : Loc nD τ sig) → Buf (Elt Ideal) ℓ) (c : Dev nD) : Gru.Inputs where
    x := m ((c.tc : Thread nD τ).loc main_arg0)
    h := m ((c.tc : Thread nD τ).loc main_arg1)
    Wir := m ((c.tc : Thread nD τ).loc main_arg2)
    Wiz := m ((c.tc : Thread nD τ).loc main_arg3)
    Win := m ((c.tc : Thread nD τ).loc main_arg4)
    bir := m ((c.tc : Thread nD τ).loc main_arg5)
    biz := m ((c.tc : Thread nD τ).loc main_arg6)
    bin := m ((c.tc : Thread nD τ).loc main_arg7)
    Whr := m ((c.tc : Thread nD τ).loc main_arg8)
    Whz := m ((c.tc : Thread nD τ).loc main_arg9)
    Whn := m ((c.tc : Thread nD τ).loc main_arg10)
    gir := m ((c.tc : Thread nD τ).loc main_arg11)
    beir := m ((c.tc : Thread nD τ).loc main_arg12)
    giz := m ((c.tc : Thread nD τ).loc main_arg13)
    beiz := m ((c.tc : Thread nD τ).loc main_arg14)
    gin := m ((c.tc : Thread nD τ).loc main_arg15)
    bein := m ((c.tc : Thread nD τ).loc main_arg16)
    ghr := m ((c.tc : Thread nD τ).loc main_arg17)
    behr := m ((c.tc : Thread nD τ).loc main_arg18)
    ghz := m ((c.tc : Thread nD τ).loc main_arg19)
    behz := m ((c.tc : Thread nD τ).loc main_arg20)
    ghn := m ((c.tc : Thread nD τ).loc main_arg21)
    behn := m ((c.tc : Thread nD τ).loc main_arg22)

/-- An array that is the arrangement `outT` of device `c`'s launch arrays is `Gru.G` of them. It is used with the
    run's composed term, which is that arrangement operation for operation, so the hypothesis holds by unfolding. -/
theorem term_eq (m : (ℓ : Loc nD τ sig) → Buf (Elt Ideal) ℓ) (c : Dev nD) (T : FVec Ideal S8192x2048 .f32)
    (hT : T = outT (inputs m c)) : T = Gru.G (inputs m c) := hT.trans (outT_eq _)

/-- Every execution of the reference ends with its result array at `Gru.G` of the argument arrays, the arguments
    unchanged. -/
theorem run_G (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v180) = Gru.G (inputs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run Cert.ReferenceIdeal.defs _ _).mono
    (fun _ h c => ⟨(h c).1.trans (term_eq m c _ rfl), (h c).2⟩)
    (Cert.ReferenceIdeal.Value.run (F := Ideal) m ρ)

end Cert.ReferenceIdeal.RefValue

end
-- ==== Proof.FrEntry.lean ====
/-
  The region's entry.  The program first runs twenty-three host operations (two roundings to bf16 of the
  inputs, two concatenations of three weight matrices each, their roundings, fifteen reshapes of the
  bias and normalisation vectors, a zero row, and the concatenation of the sixteen rows into the
  parameter table), then the one grid region.  This module names what every TensorCore buffer holds when
  the region is entered, shows that no host operation writes an argument array, and fixes the vocabulary
  the body's runs are stated in: each window's block at a grid point, the two scratch buffers that
  receive the concatenated weights, the two weight arrays left in HBM, and the two semaphore cells the
  body's own copies complete on.
-/
import proofs.«101222_j4458176053543_2_alg».proof.Proof.Gen.KernelIdeal.Launch
import proofs.«101222_j4458176053543_2_alg».proof.Proof.Gen.KernelIdeal.Skeleton
import proofs.«101222_j4458176053543_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers at the region's entry -/

/-- What core `c`'s TensorCore buffers hold when the region is entered: the launch contents after the host
    operations, in order. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region, so the region starts from `V`. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Every buffer some host operation writes: the intermediate results, none of them an argument. -/
def written : List (Ref sig .tc) :=
  [main_v0, main_v1, main_v2, main_v3, main_v4, main_v5, main_v6, main_v7, main_v8, main_v9, main_v10, main_v11,
   main_v12, main_v13, main_v14, main_v15, main_v16, main_v17, main_v18, main_v19, main_cst, main_v20, main_v21]

theorem sub_written {y : Ref sig .tc} (hy : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem hy))

/-- Each host operation writes only its own result, one of `written`. -/
theorem hostOps0_writes : (hostOps0 : List (HloOp τ sig (Elt F))).Forall fun op =>
    op.writes ⊆ (written.map (Proc.devRef (τ := τ) .tc)).toFinset :=
  ⟨sub_written (y := main_v0) (by decide), sub_written (y := main_v1) (by decide), sub_written (y := main_v2) (by decide),
   sub_written (y := main_v3) (by decide), sub_written (y := main_v4) (by decide), sub_written (y := main_v5) (by decide),
   sub_written (y := main_v6) (by decide), sub_written (y := main_v7) (by decide), sub_written (y := main_v8) (by decide),
   sub_written (y := main_v9) (by decide), sub_written (y := main_v10) (by decide), sub_written (y := main_v11) (by decide),
   sub_written (y := main_v12) (by decide), sub_written (y := main_v13) (by decide), sub_written (y := main_v14) (by decide),
   sub_written (y := main_v15) (by decide), sub_written (y := main_v16) (by decide), sub_written (y := main_v17) (by decide),
   sub_written (y := main_v18) (by decide), sub_written (y := main_v19) (by decide), sub_written (y := main_cst) (by decide),
   sub_written (y := main_v20) (by decide), sub_written (y := main_v21) (by decide)⟩

/-- A buffer no host operation writes is found by the region as launched. -/
theorem V_of_not_written (c : Dev nD) (r : Ref sig .tc) (hr : r ∉ written) : V m c r = m ((c : Thread nD τ).loc r) :=
  StableHlo.after_of_writes_sub hostOps0 _ hostOps0_writes hr

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)
theorem V_main_arg11 (c : Dev nD) : V m c main_arg11 = m ((c : Thread nD τ).loc main_arg11) := V_of_not_written m c _ (by decide)
theorem V_main_arg12 (c : Dev nD) : V m c main_arg12 = m ((c : Thread nD τ).loc main_arg12) := V_of_not_written m c _ (by decide)
theorem V_main_arg13 (c : Dev nD) : V m c main_arg13 = m ((c : Thread nD τ).loc main_arg13) := V_of_not_written m c _ (by decide)
theorem V_main_arg14 (c : Dev nD) : V m c main_arg14 = m ((c : Thread nD τ).loc main_arg14) := V_of_not_written m c _ (by decide)
theorem V_main_arg15 (c : Dev nD) : V m c main_arg15 = m ((c : Thread nD τ).loc main_arg15) := V_of_not_written m c _ (by decide)
theorem V_main_arg16 (c : Dev nD) : V m c main_arg16 = m ((c : Thread nD τ).loc main_arg16) := V_of_not_written m c _ (by decide)
theorem V_main_arg17 (c : Dev nD) : V m c main_arg17 = m ((c : Thread nD τ).loc main_arg17) := V_of_not_written m c _ (by decide)
theorem V_main_arg18 (c : Dev nD) : V m c main_arg18 = m ((c : Thread nD τ).loc main_arg18) := V_of_not_written m c _ (by decide)
theorem V_main_arg19 (c : Dev nD) : V m c main_arg19 = m ((c : Thread nD τ).loc main_arg19) := V_of_not_written m c _ (by decide)
theorem V_main_arg20 (c : Dev nD) : V m c main_arg20 = m ((c : Thread nD τ).loc main_arg20) := V_of_not_written m c _ (by decide)
theorem V_main_arg21 (c : Dev nD) : V m c main_arg21 = m ((c : Thread nD τ).loc main_arg21) := V_of_not_written m c _ (by decide)
theorem V_main_arg22 (c : Dev nD) : V m c main_arg22 = m ((c : Thread nD τ).loc main_arg22) := V_of_not_written m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the staging buffer in use for an input window holds that window's block there: either the
    pipeline has just fetched it, or the block index is the one of the previous point and the body left the
    buffer alone.  This holds for any proof data whose arrays are the entry contents and whose body leaves each
    input block in place.  Window 0: the rows of `x`. -/
theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1: the rows of `h`. -/
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2: the parameter table, one block for the whole grid, fetched once. -/
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called on -/

/-- The staging memref the pipeline passes the body for each window at point `t` (the slot in use there), with the
    fact that it is a whole buffer. -/
abbrev ms0 (t : Fin cfg0.N) : Memref sig .tc .vmem S128x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x2048 .f32 := win0_3.stage (cfg0.slots t 3)
abbrev hs3 (t : Fin cfg0.N) : (ms3 t).IsWhole := hstage0_3 ((cfg0.slots t 3).cast nbuf0_3)
/-- The view of one of the output window's two staging buffers: what a point stores is read back through it (which
    of the two does not matter, the stored pieces covering the block). -/
abbrev VO3 : View sig .tc .vmem S128x2048 .f32 := (Memref.whole cc0_stg3_0 : Memref sig .tc .vmem S128x2048 .f32).view
/-- The two scratch buffers: the input-side and the hidden-side weights, three gates side by side. -/
abbrev scA : Memref sig .tc .vmem S2048x6144 .bf16 := Memref.whole cc0_scratch0
abbrev scB : Memref sig .tc .vmem S2048x6144 .bf16 := Memref.whole cc0_scratch1
/-- The two weight arrays left in HBM, which the body copies into the scratch buffers itself. -/
abbrev hbA : Memref sig .tc .hbm S2048x6144 .bf16 := Memref.whole main_v2
abbrev hbB : Memref sig .tc .hbm S2048x6144 .bf16 := Memref.whole main_v4
/-- The contents type of the buffer under a memref on core `c`, and the assertion that core `c` holds that
    buffer whole, at full share, with contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The body's own semaphore cells and the arrays it copies -/

/-- The body's two DMA semaphores are cells 7 and 8 of the pool (cells 0 to 6 are the windows'). -/
abbrev osem : Fin 2 → SemLoc sig := fun j => (![SemLoc.dma 7, SemLoc.dma 8] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; rfl
/-- The arrays the body copies: unscoped, and no window's array. -/
def HB : Finset (Ref sig .tc) := {main_v2, main_v4}
theorem HB_sub : HB ⊆ Pipeline.restRefs sig spec0 := by decide
theorem hbmPts_eq (c : Dev nD) :
    (bigSep HB (fun b => ((c : Thread nD τ).loc b) ↦{fullShare} V m c b) : sProp 𝕄)
      = iprop(hbPt c hbA (V m c main_v2) ∗ hbPt c hbB (V m c main_v4)) := by
  rw [BI.bigSep_eq_bigSepL_of_eq [main_v2, main_v4] (by decide) (by decide)]; rfl

/-- What the launch hands the region and takes back, conjunct by conjunct: both scratch buffers at some
    contents, the generator register at some state, the two cells at zero, the two arrays at their entry
    contents. -/
theorem PhiD_eq (c : Dev nD) :
    (Pipeline.ΦD osem spec0 HB (V m) c : sProp 𝕄)
      = iprop(iprop((∃ d, owns (c : Thread nD τ) scA fullShare d) ∗ (∃ d, owns (c : Thread nD τ) scB fullShare d)) ∗ (∃ r, prngReg c r)
          ∗ iprop(semVal ((c : Thread nD τ), SemLoc.dma 7) 0 ∗ semVal ((c : Thread nD τ), SemLoc.dma 8) 0)
          ∗ iprop(hbPt c hbA (V m c main_v2) ∗ hbPt c hbB (V m c main_v4))) := by
  rw [Pipeline.ΦD_eq, scopedRest0_eq, ownSems_eq, hbmPts_eq]; simp only [scA, scB, owns_whole]; try rfl

/-! ## Which points copy the weights -/

/-- The condition of the body's three conditionals: the second grid coordinate is zero. -/
abbrev cond (i : grid0.Coords) : Prop :=
  (Scalar.cmpi .ne (Scalar.extui (Scalar.cmpi .eq (BitVec.ofNat 32 (i 1).val) 0#32)) 0#32) = 1#1
/-- It holds at the first point of each of the two rows of the grid. -/
theorem hcond : ∀ t : Fin cfg0.N, cond (grid0.coords t) ↔ t.val % 32 = 0 :=
  (by decide +kernel : ∀ t : Fin grid0.N, cond (grid0.coords t) ↔ t.val % 32 = 0)

end Cert.KernelIdeal.Frm

end
-- ==== Proof.FrFirst.lean ====
/-
  The body at a point that copies the weights (the second grid coordinate is zero).  It starts the two
  copies — the input-side weights into the first scratch buffer on the first of its two semaphore cells, the
  hidden-side weights into the second on the second —, loads the parameter rows and its rows of `x` and
  `h`, waits for the first copy before the first load from the first scratch buffer and for the second
  before the first load from the second, computes, and stores one whole block into the output's staging
  buffer.  Given both cells at zero, both weight arrays held whole and the core's record of waits, it
  runs to its end with the inputs as they were, each scratch buffer overwritten whole by the copy's
  payload, the cells back at zero, the arrays held as before and the two waits recorded.
-/
import proofs.«101222_j4458176053543_2_alg».proof.Proof.FrEntry

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the run at a copying point leaves in the output's staging buffer and in the two scratch
    buffers (found by the run itself), with the body's triple over them. -/
noncomputable def runFirst (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    Σ' (L3 : List (View.Piece (Elt F) S128x2048 .f32)) (LA : List (View.Piece (Elt F) S2048x6144 .bf16)), { LB : List (View.Piece (Elt F) S2048x6144 .bf16) //
      ∀ (W : Waits sig Unit) (K : PUnit → sProp 𝕄),
        iprop(owns (c : Thread nD τ) a2 fullShare x0 ∗ owns (c : Thread nD τ) a3 fullShare x1 ∗ owns (c : Thread nD τ) a6 fullShare x2
            ∗ (∃ d, owns (c : Thread nD τ) a7 fullShare d) ∗ (∃ d, owns (c : Thread nD τ) a8 fullShare d) ∗ (∃ d, owns (c : Thread nD τ) a9 fullShare d)
            ∗ semVal ((c : Thread nD τ), SemLoc.dma 7) 0 ∗ semVal ((c : Thread nD τ), SemLoc.dma 8) 0
            ∗ hbPt c hbA fhA ∗ hbPt c hbB fhB ∗ owes (c : Thread nD τ) 0 W
            ∗ (iprop(owns (c : Thread nD τ) a2 fullShare x0 ∗ owns (c : Thread nD τ) a3 fullShare x1 ∗ owns (c : Thread nD τ) a6 fullShare x2
                ∗ (∃ f, a7.view.loc (c : Thread nD τ) ↦[a7.view.set]{fullShare} a7.view.writes (Elt F) f L3)
                ∗ (∃ f, a8.view.loc (c : Thread nD τ) ↦[a8.view.set]{fullShare} a8.view.writes (Elt F) f LA)
                ∗ (∃ f, a9.view.loc (c : Thread nD τ) ↦[a9.view.set]{fullShare} a9.view.writes (Elt F) f LB)
                ∗ semVal ((c : Thread nD τ), SemLoc.dma 7) 0 ∗ semVal ((c : Thread nD τ), SemLoc.dma 8) 0
                ∗ hbPt c hbA fhA ∗ hbPt c hbB fhB ∗ (∃ W', owes (c : Thread nD τ) 0 W')) -∗ K ⟨⟩))
          ⊢ wp frame (wpE (defs₀ (F := F)) Variants.none c none) Set.univ (cc0__gru_kernel i a2 h2 a3 h3 (Memref.whole main_v2) (Memref.isWhole_whole _) (Memref.whole main_v4) (Memref.isWhole_whole _) a6 h6 a7 h7 a8 h8 a9 h9 cc0_scratch2) K } := by
  refine ⟨?_, ?_, ?_, fun W K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%d3, %f3, -, H3⟩, ⟨%dA, %fA, -, HA⟩, ⟨%dB, %fB, -, HB⟩, Hq0, Hq1, HhA, HhB, HW, Hk⟩
    obtain rfl := h2.eq_unread hf0; obtain rfl := h3.eq_unread hf1; obtain rfl := h6.eq_unread hf2
    sl_exec (disch := exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h6.read_unread _
      iexact H2
    isplitl [H3]; · iexists _; iexact H3
    isplitl [HA]; · iexists _; iexact HA
    isplitl [HB]; · iexists _; iexact HB
    isplitl [Hq0]; · iexact Hq0
    isplitl [Hq1]; · iexact Hq1
    isplitl [HhA]; · iexact HhA
    isplitl [HhB]; · iexact HhB
    iexists _; iexact HW

end Cert.KernelIdeal.Frm

end
-- ==== Proof.FrLater.lean ====
/-
  The body at a point that copies nothing (the second grid coordinate is not zero).  Both scratch buffers
  must already hold the weights: the body loads the parameter rows, its rows of `x` and `h` and six
  2048 × 2048 column slices of the two scratch buffers, computes, and stores one whole block into the
  output's staging buffer.  It touches neither the semaphore cells nor the weight arrays left in HBM, and
  leaves the inputs and both scratch buffers as they were.
-/
import proofs.«101222_j4458176053543_2_alg».proof.Proof.FrFirst

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the run at a point that copies nothing leaves in the output's staging buffer (found by
    the run itself), with the body's triple over them; `sA` and `sB` are what the scratch buffers hold. -/
noncomputable def runLater (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) :
    { L3 : List (View.Piece (Elt F) S128x2048 .f32) //
      ∀ (E : Set ℕ) (K : PUnit → sProp 𝕄),
        iprop(owns (c : Thread nD τ) a2 fullShare x0 ∗ owns (c : Thread nD τ) a3 fullShare x1 ∗ owns (c : Thread nD τ) a6 fullShare x2
            ∗ (∃ d, owns (c : Thread nD τ) a7 fullShare d) ∗ owns (c : Thread nD τ) a8 fullShare sA ∗ owns (c : Thread nD τ) a9 fullShare sB
            ∗ (iprop(owns (c : Thread nD τ) a2 fullShare x0 ∗ owns (c : Thread nD τ) a3 fullShare x1 ∗ owns (c : Thread nD τ) a6 fullShare x2
                ∗ (∃ f, a7.view.loc (c : Thread nD τ) ↦[a7.view.set]{fullShare} a7.view.writes (Elt F) f L3)
                ∗ owns (c : Thread nD τ) a8 fullShare sA ∗ owns (c : Thread nD τ) a9 fullShare sB) -∗ K ⟨⟩))
          ⊢ wp frame (wpE (defs₀ (F := F)) Variants.none c none) E (cc0__gru_kernel i a2 h2 a3 h3 (Memref.whole main_v2) (Memref.isWhole_whole _) (Memref.whole main_v4) (Memref.isWhole_whole _) a6 h6 a7 h7 a8 h8 a9 h9 cc0_scratch2) K } := by
  refine ⟨?_, fun E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%d3, %f3, -, H3⟩, ⟨%fA, %hfA, HA⟩, ⟨%fB, %hfB, HB⟩, Hk⟩
    obtain rfl := h2.eq_unread hf0; obtain rfl := h3.eq_unread hf1; obtain rfl := h6.eq_unread hf2
    obtain rfl := h8.eq_unread hfA; obtain rfl := h9.eq_unread hfB
    sl_exec (disch := exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h6.read_unread _
      iexact H2
    isplitl [H3]; · iexists _; iexact H3
    isplitl [HA]
    · iexists _; isplitr; · ipureintro; exact h8.read_unread _
      iexact HA
    iexists _; isplitr; · ipureintro; exact h9.read_unread _
    iexact HB

end Cert.KernelIdeal.Frm

end
-- ==== Proof.FrRun.lean ====
/-
  The run of the whole grid.  The proof data says what each staging buffer holds after the body at each
  of the 64 points: an input window its block; the output window what the point's run found; and the
  invariant carried from point to point TRACKS the two scratch buffers — before the first point they hold
  anything, after any point the first holds the input-side weight array's entry contents and the second
  the hidden-side array's.  A point whose second coordinate is zero (points 0 and 32) establishes this by
  its two copies; every other point needs it to load the weights, and keeps it.  From the body's triple at
  every point the library's launch theorem gives the run of the program, and from its post the frame claim:
  every argument array ends as it was launched.
-/
import proofs.«101222_j4458176053543_2_alg».proof.Proof.FrLater

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the runs found -/

/-- The one store of a copying point covers the output's staging buffer; -/
theorem coverFirst3 (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) (y : S128x2048.Idx) : ∃ pc ∈ (runFirst c i a2 h2 a3 h3 a6 h6 a7 h7 a8 h8 a9 h9 hc x0 x1 x2 fhA fhB).1, y ∈ pc.1.set :=
  View.cover_of_tiledL (runFirst c i a2 h2 a3 h3 a6 h6 a7 h7 a8 h8 a9 h9 hc x0 x1 x2 fhA fhB).1 S128x2048.size (by sl_kernel_rfl) y
/-- each copy covers its scratch buffer; -/
theorem coverFirstA (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) (y : S2048x6144.Idx) : ∃ pc ∈ (runFirst c i a2 h2 a3 h3 a6 h6 a7 h7 a8 h8 a9 h9 hc x0 x1 x2 fhA fhB).2.1, y ∈ pc.1.set :=
  View.cover_of_tiledL (runFirst c i a2 h2 a3 h3 a6 h6 a7 h7 a8 h8 a9 h9 hc x0 x1 x2 fhA fhB).2.1 S2048x6144.size (by sl_kernel_rfl) y
theorem coverFirstB (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) (y : S2048x6144.Idx) : ∃ pc ∈ (runFirst c i a2 h2 a3 h3 a6 h6 a7 h7 a8 h8 a9 h9 hc x0 x1 x2 fhA fhB).2.2.1, y ∈ pc.1.set :=
  View.cover_of_tiledL (runFirst c i a2 h2 a3 h3 a6 h6 a7 h7 a8 h8 a9 h9 hc x0 x1 x2 fhA fhB).2.2.1 S2048x6144.size (by sl_kernel_rfl) y
/-- and the one store of any other point covers the output's staging buffer. -/
theorem coverLater3 (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) (y : S128x2048.Idx) : ∃ pc ∈ (runLater c i a2 h2 a3 h3 a6 h6 a7 h7 a8 h8 a9 h9 hc x0 x1 x2 sA sB).1, y ∈ pc.1.set :=
  View.cover_of_tiledL (runLater c i a2 h2 a3 h3 a6 h6 a7 h7 a8 h8 a9 h9 hc x0 x1 x2 sA sB).1 S128x2048.size (by sl_kernel_rfl) y

/-- What a copying point leaves in the output's staging buffer: its pieces read back. -/
def outFirst (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) : Vec F S128x2048 .f32 :=
  VO3.read (Elt F) (VO3.writes (Elt F) VO3.junk (runFirst c i a2 h2 a3 h3 a6 h6 a7 h7 a8 h8 a9 h9 hc x0 x1 x2 fhA fhB).1)
/-- What any other point leaves there. -/
def outLater (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) : Vec F S128x2048 .f32 :=
  VO3.read (Elt F) (VO3.writes (Elt F) VO3.junk (runLater c i a2 h2 a3 h3 a6 h6 a7 h7 a8 h8 a9 h9 hc x0 x1 x2 sA sB).1)

/-- A weight array's contents, as contents of a scratch buffer of the same shape and element type. -/
def wOf (c : Dev nD) (M : Memref sig .tc .hbm S2048x6144 .bf16) (f : HbBuf (F := F) c M) : Vec F S2048x6144 .bf16 := M.view.read (Elt F) f

/-- After a copying point the first scratch buffer holds the input-side weight array: the copy's payload is
    the array read whole, written whole. -/
theorem scA_first (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    scA.view.read (Elt F) (scA.view.writes (Elt F) scA.view.junk (runFirst c i a2 h2 a3 h3 a6 h6 a7 h7 a8 h8 a9 h9 hc x0 x1 x2 fhA fhB).2.1) = wOf c hbA fhA := by
  unfold runFirst
  dsimp only
  sl_unfold_words
  exact View.read_writes_whole _ _ _
/-- And the second the hidden-side one. -/
theorem scB_first (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    scB.view.read (Elt F) (scB.view.writes (Elt F) scB.view.junk (runFirst c i a2 h2 a3 h3 a6 h6 a7 h7 a8 h8 a9 h9 hc x0 x1 x2 fhA fhB).2.2.1) = wOf c hbB fhB := by
  unfold runFirst
  dsimp only
  sl_unfold_words
  exact View.read_writes_whole _ _ _

/-! ## What the buffers hold after each point -/

/-- The weights as the scratch buffers hold them once copied. -/
def wA (c : Dev nD) : Vec F S2048x6144 .bf16 := wOf c hbA (V m c main_v2)
def wB (c : Dev nD) : Vec F S2048x6144 .bf16 := wOf c hbB (V m c main_v4)

/-- What the output's staging buffer holds after the body at point `t`: the found contents of the point's
    case, at the point's memrefs and blocks (and, at a point that copies nothing, the weights in scratch). -/
def outAt (c : Dev nD) (t : Fin cfg0.N) : Vec F S128x2048 .f32 :=
  if h : t.val % 32 = 0 then
    outFirst c (grid0.coords t) (ms0 t) (hs0 t) (ms1 t) (hs1 t) (ms2 t) (hs2 t) (ms3 t) (hs3 t) scA (Memref.isWhole_whole _) scB (Memref.isWhole_whole _) ((hcond t).mpr h) (iblk m c 0 t) (iblk m c 1 t) (iblk m c 2 t) (V m c main_v2) (V m c main_v4)
  else
    outLater c (grid0.coords t) (ms0 t) (hs0 t) (ms1 t) (hs1 t) (ms2 t) (hs2 t) (ms3 t) (hs3 t) scA (Memref.isWhole_whole _) scB (Memref.isWhole_whole _) (fun h' => h ((hcond t).mp h')) (iblk m c 0 t) (iblk m c 1 t) (iblk m c 2 t) (wA m c) (wB m c)

theorem outAt_first (c : Dev nD) (t : Fin cfg0.N) (h : t.val % 32 = 0) : outAt m c t
    = outFirst c (grid0.coords t) (ms0 t) (hs0 t) (ms1 t) (hs1 t) (ms2 t) (hs2 t) (ms3 t) (hs3 t) scA (Memref.isWhole_whole _) scB (Memref.isWhole_whole _) ((hcond t).mpr h) (iblk m c 0 t) (iblk m c 1 t) (iblk m c 2 t) (V m c main_v2) (V m c main_v4) := dif_pos h
theorem outAt_later (c : Dev nD) (t : Fin cfg0.N) (h : ¬t.val % 32 = 0) : outAt m c t
    = outLater c (grid0.coords t) (ms0 t) (hs0 t) (ms1 t) (hs1 t) (ms2 t) (hs2 t) (ms3 t) (hs3 t) scA (Memref.isWhole_whole _) scB (Memref.isWhole_whole _) (fun h' => h ((hcond t).mp h')) (iblk m c 0 t) (iblk m c 1 t) (iblk m c 2 t) (wA m c) (wB m c) := dif_neg h

/-- The invariant once the weights are in scratch: both scratch buffers at the weights, the generator register at
    some state, the two cells at zero, the two weight arrays at their entry contents. -/
def PhiW (c : Dev nD) : sProp 𝕄 :=
  iprop(iprop(owns (c : Thread nD τ) scA fullShare (wA m c) ∗ owns (c : Thread nD τ) scB fullShare (wB m c)) ∗ (∃ r, prngReg c r)
    ∗ iprop(semVal ((c : Thread nD τ), SemLoc.dma 7) 0 ∗ semVal ((c : Thread nD τ), SemLoc.dma 8) 0)
    ∗ iprop(hbPt c hbA (V m c main_v2) ∗ hbPt c hbB (V m c main_v4)))

/-- The invariant before position `n`: what the launch hands over before the first point, the weights in
    scratch afterwards. -/
def PhiS (c : Dev nD) : ℕ → sProp 𝕄
  | 0 => Pipeline.ΦD osem spec0 HB (V m) c
  | _ + 1 => PhiW m c

theorem PhiS_zero (c : Dev nD) (n : ℕ) (hz : n = 0) : PhiS m c n = Pipeline.ΦD osem spec0 HB (V m) c := by subst hz; rfl
theorem PhiS_pos (c : Dev nD) (n : ℕ) (hz : n ≠ 0) : PhiS m c n = PhiW m c := by
  cases n with
  | zero => exact absurd rfl hz
  | succ n => rfl

/-- With the weights' contents forgotten, the tracked invariant is the launch's. -/
theorem PhiW_out (c : Dev nD) : PhiW m c ⊢ Pipeline.ΦD osem spec0 HB (V m) c := by
  rw [PhiD_eq]; unfold PhiW
  iintro ⟨⟨HA, HB⟩, Hr⟩
  isplitl [HA HB]
  · isplitl [HA]; · iexists _; iexact HA
    iexists _; iexact HB
  iexact Hr

/-! ## The proof data -/

/-- Core `c`'s account of the 64 points.  Arrays: their entry contents.  After point `t`: windows 0, 1 and 2 (the
    inputs) still hold their blocks, window 3 (the output) holds `outAt m c t`.  Invariant before position `n`:
    `PhiS m c n`.  Every share is full and the core owes no one a signal. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiW m c := rfl

/-! ## The body obligation -/

/-- The body's precondition at point `t`: the invariant before the point, the core's record of waits, and each
    window's staging buffer in use there — an input's at its block, the output's at anything. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- The body's postcondition at point `t`: the invariant after the point, the record of waits, and each
    staging buffer at what the proof data says the body leaves in it. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4800000 in
/-- The body at any point.  The input buffers hold their blocks.  At a copying point the invariant hands over
    the scratch buffers at whatever they hold (anything at the first point, the weights at point 32), the
    cells at zero and the weight arrays; the run copies, and hands the scratch buffers back at the weights.
    At any other point the invariant already holds the weights in scratch, and the run leaves it as it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [after0, after1, after2, after3, Phi_succ, Phi_castSucc]
  unfold Dat.owesAt Pipeline.owesWithin
  rw [show (dats m 0 c).owed t.castSucc = 0 from rfl, show (dats m 0 c).owed t.succ = 0 from rfl]
  by_cases h0 : t.val % 32 = 0
  · rw [outAt_first m c t h0]
    unfold outFirst
    have hpre : PhiS m c t.val ⊢ Pipeline.ΦD osem spec0 HB (V m) c := by
      by_cases hz : t.val = 0
      · rw [PhiS_zero m c _ hz]
      · rw [PhiS_pos m c _ hz]; exact PhiW_out m c
    refine (sep_mono hpre .rfl).trans ?_
    rw [PhiD_eq]
    iintro ⟨⟨⟨HA, HB⟩, Hg, ⟨Hq0, Hq1⟩, HhA, HhB⟩, ⟨%W, -, HW⟩, ⟨%d0, H0⟩, ⟨%d1, H1⟩, ⟨%d2, H2⟩, ⟨%d3, H3⟩⟩
    iapply ((runFirst c (grid0.coords t) (ms0 t) (hs0 t) (ms1 t) (hs1 t) (ms2 t) (hs2 t) (ms3 t) (hs3 t) scA (Memref.isWhole_whole _) scB (Memref.isWhole_whole _) ((hcond t).mpr h0) (iblk m c 0 t) (iblk m c 1 t) (iblk m c 2 t) (V m c main_v2) (V m c main_v4)).2.2.2 W _)
    isplitl [H0]; · iexact H0
    isplitl [H1]; · iexact H1
    isplitl [H2]; · iexact H2
    isplitl [H3]; · iexists _; iexact H3
    isplitl [HA]; · iexact HA
    isplitl [HB]; · iexact HB
    isplitl [Hq0]; · iexact Hq0
    isplitl [Hq1]; · iexact Hq1
    isplitl [HhA]; · iexact HhA
    isplitl [HhB]; · iexact HhB
    isplitl [HW]; · iexact HW
    iintro ⟨H0, H1, H2, ⟨%e3, H3⟩, ⟨%eA, HA⟩, ⟨%eB, HB⟩, Hq0, Hq1, HhA, HhB, ⟨%W', HW'⟩⟩
    isplitl [HA HB Hg Hq0 Hq1 HhA HhB]
    · unfold PhiW
      isplitl [HA HB]
      · isplitl [HA]
        · unfold owns; iexists _; isplitr
          swap; · iexact HA
          ipureintro
          exact (View.read_writes_of_cover _ _ _ _ _ (coverFirstA c _ _ _ _ _ _ _ _ _ _ _ _ _ _ _ _ _ _ _)).trans (scA_first c _ _ _ _ _ _ _ _ _ _ _ _ _ _ _ _ _ _ _)
        · unfold owns; iexists _; isplitr
          swap; · iexact HB
          ipureintro
          exact (View.read_writes_of_cover _ _ _ _ _ (coverFirstB c _ _ _ _ _ _ _ _ _ _ _ _ _ _ _ _ _ _ _)).trans (scB_first c _ _ _ _ _ _ _ _ _ _ _ _ _ _ _ _ _ _ _)
      isplitl [Hg]; · iexact Hg
      isplitl [Hq0 Hq1]
      · isplitl [Hq0]; · iexact Hq0
        iexact Hq1
      isplitl [HhA]; · iexact HhA
      iexact HhB
    isplitl [HW']
    · iexists W'; isplitr; · ipureintro; exact fun _ _ => Or.inl trivial
      iexact HW'
    isplitl [H0]; · iexact H0
    isplitl [H1]; · iexact H1
    isplitl [H2]; · iexact H2
    unfold owns; iexists _; isplitr
    swap; · iexact H3
    ipureintro; exact View.read_writes_of_cover _ _ _ _ _ (coverFirst3 c _ _ _ _ _ _ _ _ _ _ _ _ _ _ _ _ _ _ _)
  · rw [outAt_later m c t h0]
    unfold outLater
    have hz : t.val ≠ 0 := fun e => h0 (by rw [e])
    rw [PhiS_pos m c _ hz]
    unfold PhiW
    iintro ⟨⟨⟨HA, HB⟩, Hr⟩, Ho, ⟨%d0, H0⟩, ⟨%d1, H1⟩, ⟨%d2, H2⟩, ⟨%d3, H3⟩⟩
    iapply ((runLater c (grid0.coords t) (ms0 t) (hs0 t) (ms1 t) (hs1 t) (ms2 t) (hs2 t) (ms3 t) (hs3 t) scA (Memref.isWhole_whole _) scB (Memref.isWhole_whole _) (fun h' => h0 ((hcond t).mp h')) (iblk m c 0 t) (iblk m c 1 t) (iblk m c 2 t) (wA m c) (wB m c)).2 Set.univ _)
    isplitl [H0]; · iexact H0
    isplitl [H1]; · iexact H1
    isplitl [H2]; · iexact H2
    isplitl [H3]; · iexists _; iexact H3
    isplitl [HA]; · iexact HA
    isplitl [HB]; · iexact HB
    iintro ⟨H0, H1, H2, ⟨%e3, H3⟩, HA, HB⟩
    isplitl [HA HB Hr]
    · isplitl [HA HB]
      · isplitl [HA]; · iexact HA
        iexact HB
      iexact Hr
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater3 c _ _ _ _ _ _ _ _ _ _ _ _ _ _ _ _ _ _ _)

/-- The triple at every point, with the four windows' staging buffers written as one iterated conjunction. -/
theorem body_obligation (c : Dev nD) : BodyObligation (dats (F := F) m 0 c) (defs₀ (F := F)) Variants.none () Set.univ := fun t => by
  rw [bigSep_W0, bigSep_W0]
  exact sound_body m c t

/-- Before the first point the invariant is exactly what the region starts with. -/
theorem hin (c : Dev nD) : Pipeline.ΦD osem spec0 HB (V m) c ⊢ (dats m 0 c).Φ 0 := by
  rw [show (dats m 0 c).Φ 0 = PhiS m c 0 from rfl, PhiS_zero m c 0 rfl]

/-- After the last point the invariant entails what the region must end with: the scratch buffers' contents are
    simply no longer named. -/
theorem hout (c : Dev nD) : (dats m 0 c).Φ (Fin.last cfg0.N) ⊢ Pipeline.ΦD osem spec0 HB (V m) c := by
  rw [show (dats m 0 c).Φ (Fin.last cfg0.N) = PhiS m c cfg0.N from rfl,
    PhiS_pos m c _ (by rw [show cfg0.N = 64 from N_0]; decide)]
  exact PhiW_out m c

/-! ## The run and the frame -/

set_option backward.isDefEq.respectTransparency.types false in
/-- The whole program, started from memory `m` with every semaphore counter at zero: each weakly fair execution on
    the TensorCores ends, without a fault, in a state where the four windowed arrays hold what the 64 points'
    write-backs and the proof data determine, and every other unscoped buffer holds its entry contents. -/
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts HB HB_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's post read at the result array: what the library computes from the proof data. -/
theorem post3 (r : PUnit × MemSt nD τ sig (Elt F)) (h : Pipeline.FramePost cfgs (dats m) 0 (V m) r) (c : Dev nD) :
    r.2.mem ((c.tc : Thread nD τ).loc main_v22) = (dats m 0 c).arrAt 3 cfg0.N := (h c).1 3

/-- A buffer that bypasses the region and that no host operation writes ends as launched. -/
theorem rest_of_post (r : PUnit × MemSt nD τ sig (Elt F)) (h : Pipeline.FramePost cfgs (dats m) 0 (V m) r) (c : Dev nD)
    (b : Ref sig .tc) (hs : b.isScoped = false) (ha : ∀ w, (spec0 w).arr.view.ref ≠ b) (hw : b ∉ written) :
    r.2.mem ((c.tc : Thread nD τ).loc b) = m ((c.tc : Thread nD τ).loc b) :=
  ((h c).2 b (Pipeline.mem_restRefs_of b hs ha)).trans (V_of_not_written m c b hw)

/-- The run's post read at the argument arrays: each ends as launched — `h`'s rows are an input window's
    array, which the pipeline only reads; every other argument bypasses the region; and no host operation
    writes an argument. -/
theorem args_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨rest_of_post m r h c main_arg0 (by decide) (by decide) (by decide),
   ((h c).1 1).trans (((dats m 0 c).arrAt_in 1 rfl _).trans ((A_eq m c 1).trans (V_main_arg1 m c))),
   rest_of_post m r h c main_arg2 (by decide) (by decide) (by decide),
   rest_of_post m r h c main_arg3 (by decide) (by decide) (by decide),
   rest_of_post m r h c main_arg4 (by decide) (by decide) (by decide),
   rest_of_post m r h c main_arg5 (by decide) (by decide) (by decide),
   rest_of_post m r h c main_arg6 (by decide) (by decide) (by decide),
   rest_of_post m r h c main_arg7 (by decide) (by decide) (by decide),
   rest_of_post m r h c main_arg8 (by decide) (by decide) (by decide),
   rest_of_post m r h c main_arg9 (by decide) (by decide) (by decide),
   rest_of_post m r h c main_arg10 (by decide) (by decide) (by decide),
   rest_of_post m r h c main_arg11 (by decide) (by decide) (by decide),
   rest_of_post m r h c main_arg12 (by decide) (by decide) (by decide),
   rest_of_post m r h c main_arg13 (by decide) (by decide) (by decide),
   rest_of_post m r h c main_arg14 (by decide) (by decide) (by decide),
   rest_of_post m r h c main_arg15 (by decide) (by decide) (by decide),
   rest_of_post m r h c main_arg16 (by decide) (by decide) (by decide),
   rest_of_post m r h c main_arg17 (by decide) (by decide) (by decide),
   rest_of_post m r h c main_arg18 (by decide) (by decide) (by decide),
   rest_of_post m r h c main_arg19 (by decide) (by decide) (by decide),
   rest_of_post m r h c main_arg20 (by decide) (by decide) (by decide),
   rest_of_post m r h c main_arg21 (by decide) (by decide) (by decide),
   rest_of_post m r h c main_arg22 (by decide) (by decide) (by decide)⟩

/-- THE FRAME, at any float instance: the program runs to its end without a fault and every argument array
    ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => args_of_post m r h c) (run_main m ρ)

end Cert.KernelIdeal.Frm

end
-- ==== Proof.KiCell.lean ====
/-
  The value one grid point of the kernel stores into its output block, as ONE pure function of what the
  point loads: the fifteen parameter rows (three input biases, then a scale and a shift for each of the six
  normalisations), the block of 128 rows of `x` and of `h`, and the six 2048 x 2048 weight slices
  (reset, update and candidate gates; input side and hidden side alternating).  It is the body's named
  payloads composed in the order the body computes them:
    r = sigmoid(LN(x·W_ir + b_ir) + LN(h·W_hr)),  z = sigmoid(LN(x·W_iz + b_iz) + LN(h·W_hz)),
    n = tanh(LN(x·W_in + b_in) + r · LN(h·W_hn)),  out = (1 − z)·n + z·h.
-/
import proofs.«101222_j4458176053543_2_alg».proof.Proof.Gen.KernelIdeal.Skeleton

noncomputable section

namespace Cert.KernelIdeal.Cell

open Idealize.ShloMosaic Cert.KernelIdeal Cert.KernelIdeal.Gen

variable {F : FTy → Type} [FloatOps F]

/-- The block of 128 output rows one grid point stores, from the values the point loads:
    `prm k` is row `k` of the parameter table, `xb` and `hb` the point's rows of `x` and `h`,
    `w 0 … w 5` the weight slices in the order the body loads them
    (input/reset, hidden/reset, input/update, hidden/update, input/candidate, hidden/candidate). -/
def cellVal (prm : Fin 15 → Vec F S1x2048 .f32) (xb : Vec F S128x2048 .bf16) (hb : Vec F S128x2048 .f32)
    (w : Fin 6 → Vec F S2048x2048 .bf16) : FVec F S128x2048 .f32 :=
  let v4 := k0_pay2 (prm 0)
  let v6 := k0_pay3 (prm 1)
  let v8 := k0_pay4 (prm 2)
  let v10 := k0_pay5 (prm 3)
  let v12 := k0_pay6 (prm 4)
  let v14 := k0_pay7 (prm 5)
  let v16 := k0_pay8 (prm 6)
  let v18 := k0_pay9 (prm 7)
  let v20 := k0_pay10 (prm 8)
  let v22 := k0_pay11 (prm 9)
  let v24 := k0_pay12 (prm 10)
  let v26 := k0_pay13 (prm 11)
  let v28 := k0_pay14 (prm 12)
  let v30 := k0_pay15 (prm 13)
  let v32 := k0_pay16 (prm 14)
  let v34 := k0_pay17 xb
  let v36 := k0_pay18 hb
  let v43 := k0_pay19 v4 xb (w 0)
  let v48 := k0_pay20 hb (w 1)
  let v59 := k0_pay22 v4 xb (w 0)
  let v60 := k0_pay23 v4 xb (w 0)
  let v94 := k0_pay24 v10 v12 v22 v24 v43 v48 v59 v60
  let v98 := k0_pay25 v6 v34 (w 2)
  let v100 := k0_pay26 v36 (w 3)
  let v104 := k0_pay27 v6 v34 (w 2)
  let v106 := k0_pay28 v6 v34 (w 2)
  let v146 := k0_pay29 v14 v16 v26 v28 v98 v100 v104 v106
  let v150 := k0_pay30 v8 v34 (w 4)
  let v152 := k0_pay31 v36 (w 5)
  let v199 := k0_pay32 v18 v20 v30 v32 v94 v150 v152
  k0_pay1 v146 v199 hb

end Cert.KernelIdeal.Cell

end
-- ==== Proof.FrAfter.lean ====
/-
  What the output's staging buffer holds after the body at each grid point, as ONE pure term: the cell
  function of the fifteen parameter rows, the point's rows of `x` and `h`, and six 2048 × 2048 column
  slices of the two weight arrays — in both control cases the same term, since a point that copies the
  weights loads from the scratch buffers exactly what the copies delivered, and every other point finds
  those contents carried in the invariant.  The loaded operands are then read at an index: a parameter row
  is a row of the parameter table, a weight slice a band of 2048 columns of a weight array.
-/
import proofs.«101222_j4458176053543_2_alg».proof.Proof.FrRun
import proofs.«101222_j4458176053543_2_alg».proof.Proof.KiCell
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-! ## The loaded operands -/

theorem inbRow (k : Fin 15) : ∀ a, (![k.val, 0] : Fin 2 → Nat) a + S1x2048.size a ≤ S16x2048.size a :=
  Rect.inb₂ (by show k.val + 1 ≤ 16; omega) (by show 0 + 2048 ≤ 2048; omega)

/-- Row `k` of a 16 × 2048 table, as the body loads it. -/
def prmOf (X : Vec F S16x2048 .f32) (k : Fin 15) : Vec F S1x2048 .f32 :=
  View.ld X (Rect.unit ![k.val, 0] S1x2048.size (inbRow k))

/-- The six weight slices in the order the body loads them: slice `g` is columns `2048·(g / 2)` to
    `2048·(g / 2) + 2047` of the input-side array `SA` for even `g`, of the hidden-side array `SB` for odd. -/
def wSl (SA SB : Vec F S2048x6144 .bf16) : Fin 6 → Vec F S2048x2048 .bf16
  | 0 => View.ld SA (Rect.unit ![0, 0] S2048x2048.size inb_S2048x6144_S2048x2048_0_0)
  | 1 => View.ld SB (Rect.unit ![0, 0] S2048x2048.size inb_S2048x6144_S2048x2048_0_0)
  | 2 => View.ld SA (Rect.unit ![0, 2048] S2048x2048.size inb_S2048x6144_S2048x2048_0_2048)
  | 3 => View.ld SB (Rect.unit ![0, 2048] S2048x2048.size inb_S2048x6144_S2048x2048_0_2048)
  | 4 => View.ld SA (Rect.unit ![0, 4096] S2048x2048.size inb_S2048x6144_S2048x2048_0_4096)
  | 5 => View.ld SB (Rect.unit ![0, 4096] S2048x2048.size inb_S2048x6144_S2048x2048_0_4096)
  | ⟨_ + 6, h⟩ => absurd h (Nat.not_lt.2 (Nat.le_add_left _ _))

/-- A load of a buffer that one whole-buffer write covers reads the written contents at the load's indices. -/
theorem readCov_whole {sg : RefSig} {κ : Kind} {sp : Space} {S : Shape} {e : EltTy} (v : View sg κ sp S e) (x : S.Idx → Elt F e) (r : Rect S) :
    v.readCov [(⟨Rect.whole S, x⟩ : View.Piece (Elt F) S e)] r.toLoadRect = View.ld x r := by
  rw [View.readCov_eq_canon_ld v _ r (fun y => ⟨_, List.mem_singleton_self _, by rw [Rect.set_whole]; exact Finset.mem_univ y⟩)]
  exact congrArg (fun X => View.ld X r) (View.canon_unit_zero rfl _ x)

/-! ## The two cases' found contents are the cell function -/

set_option maxHeartbeats 1000000 in
/-- A point that copies nothing: its one covering store's payload, each load read off the buffer's contents. -/
theorem out_later (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) :
    outLater c i a2 h2 a3 h3 a6 h6 a7 h7 a8 h8 a9 h9 hc x0 x1 x2 sA sB = Cell.cellVal (prmOf x2) x0 x1 (wSl sA sB) := by
  unfold outLater
  rw [View.read_writes_eq_canon _ _ _ (coverLater3 c i a2 h2 a3 h3 a6 h6 a7 h7 a8 h8 a9 h9 hc x0 x1 x2 sA sB)]
  unfold runLater
  dsimp only
  sl_unfold_words
  rw [View.canon_unit_zero hz2]
  simp only [View.readAt_eq_ld, h2.read_unread, h3.read_unread, h6.read_unread, h8.read_unread, h9.read_unread,
    View.ld_unit_zero (S := S128x2048) hz2]
  rfl

set_option maxHeartbeats 1000000 in
/-- A point that copies the weights: the same payload, the scratch loads reading what the copies delivered —
    the weight arrays' contents. -/
theorem out_first (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    outFirst c i a2 h2 a3 h3 a6 h6 a7 h7 a8 h8 a9 h9 hc x0 x1 x2 fhA fhB = Cell.cellVal (prmOf x2) x0 x1 (wSl (wOf c hbA fhA) (wOf c hbB fhB)) := by
  unfold outFirst
  rw [View.read_writes_eq_canon _ _ _ (coverFirst3 c i a2 h2 a3 h3 a6 h6 a7 h7 a8 h8 a9 h9 hc x0 x1 x2 fhA fhB)]
  unfold runFirst
  dsimp only
  sl_unfold_words
  rw [View.canon_unit_zero hz2]
  simp only [View.readAt_eq_ld, h2.read_unread, h3.read_unread, h6.read_unread, readCov_whole, ReadAs.apply_same,
    View.ld_unit_zero (S := S128x2048) hz2]
  rfl

/-! ## After every point -/

/-- What the output's staging buffer holds after the body at point `t`: the cell function of the parameter
    table's rows, the point's blocks of `x` and `h`, and the weight arrays' column slices. -/
theorem after3_eq (c : Dev nD) (t : Fin cfg0.N) :
    (dats m 0 c).after 3 t = Cell.cellVal (prmOf (iblk m c 2 t)) (iblk m c 0 t) (iblk m c 1 t) (wSl (wA m c) (wB m c)) := by
  rw [after3]
  by_cases h : t.val % 32 = 0
  · rw [outAt_first m c t h]
    exact out_first c (grid0.coords t) (ms0 t) (hs0 t) (ms1 t) (hs1 t) (ms2 t) (hs2 t) (ms3 t) (hs3 t) scA (Memref.isWhole_whole _) scB (Memref.isWhole_whole _) ((hcond t).mpr h) (iblk m c 0 t) (iblk m c 1 t) (iblk m c 2 t) (V m c main_v2) (V m c main_v4)
  · rw [outAt_later m c t h]
    exact out_later c (grid0.coords t) (ms0 t) (hs0 t) (ms1 t) (hs1 t) (ms2 t) (hs2 t) (ms3 t) (hs3 t) scA (Memref.isWhole_whole _) scB (Memref.isWhole_whole _) (fun h' => h ((hcond t).mp h')) (iblk m c 0 t) (iblk m c 1 t) (iblk m c 2 t) (wA m c) (wB m c)

/-! ## The loaded operands at an index -/

/-- Parameter row `k` at column `y 1` is the table at row `k`, column `y 1`. -/
theorem prmOf_apply (X : Vec F S16x2048 .f32) (k : Fin 15) (y : S1x2048.Idx) (j : S16x2048.Idx)
    (h0 : (j 0 : ℕ) = k.val) (h1 : (j 1 : ℕ) = (y 1 : ℕ)) : prmOf X k y = X j := by
  show X ((Rect.unit (s := S16x2048) ![k.val, 0] S1x2048.size (inbRow k)).toLoadRect.idx y) = X j
  refine congrArg X (funext fun a => Fin.ext ?_)
  have hy : (y 0 : ℕ) < 1 := (y 0).isLt
  match a with
  | ⟨0, _⟩ => show k.val + 1 * (y 0 : ℕ) = (j 0 : ℕ); omega
  | ⟨1, _⟩ => show 0 + 1 * (y 1 : ℕ) = (j 1 : ℕ); omega

/-- A slice of 2048 columns from column `off`, at `(y 0, y 1)`, is the array at row `y 0`, column `off + y 1`. -/
theorem ld_cols (S : Vec F S2048x6144 .bf16) (off : ℕ) (inb : ∀ a, (![0, off] : Fin 2 → Nat) a + S2048x2048.size a ≤ S2048x6144.size a)
    (y : S2048x2048.Idx) (j : S2048x6144.Idx) (h0 : (j 0 : ℕ) = (y 0 : ℕ)) (h1 : (j 1 : ℕ) = off + (y 1 : ℕ)) :
    View.ld S (Rect.unit ![0, off] S2048x2048.size inb) y = S j := by
  show S ((Rect.unit (s := S2048x6144) ![0, off] S2048x2048.size inb).toLoadRect.idx y) = S j
  refine congrArg S (funext fun a => Fin.ext ?_)
  match a with
  | ⟨0, _⟩ => show 0 + 1 * (y 0 : ℕ) = (j 0 : ℕ); omega
  | ⟨1, _⟩ => show off + 1 * (y 1 : ℕ) = (j 1 : ℕ); omega

theorem wSl_0 (SA SB : Vec F S2048x6144 .bf16) (y : S2048x2048.Idx) (j : S2048x6144.Idx) (h0 : (j 0 : ℕ) = (y 0 : ℕ)) (h1 : (j 1 : ℕ) = 0 + (y 1 : ℕ)) :
    wSl SA SB 0 y = SA j := ld_cols SA 0 _ y j h0 h1
theorem wSl_1 (SA SB : Vec F S2048x6144 .bf16) (y : S2048x2048.Idx) (j : S2048x6144.Idx) (h0 : (j 0 : ℕ) = (y 0 : ℕ)) (h1 : (j 1 : ℕ) = 0 + (y 1 : ℕ)) :
    wSl SA SB 1 y = SB j := ld_cols SB 0 _ y j h0 h1
theorem wSl_2 (SA SB : Vec F S2048x6144 .bf16) (y : S2048x2048.Idx) (j : S2048x6144.Idx) (h0 : (j 0 : ℕ) = (y 0 : ℕ)) (h1 : (j 1 : ℕ) = 2048 + (y 1 : ℕ)) :
    wSl SA SB 2 y = SA j := ld_cols SA 2048 _ y j h0 h1
theorem wSl_3 (SA SB : Vec F S2048x6144 .bf16) (y : S2048x2048.Idx) (j : S2048x6144.Idx) (h0 : (j 0 : ℕ) = (y 0 : ℕ)) (h1 : (j 1 : ℕ) = 2048 + (y 1 : ℕ)) :
    wSl SA SB 3 y = SB j := ld_cols SB 2048 _ y j h0 h1
theorem wSl_4 (SA SB : Vec F S2048x6144 .bf16) (y : S2048x2048.Idx) (j : S2048x6144.Idx) (h0 : (j 0 : ℕ) = (y 0 : ℕ)) (h1 : (j 1 : ℕ) = 4096 + (y 1 : ℕ)) :
    wSl SA SB 4 y = SA j := ld_cols SA 4096 _ y j h0 h1
theorem wSl_5 (SA SB : Vec F S2048x6144 .bf16) (y : S2048x2048.Idx) (j : S2048x6144.Idx) (h0 : (j 0 : ℕ) = (y 0 : ℕ)) (h1 : (j 1 : ℕ) = 4096 + (y 1 : ℕ)) :
    wSl SA SB 5 y = SB j := ld_cols SB 4096 _ y j h0 h1

/-- The weights in scratch are the weight arrays as the region finds them, entry by entry. -/
theorem wA_apply (c : Dev nD) (j : S2048x6144.Idx) : wA m c j = V m c main_v2 j := rfl
theorem wB_apply (c : Dev nD) (j : S2048x6144.Idx) : wB m c j = V m c main_v4 j := rfl

/-- The parameter window's one block is the whole table. -/
theorem iblk2_apply (c : Dev nD) (t : Fin cfg0.N) (y : S16x2048.Idx) : iblk m c 2 t y = V m c main_v21 y := by
  unfold iblk
  rw [View.read_apply]
  show V m c main_v21 (((cfg0.win 2).blk t).view.emb y) = V m c main_v21 y
  refine congrArg (V m c main_v21) (funext fun a => Fin.ext ?_)
  match a with
  | ⟨0, _⟩ => show win0_2.index t 0 * 16 + 1 * (y 0 : ℕ) = (y 0 : ℕ); rw [show win0_2.index t 0 = 0 from rfl]; omega
  | ⟨1, _⟩ => show win0_2.index t 1 * 2048 + 1 * (y 1 : ℕ) = (y 1 : ℕ); rw [show win0_2.index t 1 = 0 from rfl]; omega

end Cert.KernelIdeal.Frm

end
-- ==== Proof.GruRow.lean ====
/-
  One row of the cell from exactly what a grid point of the kernel has in hand: a row `x` of the input, a
  row `h` of the state, the six weight matrices in the order the point reads them (input and hidden side of
  the reset, the update and the candidate gate) and the fifteen parameter vectors in the order of the packed
  table (three input biases; then scale and shift of the three input-side normalisations; then of the three
  hidden-side ones).  The specification `Gru.G` at entry (p, q) is this row function at q.
-/
import proofs.«101222_j4458176053543_2_alg».proof.Proof.GruSpec

noncomputable section

open scoped BigOperators

namespace Gru

open Idealize.ShloMosaic Idealize.ShloMosaic.ValueIdx

/-- The new state of one row at feature `q`. -/
def cellRow (x h : Fin 2048 → EReal) (W : Fin 6 → SW.Idx → EReal) (P : Fin 15 → Fin 2048 → EReal) (q : Fin 2048) : EReal :=
  (oneW - Ideal.logistic (lnRow (fun q' => dotRow x (W 2) q' + P 1 q') (P 5) (P 6) q + lnRow (fun q' => dotRow h (W 3) q') (P 11) (P 12) q))
      * Ideal.tanh (lnRow (fun q' => dotRow x (W 4) q' + P 2 q') (P 7) (P 8) q
          + Ideal.logistic (lnRow (fun q' => dotRow x (W 0) q' + P 0 q') (P 3) (P 4) q + lnRow (fun q' => dotRow h (W 1) q') (P 9) (P 10) q)
            * lnRow (fun q' => dotRow h (W 5) q') (P 13) (P 14) q)
    + Ideal.logistic (lnRow (fun q' => dotRow x (W 2) q' + P 1 q') (P 5) (P 6) q + lnRow (fun q' => dotRow h (W 3) q') (P 11) (P 12) q) * h q

/-- The weight matrices in the order a grid point reads them. -/
def weights (a : Inputs) : Fin 6 → SW.Idx → EReal := ![a.Wir, a.Whr, a.Wiz, a.Whz, a.Win, a.Whn]

/-- The parameter vectors in the order of the packed table's rows. -/
def params (a : Inputs) : Fin 15 → Fin 2048 → EReal :=
  ![vec a.bir, vec a.biz, vec a.bin, vec a.gir, vec a.beir, vec a.giz, vec a.beiz, vec a.gin, vec a.bein,
    vec a.ghr, vec a.behr, vec a.ghz, vec a.behz, vec a.ghn, vec a.behn]

/-- The specification at entry (p, q) is the row function of row p at q. -/
theorem G_apply (a : Inputs) (p : Fin 8192) (q : Fin 2048) :
    G a (ix2 p q) = cellRow (row a.x p) (row a.h p) (weights a) (params a) q := rfl

end Gru

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.KiBlockMath.lean ====
/-
  The block of 128 rows a grid point stores, read entry by entry at the ideal instance.
  The body normalises six 128 x 2048 pre-activation blocks in the same way: the row mean as a lane sum
  divided by the word 2048.0 kept as a 128 x 1 column, the centred block, the mean of its squares, the
  reciprocal square root of that plus ε spread back along the lanes, then a scale row and a shift row
  repeated down the rows.  `lnBlk` is that term once; the stored value is a composition of it with the six
  matrix products (`cellVal_eq`, by unfolding), and at an entry (r, q) `lnBlk` is the row normalisation
  `Gru.lnRow` of row r (`lnBlk_apply`), a product into zero the inner product of row r with column q.
-/
import proofs.«101222_j4458176053543_2_alg».proof.Proof.KiCell
import proofs.«101222_j4458176053543_2_alg».proof.Proof.GruRow
import proofs.«101222_j4458176053543_2_alg».proof.Proof.LibPlainDot
import proofs.«101222_j4458176053543_2_alg».proof.Proof.LibColumn
import proofs.«101222_j4458176053543_2_alg».proof.Proof.LibRowForms
import Idealize.ShloMosaic.Lib.ValueIdx
import Idealize.ShloMosaic.Lib.Pipeline.Value
import Idealize.ShloMosaic.PureOps.Ideal.Laws

noncomputable section

open scoped BigOperators

namespace Cert.KernelIdeal.BlockMath

open Idealize.ShloMosaic Idealize.ShloMosaic.ValueIdx Cert.KernelIdeal Cert.KernelIdeal.Gen

/-- A product of a block of 128 rows with a weight slice, accumulated from zero. -/
def mmBlk (l : FVec Ideal S128x2048 .bf16) (w : FVec Ideal S2048x2048 .bf16) : FVec Ideal S128x2048 .f32 :=
  matmul dot_S128x2048_S2048x2048_S128x2048_1_0_0_1_n_n none l w (constant S128x2048 .f32 0x00000000#32)

/-- The row means of a block as a 128 x 1 column. -/
def rowMean (a : FVec Ideal S128x2048 .f32) : FVec Ideal S128x1 .f32 :=
  divf (shapeCast S128x1 (multiReduction .add [1] S128 a 0x00000000#32 reduces_S128x2048_S128 (.inl rfl) rfl) shapeCasts_S128_S128x1)
    (broadcast S128x1 (Scalar.ofBits .f32 0x45000000#32))

/-- A block with its row means taken off. -/
def centred (a : FVec Ideal S128x2048 .f32) : FVec Ideal S128x2048 .f32 :=
  subf a (broadcastTo S128x2048 (rowMean a) broadcasts_S128x1_S128x2048)

/-- The normalisation of a block with a scale row and a shift row, as the body spells it. -/
def lnBlk (a : FVec Ideal S128x2048 .f32) (g b : FVec Ideal S1x2048 .f32) : FVec Ideal S128x2048 .f32 :=
  addf (mulf (mulf (centred a)
        (broadcastTo S128x2048 (rsqrt (addf (rowMean (mulf (centred a) (centred a))) (broadcast S128x1 (Scalar.ofBits .f32 0x3727C5AC#32))))
          broadcasts_S128x1_S128x2048))
      (broadcastTo S128x2048 g broadcasts_S1x2048_S128x2048))
    (broadcastTo S128x2048 b broadcasts_S1x2048_S128x2048)

/-- A bias row added to every row of a block. -/
def addRow (a : FVec Ideal S128x2048 .f32) (b : FVec Ideal S1x2048 .f32) : FVec Ideal S128x2048 .f32 :=
  addf a (broadcastTo S128x2048 b broadcasts_S1x2048_S128x2048)

/-- The stored block is the three gates composed from six products and six normalisations. -/
theorem cellVal_eq (prm : Fin 15 → Vec Ideal S1x2048 .f32) (xb : Vec Ideal S128x2048 .bf16) (hb : Vec Ideal S128x2048 .f32)
    (w : Fin 6 → Vec Ideal S2048x2048 .bf16) :
    Cell.cellVal (F := Ideal) prm xb hb w
      = addf (mulf (subf (broadcast S128x2048 (Scalar.ofBits .f32 0x3F800000#32))
              (logistic (addf (lnBlk (addRow (mmBlk (k0_pay17 xb) (w 2)) (k0_pay3 (prm 1))) (k0_pay7 (prm 5)) (k0_pay8 (prm 6)))
                (lnBlk (mmBlk (k0_pay18 hb) (w 3)) (k0_pay13 (prm 11)) (k0_pay14 (prm 12))))))
            (tanh (addf (lnBlk (addRow (mmBlk (k0_pay17 xb) (w 4)) (k0_pay4 (prm 2))) (k0_pay9 (prm 7)) (k0_pay10 (prm 8)))
              (mulf (logistic (addf (lnBlk (addRow (mmBlk (k0_pay17 xb) (w 0)) (k0_pay2 (prm 0))) (k0_pay5 (prm 3)) (k0_pay6 (prm 4)))
                  (lnBlk (mmBlk (k0_pay18 hb) (w 1)) (k0_pay11 (prm 9)) (k0_pay12 (prm 10)))))
                (lnBlk (mmBlk (k0_pay18 hb) (w 5)) (k0_pay15 (prm 13)) (k0_pay16 (prm 14)))))))
          (mulf (logistic (addf (lnBlk (addRow (mmBlk (k0_pay17 xb) (w 2)) (k0_pay3 (prm 1))) (k0_pay7 (prm 5)) (k0_pay8 (prm 6)))
                (lnBlk (mmBlk (k0_pay18 hb) (w 3)) (k0_pay13 (prm 11)) (k0_pay14 (prm 12))))) hb) := rfl

/-! ## Entries -/

theorem rsqrt_at {s : Shape} (v : FVec Ideal s .f32) (i : s.Idx) : rsqrt v i = Ideal.rsqrt (v i) := rfl
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- Over row `r`, the index with `k` put on the lane axis is (r, k). -/
theorem lift_lane (r : Fin 128) (k : Fin 2048) : reduces_S128x2048_S128.lift (ix1 r) k = ix2 r k := by
  funext a
  apply Fin.ext
  match a with
  | ⟨0, _⟩ => rfl
  | ⟨1, _⟩ => rfl

/-- A lane sum of a block at row `r`. -/
theorem laneSum_apply (a : FVec Ideal S128x2048 .f32) (hφ : FKind.Formats FTy.f32)
    (hacc : (0x00000000#32 : BitVec 32) = 0x00000000#32) (r : Fin 128) :
    multiReduction .add [1] S128 a 0x00000000#32 reduces_S128x2048_S128 hφ hacc (ix1 r) = ∑ k : Fin 2048, a (ix2 r k) :=
  (Ideal.multiReduction_add_single a 0x00000000#32 reduces_S128x2048_S128 hφ hacc (ix1 r)).trans
    (Finset.sum_congr rfl fun k _ => congrArg a (lift_lane r k))

/-- The row mean at row `r`. -/
theorem rowMean_apply (a : FVec Ideal S128x2048 .f32) (r : Fin 128) :
    rowMean a (ix2 r (0 : Fin 1)) = Gru.mean (fun k => a (ix2 r k)) := by
  unfold rowMean Gru.mean
  rw [divf_apply, Cert.Lib.Column.col_apply, laneSum_apply, broadcast_apply]
  rfl

/-- The centred block at (r, q). -/
theorem centred_apply (a : FVec Ideal S128x2048 .f32) (r : Fin 128) (q : Fin 2048) :
    centred a (ix2 r q) = a (ix2 r q) - Gru.mean (fun k => a (ix2 r k)) := by
  unfold centred
  rw [subf_apply, Cert.Lib.Column.colBroadcast_apply, rowMean_apply]

/-- The normalised block at (r, q) is the row normalisation of row r at q. -/
theorem lnBlk_apply (a : FVec Ideal S128x2048 .f32) (g b : FVec Ideal S1x2048 .f32) (r : Fin 128) (q : Fin 2048) :
    lnBlk a g b (ix2 r q)
      = Gru.lnRow (fun k => a (ix2 r k)) (fun k => g (ix2 (0 : Fin 1) k)) (fun k => b (ix2 (0 : Fin 1) k)) q := by
  unfold lnBlk Gru.lnRow
  rw [addf_apply, mulf_apply, mulf_apply, centred_apply, Cert.Lib.Column.colBroadcast_apply, rsqrt_at, addf_apply, rowMean_apply,
    broadcast_apply, Cert.Lib.RowForms.rowBroadcast_apply, Cert.Lib.RowForms.rowBroadcast_apply]
  simp only [mulf_apply, centred_apply]
  rfl

/-- The printed dimension record is the plain rows-by-columns product. -/
theorem dot_plain : dot_S128x2048_S2048x2048_S128x2048_1_0_0_1_n_n = DotDims.plain 128 2048 2048 := rfl

/-- A product into zero at (r, q): the inner product of row r of the block with column q of the slice. -/
theorem mmBlk_apply (l : FVec Ideal S128x2048 .bf16) (w : FVec Ideal S2048x2048 .bf16) (r : Fin 128) (q : Fin 2048) :
    mmBlk l w (ix2 r q) = ∑ k : Fin 2048, l (ix2 r k) * w (ix2 k q) := by
  unfold mmBlk
  rw [dot_plain]
  exact Cert.Lib.PlainDot.matmul_zero_apply none l w r q

/-- A bias row added, at (r, q). -/
theorem addRow_apply (a : FVec Ideal S128x2048 .f32) (b : FVec Ideal S1x2048 .f32) (r : Fin 128) (q : Fin 2048) :
    addRow a b (ix2 r q) = a (ix2 r q) + b (ix2 (0 : Fin 1) q) := by
  unfold addRow
  rw [addf_apply, Cert.Lib.RowForms.rowBroadcast_apply]

end Cert.KernelIdeal.BlockMath

end
-- ==== Proof.KiCellAt.lean ====
/-
  The block a grid point stores, at entry (r, q), is the specification's row function of the point's row r:
  the inner products of that row of `x` and of `h` with the columns of the six weight slices, the fifteen
  parameter rows read at their features, six row normalisations, two logistic gates and a tanh.
  Narrowing to bf16 and the unit reshapes of the loaded rows are the identity at the ideal instance.
-/
import proofs.«101222_j4458176053543_2_alg».proof.Proof.KiBlockMath

noncomputable section

open scoped BigOperators

namespace Cert.KernelIdeal.BlockMath

open Idealize.ShloMosaic Idealize.ShloMosaic.ValueIdx Cert.KernelIdeal Cert.KernelIdeal.Gen

/-! ## The loaded values as the body renames them -/

theorem pay2_eq (v : Vec Ideal S1x2048 .f32) : k0_pay2 v = v := shapeCast_self _ _
theorem pay3_eq (v : Vec Ideal S1x2048 .f32) : k0_pay3 v = v := shapeCast_self _ _
theorem pay4_eq (v : Vec Ideal S1x2048 .f32) : k0_pay4 v = v := shapeCast_self _ _
theorem pay5_eq (v : Vec Ideal S1x2048 .f32) : k0_pay5 v = v := shapeCast_self _ _
theorem pay6_eq (v : Vec Ideal S1x2048 .f32) : k0_pay6 v = v := shapeCast_self _ _
theorem pay7_eq (v : Vec Ideal S1x2048 .f32) : k0_pay7 v = v := shapeCast_self _ _
theorem pay8_eq (v : Vec Ideal S1x2048 .f32) : k0_pay8 v = v := shapeCast_self _ _
theorem pay9_eq (v : Vec Ideal S1x2048 .f32) : k0_pay9 v = v := shapeCast_self _ _
theorem pay10_eq (v : Vec Ideal S1x2048 .f32) : k0_pay10 v = v := shapeCast_self _ _
theorem pay11_eq (v : Vec Ideal S1x2048 .f32) : k0_pay11 v = v := shapeCast_self _ _
theorem pay12_eq (v : Vec Ideal S1x2048 .f32) : k0_pay12 v = v := shapeCast_self _ _
theorem pay13_eq (v : Vec Ideal S1x2048 .f32) : k0_pay13 v = v := shapeCast_self _ _
theorem pay14_eq (v : Vec Ideal S1x2048 .f32) : k0_pay14 v = v := shapeCast_self _ _
theorem pay15_eq (v : Vec Ideal S1x2048 .f32) : k0_pay15 v = v := shapeCast_self _ _
theorem pay16_eq (v : Vec Ideal S1x2048 .f32) : k0_pay16 v = v := shapeCast_self _ _
theorem pay17_eq (v : Vec Ideal S128x2048 .bf16) : k0_pay17 v = v := shapeCast_self _ _
/-- Narrowing the state block to bf16 changes nothing on the extended reals. -/
theorem pay18_eq (v : Vec Ideal S128x2048 .f32) : k0_pay18 v = v := rfl

/-- The stored block at (r, q). -/
theorem cellVal_apply (prm : Fin 15 → Vec Ideal S1x2048 .f32) (xb : Vec Ideal S128x2048 .bf16) (hb : Vec Ideal S128x2048 .f32)
    (w : Fin 6 → Vec Ideal S2048x2048 .bf16) (r : Fin 128) (q : Fin 2048) :
    Cell.cellVal (F := Ideal) prm xb hb w (ix2 r q)
      = Gru.cellRow (fun k => xb (ix2 r k)) (fun k => hb (ix2 r k)) (fun g => w g)
          (fun k q' => prm k (ix2 (0 : Fin 1) q')) q := by
  rw [cellVal_eq]
  unfold Gru.cellRow
  simp only [pay2_eq, pay3_eq, pay4_eq, pay5_eq, pay6_eq, pay7_eq, pay8_eq, pay9_eq, pay10_eq, pay11_eq, pay12_eq, pay13_eq,
    pay14_eq, pay15_eq, pay16_eq, pay17_eq, pay18_eq]
  simp only [addf_apply, mulf_apply, subf_apply, broadcast_apply, logistic_at, tanh_at, lnBlk_apply, addRow_apply, mmBlk_apply,
    Gru.dotRow]
  rfl

end Cert.KernelIdeal.BlockMath

end
-- ==== Proof.LibNary3.lean ====
/-
  A host operation of three operands given as a literal family — `StableHlo.nary ![x, a, b] y f`, the printed form of a
  `stablehlo.concatenate` of three arrays — read at its result buffer with each operand's contents at its OWN reference:
  `f` applied to `Fin.cons (V x) (Fin.cons (V a) (Fin.cons (V b) _))` rather than to `fun k => V (![x, a, b] k)`. Under the
  binder of the second form the reference `![x, a, b] k` is no literal, and a fold of host operations read back one
  operation at a time stops there; with the first form it goes on into the three operands.
  Also the same statement with the result reference un-indexed, for use as a `simp` lemma.
-/
import Idealize.ShloMosaic.Lib.StableHlo.Run

noncomputable section

namespace Idealize.ShloMosaic.StableHlo

variable {τ : Topo} {sig : RefSig} {Val : EltTy → Type} {x a b y : Ref sig .tc}

/-- The result of a three-operand operation over literal references, the operands' contents each at its own reference. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, keyed for `simp` on the operation alone. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Idealize.ShloMosaic.StableHlo

end
-- ==== Proof.LibStack.lean ====
/-
  Two concatenations read at an entry, over arbitrary element types and arbitrary pieces:
  three N x N matrices side by side along the columns, whatever the total width is written as (entry (k, g·N + q) is
  piece g at (k, q)), and
  sixteen 1 x N rows stacked along the rows (entry (r, q) is piece r at (0, q)).
-/
import Idealize.ShloMosaic.Lib.ValueIdx
import Idealize.ShloMosaic.Lib.Pipeline.Value

noncomputable section

namespace Cert.Lib.Stack

open Idealize.ShloMosaic Idealize.ShloMosaic.ValueIdx

variable {α : Type} {N T : Nat}

/-- Three matrices side by side: a column in the first third reads the first piece. -/
theorem cat3_first (a b d : (⟨2, ![N, N]⟩ : Shape).Idx → α)
    (h : Shape.Concatenates (([⟨⟨2, ![N, N]⟩, a⟩, ⟨⟨2, ![N, N]⟩, b⟩, ⟨⟨2, ![N, N]⟩, d⟩] : List ((s : Shape) × (s.Idx → α))).map (·.1)) ⟨2, ![N, T]⟩ 1)
    (k q : Fin N) (col : Fin T) (hcol : col.val = q.val) :
    concatenate ⟨2, ![N, T]⟩ 1 [⟨⟨2, ![N, N]⟩, a⟩, ⟨⟨2, ![N, N]⟩, b⟩, ⟨⟨2, ![N, N]⟩, d⟩] h (ix2 k col) = a (ix2 k q) := by
  refine concatenate_apply_piece (1 : Fin 2) _ h (ix2 k col) 0 (by simp) ⟨2, ![N, N]⟩ a rfl rfl 0 rfl (ix2 k q) ?_ ?_
  · intro e he
    match e with
    | ⟨0, _⟩ => rfl
    | ⟨1, _⟩ => exact absurd rfl he
  · show 0 + q.val = col.val
    omega

/-- … in the middle third, the second piece. -/
theorem cat3_second (a b d : (⟨2, ![N, N]⟩ : Shape).Idx → α)
    (h : Shape.Concatenates (([⟨⟨2, ![N, N]⟩, a⟩, ⟨⟨2, ![N, N]⟩, b⟩, ⟨⟨2, ![N, N]⟩, d⟩] : List ((s : Shape) × (s.Idx → α))).map (·.1)) ⟨2, ![N, T]⟩ 1)
    (k q : Fin N) (col : Fin T) (hcol : col.val = N + q.val) :
    concatenate ⟨2, ![N, T]⟩ 1 [⟨⟨2, ![N, N]⟩, a⟩, ⟨⟨2, ![N, N]⟩, b⟩, ⟨⟨2, ![N, N]⟩, d⟩] h (ix2 k col) = b (ix2 k q) := by
  refine concatenate_apply_piece (1 : Fin 2) _ h (ix2 k col) 1 (by simp) ⟨2, ![N, N]⟩ b rfl rfl N ?_ (ix2 k q) ?_ ?_
  · show (N : Nat) + 0 = N
    omega
  · intro e he
    match e with
    | ⟨0, _⟩ => rfl
    | ⟨1, _⟩ => exact absurd rfl he
  · show N + q.val = col.val
    omega

/-- … in the last third, the third piece. -/
theorem cat3_third (a b d : (⟨2, ![N, N]⟩ : Shape).Idx → α)
    (h : Shape.Concatenates (([⟨⟨2, ![N, N]⟩, a⟩, ⟨⟨2, ![N, N]⟩, b⟩, ⟨⟨2, ![N, N]⟩, d⟩] : List ((s : Shape) × (s.Idx → α))).map (·.1)) ⟨2, ![N, T]⟩ 1)
    (k q : Fin N) (col : Fin T) (hcol : col.val = 2 * N + q.val) :
    concatenate ⟨2, ![N, T]⟩ 1 [⟨⟨2, ![N, N]⟩, a⟩, ⟨⟨2, ![N, N]⟩, b⟩, ⟨⟨2, ![N, N]⟩, d⟩] h (ix2 k col) = d (ix2 k q) := by
  refine concatenate_apply_piece (1 : Fin 2) _ h (ix2 k col) 2 (by simp) ⟨2, ![N, N]⟩ d rfl rfl (2 * N) ?_ (ix2 k q) ?_ ?_
  · show (N : Nat) + (N + 0) = 2 * N
    omega
  · intro e he
    match e with
    | ⟨0, _⟩ => rfl
    | ⟨1, _⟩ => exact absurd rfl he
  · show 2 * N + q.val = col.val
    omega

/-- Sixteen rows stacked: entry (r, q) is row piece r at (0, q). -/
theorem stack16_apply (u : Fin 16 → ((⟨2, ![1, N]⟩ : Shape).Idx → α))
    (h : Shape.Concatenates (([⟨⟨2, ![1, N]⟩, u 0⟩, ⟨⟨2, ![1, N]⟩, u 1⟩, ⟨⟨2, ![1, N]⟩, u 2⟩, ⟨⟨2, ![1, N]⟩, u 3⟩, ⟨⟨2, ![1, N]⟩, u 4⟩,
        ⟨⟨2, ![1, N]⟩, u 5⟩, ⟨⟨2, ![1, N]⟩, u 6⟩, ⟨⟨2, ![1, N]⟩, u 7⟩, ⟨⟨2, ![1, N]⟩, u 8⟩, ⟨⟨2, ![1, N]⟩, u 9⟩, ⟨⟨2, ![1, N]⟩, u 10⟩,
        ⟨⟨2, ![1, N]⟩, u 11⟩, ⟨⟨2, ![1, N]⟩, u 12⟩, ⟨⟨2, ![1, N]⟩, u 13⟩, ⟨⟨2, ![1, N]⟩, u 14⟩, ⟨⟨2, ![1, N]⟩, u 15⟩] :
        List ((s : Shape) × (s.Idx → α))).map (·.1)) ⟨2, ![16, N]⟩ 0)
    (r : Fin 16) (q : Fin N) :
    concatenate ⟨2, ![16, N]⟩ 0 [⟨⟨2, ![1, N]⟩, u 0⟩, ⟨⟨2, ![1, N]⟩, u 1⟩, ⟨⟨2, ![1, N]⟩, u 2⟩, ⟨⟨2, ![1, N]⟩, u 3⟩, ⟨⟨2, ![1, N]⟩, u 4⟩,
        ⟨⟨2, ![1, N]⟩, u 5⟩, ⟨⟨2, ![1, N]⟩, u 6⟩, ⟨⟨2, ![1, N]⟩, u 7⟩, ⟨⟨2, ![1, N]⟩, u 8⟩, ⟨⟨2, ![1, N]⟩, u 9⟩, ⟨⟨2, ![1, N]⟩, u 10⟩,
        ⟨⟨2, ![1, N]⟩, u 11⟩, ⟨⟨2, ![1, N]⟩, u 12⟩, ⟨⟨2, ![1, N]⟩, u 13⟩, ⟨⟨2, ![1, N]⟩, u 14⟩, ⟨⟨2, ![1, N]⟩, u 15⟩] h (ix2 r q)
      = u r (ix2 (0 : Fin 1) q) := by
  show concatenate ⟨2, ![16, N]⟩ 0 (List.ofFn fun n : Fin 16 => (⟨⟨2, ![1, N]⟩, u n⟩ : (s : Shape) × (s.Idx → α))) h (ix2 r q) = _
  refine concatenate_ofFn_unit_apply (t := ⟨2, ![16, N]⟩) (s₁ := ⟨2, ![1, N]⟩) (0 : Fin 2) u h rfl rfl (ix2 r q) r rfl (ix2 (0 : Fin 1) q) ?_
  intro e he
  match e with
  | ⟨0, _⟩ => exact absurd rfl he
  | ⟨1, _⟩ => rfl

/-- The same with the sixteen pieces given one by one: entry (r, q) is the r-th of them at (0, q). -/
theorem stack16_pieces (u0 u1 u2 u3 u4 u5 u6 u7 u8 u9 u10 u11 u12 u13 u14 u15 : (⟨2, ![1, N]⟩ : Shape).Idx → α)
    (h : Shape.Concatenates (([⟨⟨2, ![1, N]⟩, u0⟩, ⟨⟨2, ![1, N]⟩, u1⟩, ⟨⟨2, ![1, N]⟩, u2⟩, ⟨⟨2, ![1, N]⟩, u3⟩, ⟨⟨2, ![1, N]⟩, u4⟩, ⟨⟨2, ![1, N]⟩, u5⟩, ⟨⟨2, ![1, N]⟩, u6⟩, ⟨⟨2, ![1, N]⟩, u7⟩, ⟨⟨2, ![1, N]⟩, u8⟩, ⟨⟨2, ![1, N]⟩, u9⟩, ⟨⟨2, ![1, N]⟩, u10⟩, ⟨⟨2, ![1, N]⟩, u11⟩, ⟨⟨2, ![1, N]⟩, u12⟩, ⟨⟨2, ![1, N]⟩, u13⟩, ⟨⟨2, ![1, N]⟩, u14⟩, ⟨⟨2, ![1, N]⟩, u15⟩] :
        List ((s : Shape) × (s.Idx → α))).map (·.1)) ⟨2, ![16, N]⟩ 0)
    (r : Fin 16) (q : Fin N) :
    concatenate ⟨2, ![16, N]⟩ 0 [⟨⟨2, ![1, N]⟩, u0⟩, ⟨⟨2, ![1, N]⟩, u1⟩, ⟨⟨2, ![1, N]⟩, u2⟩, ⟨⟨2, ![1, N]⟩, u3⟩, ⟨⟨2, ![1, N]⟩, u4⟩, ⟨⟨2, ![1, N]⟩, u5⟩, ⟨⟨2, ![1, N]⟩, u6⟩, ⟨⟨2, ![1, N]⟩, u7⟩, ⟨⟨2, ![1, N]⟩, u8⟩, ⟨⟨2, ![1, N]⟩, u9⟩, ⟨⟨2, ![1, N]⟩, u10⟩, ⟨⟨2, ![1, N]⟩, u11⟩, ⟨⟨2, ![1, N]⟩, u12⟩, ⟨⟨2, ![1, N]⟩, u13⟩, ⟨⟨2, ![1, N]⟩, u14⟩, ⟨⟨2, ![1, N]⟩, u15⟩] h (ix2 r q)
      = (![u0, u1, u2, u3, u4, u5, u6, u7, u8, u9, u10, u11, u12, u13, u14, u15] : Fin 16 → ((⟨2, ![1, N]⟩ : Shape).Idx → α)) r (ix2 (0 : Fin 1) q) :=
  stack16_apply (![u0, u1, u2, u3, u4, u5, u6, u7, u8, u9, u10, u11, u12, u13, u14, u15] : Fin 16 → ((⟨2, ![1, N]⟩ : Shape).Idx → α)) h r q

end Cert.Lib.Stack

end
-- ==== Proof.KiEntryRead.lean ====
/-
  The arrays the region finds, read back through the host operations in front of it:
  the narrowed input is the input (narrowing is the identity on the extended reals); each packed weight
  array is three matrices side by side, so its column g·2048 + q is column q of matrix g; row k of the packed
  parameter table is the k-th parameter vector laid out as a row.
-/
import proofs.«101222_j4458176053543_2_alg».proof.Proof.FrEntry
import proofs.«101222_j4458176053543_2_alg».proof.Proof.LibNary3
import proofs.«101222_j4458176053543_2_alg».proof.Proof.LibStack
import proofs.«101222_j4458176053543_2_alg».proof.Proof.LibRowForms
import Idealize.ShloMosaic.Lib.ValueIdx
import Idealize.ShloMosaic.Lib.Pipeline.Value

noncomputable section

namespace Cert.KernelIdeal.EntryRead

open Idealize.ShloMosaic Idealize.ShloMosaic.TcCoe Idealize.ShloMosaic.StableHlo Idealize.ShloMosaic.ValueIdx Idealize.SL.Sem
open Cert.KernelIdeal Cert.KernelIdeal.Gen Cert.KernelIdeal.Frm

variable (m : (ℓ : Loc nD τ sig) → Buf (Elt Ideal) ℓ) (c : Dev nD)

/-- One pass over the host operations: each at its own result buffer gives its function's value, elsewhere what was there. -/
macro "read_prefix" : tactic =>
  `(tactic| repeat (first
    | rw [unary_result] | rw [nary3_result] | rw [reshape_result] | rw [nullary_result]
    | (rw [nullary_result_ne]; rotate_left; decide)
    | (rw [unary_result_ne]; rotate_left; decide)
    | (rw [reshape_result_ne]; rotate_left; decide)
    | (rw [nary_result_ne]; rotate_left; decide)))

/-- The narrowed input array is the input array. -/
theorem V_x (i : S8192x2048.Idx) : V m c main_v0 i = m ((c : Thread nD τ).loc main_arg0) i := by
  dsimp only [V, hostOps0]
  simp only [after_cons, after_nil]
  read_prefix
  rfl

/-- Column q of the packed input-side weights is column q of matrix 0. -/
theorem V_wi0 (k q : Fin 2048) (col : Fin 6144) (hcol : col.val = q.val) :
    V m c main_v2 (ix2 k col) = m ((c : Thread nD τ).loc main_arg2) (ix2 k q) := by
  dsimp only [V, hostOps0]
  simp only [after_cons, after_nil]
  read_prefix
  refine (truncf_apply (φ := .f32) (ψ := .bf16) _ bitsLt_bf16_f32 _).trans ?_
  exact Cert.Lib.Stack.cat3_first (N := 2048) (T := 6144) _ _ _ _ k q col hcol

/-- Column 2048 + q of the packed input-side weights is column q of matrix 1. -/
theorem V_wi1 (k q : Fin 2048) (col : Fin 6144) (hcol : col.val = 2048 + q.val) :
    V m c main_v2 (ix2 k col) = m ((c : Thread nD τ).loc main_arg3) (ix2 k q) := by
  dsimp only [V, hostOps0]
  simp only [after_cons, after_nil]
  read_prefix
  refine (truncf_apply (φ := .f32) (ψ := .bf16) _ bitsLt_bf16_f32 _).trans ?_
  exact Cert.Lib.Stack.cat3_second (N := 2048) (T := 6144) _ _ _ _ k q col hcol

/-- Column 4096 + q of the packed input-side weights is column q of matrix 2. -/
theorem V_wi2 (k q : Fin 2048) (col : Fin 6144) (hcol : col.val = 2 * 2048 + q.val) :
    V m c main_v2 (ix2 k col) = m ((c : Thread nD τ).loc main_arg4) (ix2 k q) := by
  dsimp only [V, hostOps0]
  simp only [after_cons, after_nil]
  read_prefix
  refine (truncf_apply (φ := .f32) (ψ := .bf16) _ bitsLt_bf16_f32 _).trans ?_
  exact Cert.Lib.Stack.cat3_third (N := 2048) (T := 6144) _ _ _ _ k q col hcol

/-- Column q of the packed hidden-side weights is column q of matrix 0. -/
theorem V_wh0 (k q : Fin 2048) (col : Fin 6144) (hcol : col.val = q.val) :
    V m c main_v4 (ix2 k col) = m ((c : Thread nD τ).loc main_arg8) (ix2 k q) := by
  dsimp only [V, hostOps0]
  simp only [after_cons, after_nil]
  read_prefix
  refine (truncf_apply (φ := .f32) (ψ := .bf16) _ bitsLt_bf16_f32 _).trans ?_
  exact Cert.Lib.Stack.cat3_first (N := 2048) (T := 6144) _ _ _ _ k q col hcol

/-- Column 2048 + q of the packed hidden-side weights is column q of matrix 1. -/
theorem V_wh1 (k q : Fin 2048) (col : Fin 6144) (hcol : col.val = 2048 + q.val) :
    V m c main_v4 (ix2 k col) = m ((c : Thread nD τ).loc main_arg9) (ix2 k q) := by
  dsimp only [V, hostOps0]
  simp only [after_cons, after_nil]
  read_prefix
  refine (truncf_apply (φ := .f32) (ψ := .bf16) _ bitsLt_bf16_f32 _).trans ?_
  exact Cert.Lib.Stack.cat3_second (N := 2048) (T := 6144) _ _ _ _ k q col hcol

/-- Column 4096 + q of the packed hidden-side weights is column q of matrix 2. -/
theorem V_wh2 (k q : Fin 2048) (col : Fin 6144) (hcol : col.val = 2 * 2048 + q.val) :
    V m c main_v4 (ix2 k col) = m ((c : Thread nD τ).loc main_arg10) (ix2 k q) := by
  dsimp only [V, hostOps0]
  simp only [after_cons, after_nil]
  read_prefix
  refine (truncf_apply (φ := .f32) (ψ := .bf16) _ bitsLt_bf16_f32 _).trans ?_
  exact Cert.Lib.Stack.cat3_third (N := 2048) (T := 6144) _ _ _ _ k q col hcol

theorem V_prm0 (q : Fin 2048) : V m c main_v21 (ix2 (0 : Fin 16) q) = m ((c : Thread nD τ).loc main_arg5) (ix1 q) := by
  dsimp only [V, hostOps0]
  simp only [after_cons, after_nil]
  rw [nary_result]
  refine (Cert.Lib.Stack.stack16_pieces (N := 2048) _ _ _ _ _ _ _ _ _ _ _ _ _ _ _ _ _ (0 : Fin 16) q).trans ?_
  simp only [Matrix.cons_val]
  read_prefix
  exact Cert.Lib.RowForms.vecRow_apply _ _ q

theorem V_prm1 (q : Fin 2048) : V m c main_v21 (ix2 (1 : Fin 16) q) = m ((c : Thread nD τ).loc main_arg6) (ix1 q) := by
  dsimp only [V, hostOps0]
  simp only [after_cons, after_nil]
  rw [nary_result]
  refine (Cert.Lib.Stack.stack16_pieces (N := 2048) _ _ _ _ _ _ _ _ _ _ _ _ _ _ _ _ _ (1 : Fin 16) q).trans ?_
  simp only [Matrix.cons_val]
  read_prefix
  exact Cert.Lib.RowForms.vecRow_apply _ _ q

theorem V_prm2 (q : Fin 2048) : V m c main_v21 (ix2 (2 : Fin 16) q) = m ((c : Thread nD τ).loc main_arg7) (ix1 q) := by
  dsimp only [V, hostOps0]
  simp only [after_cons, after_nil]
  rw [nary_result]
  refine (Cert.Lib.Stack.stack16_pieces (N := 2048) _ _ _ _ _ _ _ _ _ _ _ _ _ _ _ _ _ (2 : Fin 16) q).trans ?_
  simp only [Matrix.cons_val]
  read_prefix
  exact Cert.Lib.RowForms.vecRow_apply _ _ q

theorem V_prm3 (q : Fin 2048) : V m c main_v21 (ix2 (3 : Fin 16) q) = m ((c : Thread nD τ).loc main_arg11) (ix1 q) := by
  dsimp only [V, hostOps0]
  simp only [after_cons, after_nil]
  rw [nary_result]
  refine (Cert.Lib.Stack.stack16_pieces (N := 2048) _ _ _ _ _ _ _ _ _ _ _ _ _ _ _ _ _ (3 : Fin 16) q).trans ?_
  simp only [Matrix.cons_val]
  read_prefix
  exact Cert.Lib.RowForms.vecRow_apply _ _ q

theorem V_prm4 (q : Fin 2048) : V m c main_v21 (ix2 (4 : Fin 16) q) = m ((c : Thread nD τ).loc main_arg12) (ix1 q) := by
  dsimp only [V, hostOps0]
  simp only [after_cons, after_nil]
  rw [nary_result]
  refine (Cert.Lib.Stack.stack16_pieces (N := 2048) _ _ _ _ _ _ _ _ _ _ _ _ _ _ _ _ _ (4 : Fin 16) q).trans ?_
  simp only [Matrix.cons_val]
  read_prefix
  exact Cert.Lib.RowForms.vecRow_apply _ _ q

theorem V_prm5 (q : Fin 2048) : V m c main_v21 (ix2 (5 : Fin 16) q) = m ((c : Thread nD τ).loc main_arg13) (ix1 q) := by
  dsimp only [V, hostOps0]
  simp only [after_cons, after_nil]
  rw [nary_result]
  refine (Cert.Lib.Stack.stack16_pieces (N := 2048) _ _ _ _ _ _ _ _ _ _ _ _ _ _ _ _ _ (5 : Fin 16) q).trans ?_
  simp only [Matrix.cons_val]
  read_prefix
  exact Cert.Lib.RowForms.vecRow_apply _ _ q

theorem V_prm6 (q : Fin 2048) : V m c main_v21 (ix2 (6 : Fin 16) q) = m ((c : Thread nD τ).loc main_arg14) (ix1 q) := by
  dsimp only [V, hostOps0]
  simp only [after_cons, after_nil]
  rw [nary_result]
  refine (Cert.Lib.Stack.stack16_pieces (N := 2048) _ _ _ _ _ _ _ _ _ _ _ _ _ _ _ _ _ (6 : Fin 16) q).trans ?_
  simp only [Matrix.cons_val]
  read_prefix
  exact Cert.Lib.RowForms.vecRow_apply _ _ q

theorem V_prm7 (q : Fin 2048) : V m c main_v21 (ix2 (7 : Fin 16) q) = m ((c : Thread nD τ).loc main_arg15) (ix1 q) := by
  dsimp only [V, hostOps0]
  simp only [after_cons, after_nil]
  rw [nary_result]
  refine (Cert.Lib.Stack.stack16_pieces (N := 2048) _ _ _ _ _ _ _ _ _ _ _ _ _ _ _ _ _ (7 : Fin 16) q).trans ?_
  simp only [Matrix.cons_val]
  read_prefix
  exact Cert.Lib.RowForms.vecRow_apply _ _ q

theorem V_prm8 (q : Fin 2048) : V m c main_v21 (ix2 (8 : Fin 16) q) = m ((c : Thread nD τ).loc main_arg16) (ix1 q) := by
  dsimp only [V, hostOps0]
  simp only [after_cons, after_nil]
  rw [nary_result]
  refine (Cert.Lib.Stack.stack16_pieces (N := 2048) _ _ _ _ _ _ _ _ _ _ _ _ _ _ _ _ _ (8 : Fin 16) q).trans ?_
  simp only [Matrix.cons_val]
  read_prefix
  exact Cert.Lib.RowForms.vecRow_apply _ _ q

theorem V_prm9 (q : Fin 2048) : V m c main_v21 (ix2 (9 : Fin 16) q) = m ((c : Thread nD τ).loc main_arg17) (ix1 q) := by
  dsimp only [V, hostOps0]
  simp only [after_cons, after_nil]
  rw [nary_result]
  refine (Cert.Lib.Stack.stack16_pieces (N := 2048) _ _ _ _ _ _ _ _ _ _ _ _ _ _ _ _ _ (9 : Fin 16) q).trans ?_
  simp only [Matrix.cons_val]
  read_prefix
  exact Cert.Lib.RowForms.vecRow_apply _ _ q

theorem V_prm10 (q : Fin 2048) : V m c main_v21 (ix2 (10 : Fin 16) q) = m ((c : Thread nD τ).loc main_arg18) (ix1 q) := by
  dsimp only [V, hostOps0]
  simp only [after_cons, after_nil]
  rw [nary_result]
  refine (Cert.Lib.Stack.stack16_pieces (N := 2048) _ _ _ _ _ _ _ _ _ _ _ _ _ _ _ _ _ (10 : Fin 16) q).trans ?_
  simp only [Matrix.cons_val]
  read_prefix
  exact Cert.Lib.RowForms.vecRow_apply _ _ q

theorem V_prm11 (q : Fin 2048) : V m c main_v21 (ix2 (11 : Fin 16) q) = m ((c : Thread nD τ).loc main_arg19) (ix1 q) := by
  dsimp only [V, hostOps0]
  simp only [after_cons, after_nil]
  rw [nary_result]
  refine (Cert.Lib.Stack.stack16_pieces (N := 2048) _ _ _ _ _ _ _ _ _ _ _ _ _ _ _ _ _ (11 : Fin 16) q).trans ?_
  simp only [Matrix.cons_val]
  read_prefix
  exact Cert.Lib.RowForms.vecRow_apply _ _ q

theorem V_prm12 (q : Fin 2048) : V m c main_v21 (ix2 (12 : Fin 16) q) = m ((c : Thread nD τ).loc main_arg20) (ix1 q) := by
  dsimp only [V, hostOps0]
  simp only [after_cons, after_nil]
  rw [nary_result]
  refine (Cert.Lib.Stack.stack16_pieces (N := 2048) _ _ _ _ _ _ _ _ _ _ _ _ _ _ _ _ _ (12 : Fin 16) q).trans ?_
  simp only [Matrix.cons_val]
  read_prefix
  exact Cert.Lib.RowForms.vecRow_apply _ _ q

theorem V_prm13 (q : Fin 2048) : V m c main_v21 (ix2 (13 : Fin 16) q) = m ((c : Thread nD τ).loc main_arg21) (ix1 q) := by
  dsimp only [V, hostOps0]
  simp only [after_cons, after_nil]
  rw [nary_result]
  refine (Cert.Lib.Stack.stack16_pieces (N := 2048) _ _ _ _ _ _ _ _ _ _ _ _ _ _ _ _ _ (13 : Fin 16) q).trans ?_
  simp only [Matrix.cons_val]
  read_prefix
  exact Cert.Lib.RowForms.vecRow_apply _ _ q

theorem V_prm14 (q : Fin 2048) : V m c main_v21 (ix2 (14 : Fin 16) q) = m ((c : Thread nD τ).loc main_arg22) (ix1 q) := by
  dsimp only [V, hostOps0]
  simp only [after_cons, after_nil]
  rw [nary_result]
  refine (Cert.Lib.Stack.stack16_pieces (N := 2048) _ _ _ _ _ _ _ _ _ _ _ _ _ _ _ _ _ (14 : Fin 16) q).trans ?_
  simp only [Matrix.cons_val]
  read_prefix
  exact Cert.Lib.RowForms.vecRow_apply _ _ q

end Cert.KernelIdeal.EntryRead

end
-- ==== Proof.KiValue.lean ====
/-
  What the kernel's result array holds after the run, as one function of the argument arrays.
  Grid point t stores the block of rows 128·t … 128·t + 127: its input blocks are those rows of `x` and `h`,
  its weight slices are the six weight matrices, its parameter rows the fifteen parameter vectors, so the
  stored entry (r, q) is the specification at (128·t + r, q).  The 64 blocks tile the 8192 rows.
-/
import proofs.«101222_j4458176053543_2_alg».proof.Proof.FrAfter
import proofs.«101222_j4458176053543_2_alg».proof.Proof.KiCellAt
import proofs.«101222_j4458176053543_2_alg».proof.Proof.KiEntryRead
import Idealize.ShloMosaic.Lib.Pipeline.Value

set_option maxRecDepth 16384

noncomputable section

namespace Cert.KernelIdeal.ValueLeg

open Idealize.ShloMosaic Idealize.ShloMosaic.TcCoe Idealize.ShloMosaic.ValueIdx Idealize.SL.Sem
open Cert.KernelIdeal Cert.KernelIdeal.Gen Cert.KernelIdeal.Frm Cert.KernelIdeal.EntryRead

variable (m : (ℓ : Loc nD τ sig) → Buf (Elt Ideal) ℓ) (ρ : Dev nD → PrngReg)

/-- The argument arrays as the specification takes them. -/
def inputs (c : Dev nD) : Gru.Inputs :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15),
    m ((c.tc : Thread nD τ).loc main_arg16),
    m ((c.tc : Thread nD τ).loc main_arg17),
    m ((c.tc : Thread nD τ).loc main_arg18),
    m ((c.tc : Thread nD τ).loc main_arg19),
    m ((c.tc : Thread nD τ).loc main_arg20),
    m ((c.tc : Thread nD τ).loc main_arg21),
    m ((c.tc : Thread nD τ).loc main_arg22)⟩

/-- The row blocks move with the grid point; the column index is always 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 64 := lt_of_lt_of_eq t.isLt N_0

/-- Row r of point t's block is row 128·t + r of the array. -/
def gRow (t : Fin cfg0.N) (r : Fin 128) : Fin 8192 := ⟨128 * t.val + r.val, by have := t_lt t; have := r.isLt; omega⟩

/-- The point's block of `x` at (r, k) is `x` at (128·t + r, k). -/
theorem xblk_apply (c : Dev nD) (t : Fin cfg0.N) (r : Fin 128) (k : Fin 2048) :
    iblk m c 0 t (ix2 r k) = (inputs m c).x (ix2 (gRow t r) k) := by
  unfold iblk
  rw [View.read_apply]
  show V m c main_v0 (((cfg0.win 0).blk t).view.emb (ix2 r k)) = _
  obtain ⟨e0, e1, -, -, -, -⟩ := idx_rows t
  have he : ((cfg0.win 0).blk t).view.emb (ix2 r k) = ix2 (gRow t r) k := by
    funext a; apply Fin.ext
    match a with
    | ⟨0, _⟩ => show win0_0.index t (0 : Fin 2) * 128 + 1 * r.val = 128 * t.val + r.val; omega
    | ⟨1, _⟩ => show win0_0.index t (1 : Fin 2) * 2048 + 1 * k.val = k.val; omega
  rw [he]
  exact V_x m c _

/-- The point's block of `h` at (r, k) is `h` at (128·t + r, k). -/
theorem hblk_apply (c : Dev nD) (t : Fin cfg0.N) (r : Fin 128) (k : Fin 2048) :
    iblk m c 1 t (ix2 r k) = (inputs m c).h (ix2 (gRow t r) k) := by
  unfold iblk
  rw [View.read_apply]
  show V m c main_arg1 (((cfg0.win 1).blk t).view.emb (ix2 r k)) = _
  obtain ⟨-, -, e0, e1, -, -⟩ := idx_rows t
  have he : ((cfg0.win 1).blk t).view.emb (ix2 r k) = ix2 (gRow t r) k := by
    funext a; apply Fin.ext
    match a with
    | ⟨0, _⟩ => show win0_1.index t (0 : Fin 2) * 128 + 1 * r.val = 128 * t.val + r.val; omega
    | ⟨1, _⟩ => show win0_1.index t (1 : Fin 2) * 2048 + 1 * k.val = k.val; omega
  rw [he, V_main_arg1]
  rfl

/-- The six slices a point loads are the six weight matrices. -/
theorem weights_eq (c : Dev nD) :
    (fun g => (wSl (wA m c) (wB m c) g : Gru.SW.Idx → EReal)) = Gru.weights (inputs m c) := by
  funext g i
  obtain ⟨k, q, rfl⟩ : ∃ (k q : Fin 2048), i = ix2 k q := ⟨i 0, i 1, eq_ix2 i⟩
  fin_cases g
  · exact (wSl_0 _ _ (ix2 k q) (ix2 k ⟨0 + q.val, by have := q.isLt; omega⟩) rfl rfl).trans
      ((wA_apply m c _).trans (V_wi0 m c k q _ (by show 0 + q.val = q.val; omega)))
  · exact (wSl_1 _ _ (ix2 k q) (ix2 k ⟨0 + q.val, by have := q.isLt; omega⟩) rfl rfl).trans
      ((wB_apply m c _).trans (V_wh0 m c k q _ (by show 0 + q.val = q.val; omega)))
  · exact (wSl_2 _ _ (ix2 k q) (ix2 k ⟨2048 + q.val, by have := q.isLt; omega⟩) rfl rfl).trans
      ((wA_apply m c _).trans (V_wi1 m c k q _ (by show 2048 + q.val = 2048 + q.val; omega)))
  · exact (wSl_3 _ _ (ix2 k q) (ix2 k ⟨2048 + q.val, by have := q.isLt; omega⟩) rfl rfl).trans
      ((wB_apply m c _).trans (V_wh1 m c k q _ (by show 2048 + q.val = 2048 + q.val; omega)))
  · exact (wSl_4 _ _ (ix2 k q) (ix2 k ⟨4096 + q.val, by have := q.isLt; omega⟩) rfl rfl).trans
      ((wA_apply m c _).trans (V_wi2 m c k q _ (by show 4096 + q.val = 2 * 2048 + q.val; omega)))
  · exact (wSl_5 _ _ (ix2 k q) (ix2 k ⟨4096 + q.val, by have := q.isLt; omega⟩) rfl rfl).trans
      ((wB_apply m c _).trans (V_wh2 m c k q _ (by show 4096 + q.val = 2 * 2048 + q.val; omega)))

/-- The fifteen rows a point loads are the fifteen parameter vectors. -/
theorem params_eq (c : Dev nD) (t : Fin cfg0.N) :
    (fun k q' => (prmOf (iblk m c 2 t) k (ix2 (0 : Fin 1) q') : EReal)) = Gru.params (inputs m c) := by
  funext k q'
  fin_cases k
  · exact (prmOf_apply _ _ (ix2 (0 : Fin 1) q') (ix2 (0 : Fin 16) q') rfl rfl).trans ((iblk2_apply m c t _).trans (V_prm0 m c q'))
  · exact (prmOf_apply _ _ (ix2 (0 : Fin 1) q') (ix2 (1 : Fin 16) q') rfl rfl).trans ((iblk2_apply m c t _).trans (V_prm1 m c q'))
  · exact (prmOf_apply _ _ (ix2 (0 : Fin 1) q') (ix2 (2 : Fin 16) q') rfl rfl).trans ((iblk2_apply m c t _).trans (V_prm2 m c q'))
  · exact (prmOf_apply _ _ (ix2 (0 : Fin 1) q') (ix2 (3 : Fin 16) q') rfl rfl).trans ((iblk2_apply m c t _).trans (V_prm3 m c q'))
  · exact (prmOf_apply _ _ (ix2 (0 : Fin 1) q') (ix2 (4 : Fin 16) q') rfl rfl).trans ((iblk2_apply m c t _).trans (V_prm4 m c q'))
  · exact (prmOf_apply _ _ (ix2 (0 : Fin 1) q') (ix2 (5 : Fin 16) q') rfl rfl).trans ((iblk2_apply m c t _).trans (V_prm5 m c q'))
  · exact (prmOf_apply _ _ (ix2 (0 : Fin 1) q') (ix2 (6 : Fin 16) q') rfl rfl).trans ((iblk2_apply m c t _).trans (V_prm6 m c q'))
  · exact (prmOf_apply _ _ (ix2 (0 : Fin 1) q') (ix2 (7 : Fin 16) q') rfl rfl).trans ((iblk2_apply m c t _).trans (V_prm7 m c q'))
  · exact (prmOf_apply _ _ (ix2 (0 : Fin 1) q') (ix2 (8 : Fin 16) q') rfl rfl).trans ((iblk2_apply m c t _).trans (V_prm8 m c q'))
  · exact (prmOf_apply _ _ (ix2 (0 : Fin 1) q') (ix2 (9 : Fin 16) q') rfl rfl).trans ((iblk2_apply m c t _).trans (V_prm9 m c q'))
  · exact (prmOf_apply _ _ (ix2 (0 : Fin 1) q') (ix2 (10 : Fin 16) q') rfl rfl).trans ((iblk2_apply m c t _).trans (V_prm10 m c q'))
  · exact (prmOf_apply _ _ (ix2 (0 : Fin 1) q') (ix2 (11 : Fin 16) q') rfl rfl).trans ((iblk2_apply m c t _).trans (V_prm11 m c q'))
  · exact (prmOf_apply _ _ (ix2 (0 : Fin 1) q') (ix2 (12 : Fin 16) q') rfl rfl).trans ((iblk2_apply m c t _).trans (V_prm12 m c q'))
  · exact (prmOf_apply _ _ (ix2 (0 : Fin 1) q') (ix2 (13 : Fin 16) q') rfl rfl).trans ((iblk2_apply m c t _).trans (V_prm13 m c q'))
  · exact (prmOf_apply _ _ (ix2 (0 : Fin 1) q') (ix2 (14 : Fin 16) q') rfl rfl).trans ((iblk2_apply m c t _).trans (V_prm14 m c q'))

/-- What point t writes back is block t of the specification of the argument arrays. -/
theorem flushed3_eq (c : Dev nD) (t : Fin cfg0.N) :
    (dats m 0 c).flushed 3 t = ((cfg0.win 3).blk t).view.read (Elt Ideal) (Gru.G (inputs m c)) := by
  show (cfg0.win 3).cut (grid0.coords t) ((dats m 0 c).after 3 t) = _
  rw [after3_eq]
  funext y
  obtain ⟨r, q, rfl⟩ : ∃ (r : Fin 128) (q : Fin 2048), y = ix2 r q := ⟨y 0, y 1, eq_ix2 y⟩
  show Cell.cellVal (F := Ideal) (prmOf (iblk m c 2 t)) (iblk m c 0 t) (iblk m c 1 t) (wSl (wA m c) (wB m c)) (ix2 r q)
    = Gru.G (inputs m c) (((cfg0.win 3).blk t).view.emb (ix2 r q))
  obtain ⟨-, -, -, -, e0, e1⟩ := idx_rows t
  have he : ((cfg0.win 3).blk t).view.emb (ix2 r q) = ix2 (gRow t r) q := by
    funext a; apply Fin.ext
    match a with
    | ⟨0, _⟩ => show win0_3.index t (0 : Fin 2) * 128 + 1 * r.val = 128 * t.val + r.val; omega
    | ⟨1, _⟩ => show win0_3.index t (1 : Fin 2) * 2048 + 1 * q.val = q.val; omega
  rw [he, Gru.G_apply, BlockMath.cellVal_apply]
  have ex : (fun k => (iblk m c 0 t (ix2 r k) : EReal)) = Gru.row (inputs m c).x (gRow t r) :=
    funext fun k => xblk_apply m c t r k
  have eh : (fun k => (iblk m c 1 t (ix2 r k) : EReal)) = Gru.row (inputs m c).h (gRow t r) :=
    funext fun k => hblk_apply m c t r k
  exact congrFun (congr (congr (congr (congrArg Gru.cellRow ex) eh) (weights_eq m c)) (params_eq m c t)) q

/-- An index of the result array is in point t's block iff its row is one of the block's 128. -/
theorem mem_blk3 (t : Fin cfg0.N) (i : S8192x2048.Idx) :
    i ∈ ((cfg0.win 3).blk t).view.set ↔ ∀ a : Fin 2, win0_3.index t a * S128x2048.size a ≤ (i a).val ∧ (i a).val < win0_3.index t a * S128x2048.size a + S128x2048.size a := by
  show i ∈ ((View.whole main_v22).slice (win0_3.rect t)).set ↔ _
  rw [View.set_slice_whole, Rect.mem_set_unit]
  exact Iff.rfl

/-- Every entry of the result array is in the block of the point its row divided by 128 names. -/
theorem cover3 (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  refine ⟨⟨(i 0).val / 128, by rw [show cfg0.N = 64 from N_0]; omega⟩, flush0_3 _, ?_⟩
  rw [mem_blk3]
  obtain ⟨-, -, -, -, e0, e1⟩ := idx_rows ⟨(i 0).val / 128, by rw [show cfg0.N = 64 from N_0]; omega⟩
  intro a
  match a with
  | ⟨0, _⟩ => show win0_3.index _ (0 : Fin 2) * 128 ≤ (i 0).val ∧ (i 0).val < win0_3.index _ (0 : Fin 2) * 128 + 128; rw [e0]; show (i 0).val / 128 * 128 ≤ _ ∧ _ < (i 0).val / 128 * 128 + 128; omega
  | ⟨1, _⟩ => show win0_3.index _ (1 : Fin 2) * 2048 ≤ (i 1).val ∧ (i 1).val < win0_3.index _ (1 : Fin 2) * 2048 + 2048; rw [e1]; omega

/-- The result array after the run is the specification of the argument arrays. -/
theorem final3 (c : Dev nD) : (dats m 0 c).arrAt 3 cfg0.N = Gru.G (inputs m c) :=
  (dats m 0 c).arrAt_eq_of_cover 3 (Gru.G (inputs m c)) (fun t _ => flushed3_eq m c t) (cover3)

/-- The kernel's run: the result array at the specification, the argument arrays unchanged. -/
theorem run : θ_run defs (onTc (τ := τ) (main (F := Ideal))) ⟨m, fun _ => 0, ρ⟩ fun r => ∀ c : Dev nD,
      r.2.mem ((c.tc : Thread nD τ).loc main_v22) = Gru.G (inputs m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22) :=
  (θ_run defs _ _).mono (fun r h c => ⟨(post3 m r h c).trans (final3 m c), args_of_post m r h c⟩) (run_main m ρ)

end Cert.KernelIdeal.ValueLeg

end
-- ==== Proof.KbEntry.lean ====
/-
  The region's entry.  The program first runs twenty-three host operations (two roundings to bf16 of the
  inputs, two concatenations of three weight matrices each, their roundings, fifteen reshapes of the
  bias and normalisation vectors, a zero row, and the concatenation of the sixteen rows into the
  parameter table), then the one grid region.  This module names what every TensorCore buffer holds when
  the region is entered, shows that no host operation writes an argument array, and fixes the vocabulary
  the body's runs are stated in: each window's block at a grid point, the two scratch buffers that
  receive the concatenated weights, the two weight arrays left in HBM, and the two semaphore cells the
  body's own copies complete on.
-/
import proofs.«101222_j4458176053543_2_alg».proof.Proof.Gen.Kernel.Launch
import proofs.«101222_j4458176053543_2_alg».proof.Proof.Gen.Kernel.Skeleton
import proofs.«101222_j4458176053543_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers at the region's entry -/

/-- What core `c`'s TensorCore buffers hold when the region is entered: the launch contents after the host
    operations, in order. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region, so the region starts from `V`. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Every buffer some host operation writes: the intermediate results, none of them an argument. -/
def written : List (Ref sig .tc) :=
  [main_v0, main_v1, main_v2, main_v3, main_v4, main_v5, main_v6, main_v7, main_v8, main_v9, main_v10, main_v11,
   main_v12, main_v13, main_v14, main_v15, main_v16, main_v17, main_v18, main_v19, main_cst, main_v20, main_v21]

theorem sub_written {y : Ref sig .tc} (hy : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem hy))

/-- Each host operation writes only its own result, one of `written`. -/
theorem hostOps0_writes : (hostOps0 : List (HloOp τ sig (Elt F))).Forall fun op =>
    op.writes ⊆ (written.map (Proc.devRef (τ := τ) .tc)).toFinset :=
  ⟨sub_written (y := main_v0) (by decide), sub_written (y := main_v1) (by decide), sub_written (y := main_v2) (by decide),
   sub_written (y := main_v3) (by decide), sub_written (y := main_v4) (by decide), sub_written (y := main_v5) (by decide),
   sub_written (y := main_v6) (by decide), sub_written (y := main_v7) (by decide), sub_written (y := main_v8) (by decide),
   sub_written (y := main_v9) (by decide), sub_written (y := main_v10) (by decide), sub_written (y := main_v11) (by decide),
   sub_written (y := main_v12) (by decide), sub_written (y := main_v13) (by decide), sub_written (y := main_v14) (by decide),
   sub_written (y := main_v15) (by decide), sub_written (y := main_v16) (by decide), sub_written (y := main_v17) (by decide),
   sub_written (y := main_v18) (by decide), sub_written (y := main_v19) (by decide), sub_written (y := main_cst) (by decide),
   sub_written (y := main_v20) (by decide), sub_written (y := main_v21) (by decide)⟩

/-- A buffer no host operation writes is found by the region as launched. -/
theorem V_of_not_written (c : Dev nD) (r : Ref sig .tc) (hr : r ∉ written) : V m c r = m ((c : Thread nD τ).loc r) :=
  StableHlo.after_of_writes_sub hostOps0 _ hostOps0_writes hr

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)
theorem V_main_arg9 (c : Dev nD) : V m c main_arg9 = m ((c : Thread nD τ).loc main_arg9) := V_of_not_written m c _ (by decide)
theorem V_main_arg10 (c : Dev nD) : V m c main_arg10 = m ((c : Thread nD τ).loc main_arg10) := V_of_not_written m c _ (by decide)
theorem V_main_arg11 (c : Dev nD) : V m c main_arg11 = m ((c : Thread nD τ).loc main_arg11) := V_of_not_written m c _ (by decide)
theorem V_main_arg12 (c : Dev nD) : V m c main_arg12 = m ((c : Thread nD τ).loc main_arg12) := V_of_not_written m c _ (by decide)
theorem V_main_arg13 (c : Dev nD) : V m c main_arg13 = m ((c : Thread nD τ).loc main_arg13) := V_of_not_written m c _ (by decide)
theorem V_main_arg14 (c : Dev nD) : V m c main_arg14 = m ((c : Thread nD τ).loc main_arg14) := V_of_not_written m c _ (by decide)
theorem V_main_arg15 (c : Dev nD) : V m c main_arg15 = m ((c : Thread nD τ).loc main_arg15) := V_of_not_written m c _ (by decide)
theorem V_main_arg16 (c : Dev nD) : V m c main_arg16 = m ((c : Thread nD τ).loc main_arg16) := V_of_not_written m c _ (by decide)
theorem V_main_arg17 (c : Dev nD) : V m c main_arg17 = m ((c : Thread nD τ).loc main_arg17) := V_of_not_written m c _ (by decide)
theorem V_main_arg18 (c : Dev nD) : V m c main_arg18 = m ((c : Thread nD τ).loc main_arg18) := V_of_not_written m c _ (by decide)
theorem V_main_arg19 (c : Dev nD) : V m c main_arg19 = m ((c : Thread nD τ).loc main_arg19) := V_of_not_written m c _ (by decide)
theorem V_main_arg20 (c : Dev nD) : V m c main_arg20 = m ((c : Thread nD τ).loc main_arg20) := V_of_not_written m c _ (by decide)
theorem V_main_arg21 (c : Dev nD) : V m c main_arg21 = m ((c : Thread nD τ).loc main_arg21) := V_of_not_written m c _ (by decide)
theorem V_main_arg22 (c : Dev nD) : V m c main_arg22 = m ((c : Thread nD τ).loc main_arg22) := V_of_not_written m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every point the staging buffer in use for an input window holds that window's block there: either the
    pipeline has just fetched it, or the block index is the one of the previous point and the body left the
    buffer alone.  This holds for any proof data whose arrays are the entry contents and whose body leaves each
    input block in place.  Window 0: the rows of `x`. -/
theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1: the rows of `h`. -/
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2: the parameter table, one block for the whole grid, fetched once. -/
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called on -/

/-- The staging memref the pipeline passes the body for each window at point `t` (the slot in use there), with the
    fact that it is a whole buffer. -/
abbrev ms0 (t : Fin cfg0.N) : Memref sig .tc .vmem S128x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x2048 .f32 := win0_3.stage (cfg0.slots t 3)
abbrev hs3 (t : Fin cfg0.N) : (ms3 t).IsWhole := hstage0_3 ((cfg0.slots t 3).cast nbuf0_3)
/-- The view of one of the output window's two staging buffers: what a point stores is read back through it (which
    of the two does not matter, the stored pieces covering the block). -/
abbrev VO3 : View sig .tc .vmem S128x2048 .f32 := (Memref.whole cc0_stg3_0 : Memref sig .tc .vmem S128x2048 .f32).view
/-- The two scratch buffers: the input-side and the hidden-side weights, three gates side by side. -/
abbrev scA : Memref sig .tc .vmem S2048x6144 .bf16 := Memref.whole cc0_scratch0
abbrev scB : Memref sig .tc .vmem S2048x6144 .bf16 := Memref.whole cc0_scratch1
/-- The two weight arrays left in HBM, which the body copies into the scratch buffers itself. -/
abbrev hbA : Memref sig .tc .hbm S2048x6144 .bf16 := Memref.whole main_v2
abbrev hbB : Memref sig .tc .hbm S2048x6144 .bf16 := Memref.whole main_v4
/-- The contents type of the buffer under a memref on core `c`, and the assertion that core `c` holds that
    buffer whole, at full share, with contents `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-! ## The body's own semaphore cells and the arrays it copies -/

/-- The body's two DMA semaphores are cells 7 and 8 of the pool (cells 0 to 6 are the windows'). -/
abbrev osem : Fin 2 → SemLoc sig := fun j => (![SemLoc.dma 7, SemLoc.dma 8] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0) := by
  rw [Pipeline.ownSems0_eq_of_list c osem [0, 1] (by decide) (by decide)]; rfl
/-- The arrays the body copies: unscoped, and no window's array. -/
def HB : Finset (Ref sig .tc) := {main_v2, main_v4}
theorem HB_sub : HB ⊆ Pipeline.restRefs sig spec0 := by decide
theorem hbmPts_eq (c : Dev nD) :
    (bigSep HB (fun b => ((c : Thread nD τ).loc b) ↦{fullShare} V m c b) : sProp 𝕄)
      = iprop(hbPt c hbA (V m c main_v2) ∗ hbPt c hbB (V m c main_v4)) := by
  rw [BI.bigSep_eq_bigSepL_of_eq [main_v2, main_v4] (by decide) (by decide)]; rfl

/-- What the launch hands the region and takes back, conjunct by conjunct: both scratch buffers at some
    contents, the generator register at some state, the two cells at zero, the two arrays at their entry
    contents. -/
theorem PhiD_eq (c : Dev nD) :
    (Pipeline.ΦD osem spec0 HB (V m) c : sProp 𝕄)
      = iprop(iprop((∃ d, owns (c : Thread nD τ) scA fullShare d) ∗ (∃ d, owns (c : Thread nD τ) scB fullShare d)) ∗ (∃ r, prngReg c r)
          ∗ iprop(semVal ((c : Thread nD τ), SemLoc.dma 7) 0 ∗ semVal ((c : Thread nD τ), SemLoc.dma 8) 0)
          ∗ iprop(hbPt c hbA (V m c main_v2) ∗ hbPt c hbB (V m c main_v4))) := by
  rw [Pipeline.ΦD_eq, scopedRest0_eq, ownSems_eq, hbmPts_eq]; simp only [scA, scB, owns_whole]; try rfl

/-! ## Which points copy the weights -/

/-- The condition of the body's three conditionals: the second grid coordinate is zero. -/
abbrev cond (i : grid0.Coords) : Prop :=
  (Scalar.cmpi .ne (Scalar.extui (Scalar.cmpi .eq (BitVec.ofNat 32 (i 1).val) 0#32)) 0#32) = 1#1
/-- It holds at the first point of each of the two rows of the grid. -/
theorem hcond : ∀ t : Fin cfg0.N, cond (grid0.coords t) ↔ t.val % 32 = 0 :=
  (by decide +kernel : ∀ t : Fin grid0.N, cond (grid0.coords t) ↔ t.val % 32 = 0)

end Cert.Kernel.Frm

end
-- ==== Proof.KbFirst.lean ====
/-
  The body at a point that copies the weights (the second grid coordinate is zero).  It starts the two
  copies — the input-side weights into the first scratch buffer on the first of its two semaphore cells, the
  hidden-side weights into the second on the second —, loads the parameter rows and its rows of `x` and
  `h`, waits for the first copy before the first load from the first scratch buffer and for the second
  before the first load from the second, computes, and stores one whole block into the output's staging
  buffer.  Given both cells at zero, both weight arrays held whole and the core's record of waits, it
  runs to its end with the inputs as they were, each scratch buffer overwritten whole by the copy's
  payload, the cells back at zero, the arrays held as before and the two waits recorded.
-/
import proofs.«101222_j4458176053543_2_alg».proof.Proof.KbEntry

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the run at a copying point leaves in the output's staging buffer and in the two scratch
    buffers (found by the run itself), with the body's triple over them. -/
noncomputable def runFirst (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    Σ' (L3 : List (View.Piece (Elt F) S128x2048 .f32)) (LA : List (View.Piece (Elt F) S2048x6144 .bf16)), { LB : List (View.Piece (Elt F) S2048x6144 .bf16) //
      ∀ (W : Waits sig Unit) (K : PUnit → sProp 𝕄),
        iprop(owns (c : Thread nD τ) a2 fullShare x0 ∗ owns (c : Thread nD τ) a3 fullShare x1 ∗ owns (c : Thread nD τ) a6 fullShare x2
            ∗ (∃ d, owns (c : Thread nD τ) a7 fullShare d) ∗ (∃ d, owns (c : Thread nD τ) a8 fullShare d) ∗ (∃ d, owns (c : Thread nD τ) a9 fullShare d)
            ∗ semVal ((c : Thread nD τ), SemLoc.dma 7) 0 ∗ semVal ((c : Thread nD τ), SemLoc.dma 8) 0
            ∗ hbPt c hbA fhA ∗ hbPt c hbB fhB ∗ owes (c : Thread nD τ) 0 W
            ∗ (iprop(owns (c : Thread nD τ) a2 fullShare x0 ∗ owns (c : Thread nD τ) a3 fullShare x1 ∗ owns (c : Thread nD τ) a6 fullShare x2
                ∗ (∃ f, a7.view.loc (c : Thread nD τ) ↦[a7.view.set]{fullShare} a7.view.writes (Elt F) f L3)
                ∗ (∃ f, a8.view.loc (c : Thread nD τ) ↦[a8.view.set]{fullShare} a8.view.writes (Elt F) f LA)
                ∗ (∃ f, a9.view.loc (c : Thread nD τ) ↦[a9.view.set]{fullShare} a9.view.writes (Elt F) f LB)
                ∗ semVal ((c : Thread nD τ), SemLoc.dma 7) 0 ∗ semVal ((c : Thread nD τ), SemLoc.dma 8) 0
                ∗ hbPt c hbA fhA ∗ hbPt c hbB fhB ∗ (∃ W', owes (c : Thread nD τ) 0 W')) -∗ K ⟨⟩))
          ⊢ wp frame (wpE (defs₀ (F := F)) Variants.none c none) Set.univ (cc0__gru_kernel i a2 h2 a3 h3 (Memref.whole main_v2) (Memref.isWhole_whole _) (Memref.whole main_v4) (Memref.isWhole_whole _) a6 h6 a7 h7 a8 h8 a9 h9 cc0_scratch2) K } := by
  refine ⟨?_, ?_, ?_, fun W K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%d3, %f3, -, H3⟩, ⟨%dA, %fA, -, HA⟩, ⟨%dB, %fB, -, HB⟩, Hq0, Hq1, HhA, HhB, HW, Hk⟩
    obtain rfl := h2.eq_unread hf0; obtain rfl := h3.eq_unread hf1; obtain rfl := h6.eq_unread hf2
    sl_exec (disch := exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h6.read_unread _
      iexact H2
    isplitl [H3]; · iexists _; iexact H3
    isplitl [HA]; · iexists _; iexact HA
    isplitl [HB]; · iexists _; iexact HB
    isplitl [Hq0]; · iexact Hq0
    isplitl [Hq1]; · iexact Hq1
    isplitl [HhA]; · iexact HhA
    isplitl [HhB]; · iexact HhB
    iexists _; iexact HW

end Cert.Kernel.Frm

end
-- ==== Proof.KbLater.lean ====
/-
  The body at a point that copies nothing (the second grid coordinate is not zero).  Both scratch buffers
  must already hold the weights: the body loads the parameter rows, its rows of `x` and `h` and six
  2048 × 2048 column slices of the two scratch buffers, computes, and stores one whole block into the
  output's staging buffer.  It touches neither the semaphore cells nor the weight arrays left in HBM, and
  leaves the inputs and both scratch buffers as they were.
-/
import proofs.«101222_j4458176053543_2_alg».proof.Proof.KbFirst

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the run at a point that copies nothing leaves in the output's staging buffer (found by
    the run itself), with the body's triple over them; `sA` and `sB` are what the scratch buffers hold. -/
noncomputable def runLater (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) :
    { L3 : List (View.Piece (Elt F) S128x2048 .f32) //
      ∀ (E : Set ℕ) (K : PUnit → sProp 𝕄),
        iprop(owns (c : Thread nD τ) a2 fullShare x0 ∗ owns (c : Thread nD τ) a3 fullShare x1 ∗ owns (c : Thread nD τ) a6 fullShare x2
            ∗ (∃ d, owns (c : Thread nD τ) a7 fullShare d) ∗ owns (c : Thread nD τ) a8 fullShare sA ∗ owns (c : Thread nD τ) a9 fullShare sB
            ∗ (iprop(owns (c : Thread nD τ) a2 fullShare x0 ∗ owns (c : Thread nD τ) a3 fullShare x1 ∗ owns (c : Thread nD τ) a6 fullShare x2
                ∗ (∃ f, a7.view.loc (c : Thread nD τ) ↦[a7.view.set]{fullShare} a7.view.writes (Elt F) f L3)
                ∗ owns (c : Thread nD τ) a8 fullShare sA ∗ owns (c : Thread nD τ) a9 fullShare sB) -∗ K ⟨⟩))
          ⊢ wp frame (wpE (defs₀ (F := F)) Variants.none c none) E (cc0__gru_kernel i a2 h2 a3 h3 (Memref.whole main_v2) (Memref.isWhole_whole _) (Memref.whole main_v4) (Memref.isWhole_whole _) a6 h6 a7 h7 a8 h8 a9 h9 cc0_scratch2) K } := by
  refine ⟨?_, fun E K => ?run⟩
  case run =>
    simp only [cc0__gru_kernel_eq_skeleton]; unfold cc0__gru_kernel_skel
    unfold owns
    iintro ⟨⟨%f0, %hf0, H0⟩, ⟨%f1, %hf1, H1⟩, ⟨%f2, %hf2, H2⟩, ⟨%d3, %f3, -, H3⟩, ⟨%fA, %hfA, HA⟩, ⟨%fB, %hfB, HB⟩, Hk⟩
    obtain rfl := h2.eq_unread hf0; obtain rfl := h3.eq_unread hf1; obtain rfl := h6.eq_unread hf2
    obtain rfl := h8.eq_unread hfA; obtain rfl := h9.eq_unread hfB
    sl_exec (disch := exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h6.read_unread _
      iexact H2
    isplitl [H3]; · iexists _; iexact H3
    isplitl [HA]
    · iexists _; isplitr; · ipureintro; exact h8.read_unread _
      iexact HA
    iexists _; isplitr; · ipureintro; exact h9.read_unread _
    iexact HB

end Cert.Kernel.Frm

end
-- ==== Proof.KbRun.lean ====
/-
  The run of the whole grid.  The proof data says what each staging buffer holds after the body at each
  of the 64 points: an input window its block; the output window what the point's run found; and the
  invariant carried from point to point TRACKS the two scratch buffers — before the first point they hold
  anything, after any point the first holds the input-side weight array's entry contents and the second
  the hidden-side array's.  A point whose second coordinate is zero (points 0 and 32) establishes this by
  its two copies; every other point needs it to load the weights, and keeps it.  From the body's triple at
  every point the library's launch theorem gives the run of the program, and from its post the frame claim:
  every argument array ends as it was launched.
-/
import proofs.«101222_j4458176053543_2_alg».proof.Proof.KbLater

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the runs found -/

/-- The one store of a copying point covers the output's staging buffer; -/
theorem coverFirst3 (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) (y : S128x2048.Idx) : ∃ pc ∈ (runFirst c i a2 h2 a3 h3 a6 h6 a7 h7 a8 h8 a9 h9 hc x0 x1 x2 fhA fhB).1, y ∈ pc.1.set :=
  View.cover_of_tiledL (runFirst c i a2 h2 a3 h3 a6 h6 a7 h7 a8 h8 a9 h9 hc x0 x1 x2 fhA fhB).1 S128x2048.size (by sl_kernel_rfl) y
/-- each copy covers its scratch buffer; -/
theorem coverFirstA (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) (y : S2048x6144.Idx) : ∃ pc ∈ (runFirst c i a2 h2 a3 h3 a6 h6 a7 h7 a8 h8 a9 h9 hc x0 x1 x2 fhA fhB).2.1, y ∈ pc.1.set :=
  View.cover_of_tiledL (runFirst c i a2 h2 a3 h3 a6 h6 a7 h7 a8 h8 a9 h9 hc x0 x1 x2 fhA fhB).2.1 S2048x6144.size (by sl_kernel_rfl) y
theorem coverFirstB (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) (y : S2048x6144.Idx) : ∃ pc ∈ (runFirst c i a2 h2 a3 h3 a6 h6 a7 h7 a8 h8 a9 h9 hc x0 x1 x2 fhA fhB).2.2.1, y ∈ pc.1.set :=
  View.cover_of_tiledL (runFirst c i a2 h2 a3 h3 a6 h6 a7 h7 a8 h8 a9 h9 hc x0 x1 x2 fhA fhB).2.2.1 S2048x6144.size (by sl_kernel_rfl) y
/-- and the one store of any other point covers the output's staging buffer. -/
theorem coverLater3 (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) (y : S128x2048.Idx) : ∃ pc ∈ (runLater c i a2 h2 a3 h3 a6 h6 a7 h7 a8 h8 a9 h9 hc x0 x1 x2 sA sB).1, y ∈ pc.1.set :=
  View.cover_of_tiledL (runLater c i a2 h2 a3 h3 a6 h6 a7 h7 a8 h8 a9 h9 hc x0 x1 x2 sA sB).1 S128x2048.size (by sl_kernel_rfl) y

/-- What a copying point leaves in the output's staging buffer: its pieces read back. -/
def outFirst (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) : Vec F S128x2048 .f32 :=
  VO3.read (Elt F) (VO3.writes (Elt F) VO3.junk (runFirst c i a2 h2 a3 h3 a6 h6 a7 h7 a8 h8 a9 h9 hc x0 x1 x2 fhA fhB).1)
/-- What any other point leaves there. -/
def outLater (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : ¬cond i)
    (x0 : Vec F S128x2048 .bf16) (x1 : Vec F S128x2048 .f32) (x2 : Vec F S16x2048 .f32) (sA sB : Vec F S2048x6144 .bf16) : Vec F S128x2048 .f32 :=
  VO3.read (Elt F) (VO3.writes (Elt F) VO3.junk (runLater c i a2 h2 a3 h3 a6 h6 a7 h7 a8 h8 a9 h9 hc x0 x1 x2 sA sB).1)

/-- A weight array's contents, as contents of a scratch buffer of the same shape and element type. -/
def wOf (c : Dev nD) (M : Memref sig .tc .hbm S2048x6144 .bf16) (f : HbBuf (F := F) c M) : Vec F S2048x6144 .bf16 := M.view.read (Elt F) f

/-- After a copying point the first scratch buffer holds the input-side weight array: the copy's payload is
    the array read whole, written whole. -/
theorem scA_first (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    scA.view.read (Elt F) (scA.view.writes (Elt F) scA.view.junk (runFirst c i a2 h2 a3 h3 a6 h6 a7 h7 a8 h8 a9 h9 hc x0 x1 x2 fhA fhB).2.1) = wOf c hbA fhA := by
  unfold runFirst
  dsimp only
  sl_unfold_words
  exact View.read_writes_whole _ _ _
/-- And the second the hidden-side one. -/
theorem scB_first (c : Dev nD) (i : grid0.Coords) (a2 : Memref sig .tc .vmem S128x2048 .bf16) (h2 : a2.IsWhole) (a3 : Memref sig .tc .vmem S128x2048 .f32) (h3 : a3.IsWhole) (a6 : Memref sig .tc .vmem S16x2048 .f32) (h6 : a6.IsWhole) (a7 : Memref sig .tc .vmem S128x2048 .f32) (h7 : a7.IsWhole) (a8 : Memref sig .tc .vmem S2048x6144 .bf16) (h8 : a8.IsWhole) (a9 : Memref sig .tc .vmem S2048x6144 .bf16) (h9 : a9.IsWhole) (hc : cond i)
    (x0 : Vec F S128x2048 .bf16) (x1 : Vec F S128x2048 .f32) (x2 : Vec F S16x2048 .f32)
    (fhA : HbBuf (F := F) c hbA) (fhB : HbBuf (F := F) c hbB) :
    scB.view.read (Elt F) (scB.view.writes (Elt F) scB.view.junk (runFirst c i a2 h2 a3 h3 a6 h6 a7 h7 a8 h8 a9 h9 hc x0 x1 x2 fhA fhB).2.2.1) = wOf c hbB fhB := by
  unfold runFirst
  dsimp only
  sl_unfold_words
  exact View.read_writes_whole _ _ _

/-! ## What the buffers hold after each point -/

/-- The weights as the scratch buffers hold them once copied. -/
def wA (c : Dev nD) : Vec F S2048x6144 .bf16 := wOf c hbA (V m c main_v2)
def wB (c : Dev nD) : Vec F S2048x6144 .bf16 := wOf c hbB (V m c main_v4)

/-- What the output's staging buffer holds after the body at point `t`: the found contents of the point's
    case, at the point's memrefs and blocks (and, at a point that copies nothing, the weights in scratch). -/
def outAt (c : Dev nD) (t : Fin cfg0.N) : Vec F S128x2048 .f32 :=
  if h : t.val % 32 = 0 then
    outFirst c (grid0.coords t) (ms0 t) (hs0 t) (ms1 t) (hs1 t) (ms2 t) (hs2 t) (ms3 t) (hs3 t) scA (Memref.isWhole_whole _) scB (Memref.isWhole_whole _) ((hcond t).mpr h) (iblk m c 0 t) (iblk m c 1 t) (iblk m c 2 t) (V m c main_v2) (V m c main_v4)
  else
    outLater c (grid0.coords t) (ms0 t) (hs0 t) (ms1 t) (hs1 t) (ms2 t) (hs2 t) (ms3 t) (hs3 t) scA (Memref.isWhole_whole _) scB (Memref.isWhole_whole _) (fun h' => h ((hcond t).mp h')) (iblk m c 0 t) (iblk m c 1 t) (iblk m c 2 t) (wA m c) (wB m c)

theorem outAt_first (c : Dev nD) (t : Fin cfg0.N) (h : t.val % 32 = 0) : outAt m c t
    = outFirst c (grid0.coords t) (ms0 t) (hs0 t) (ms1 t) (hs1 t) (ms2 t) (hs2 t) (ms3 t) (hs3 t) scA (Memref.isWhole_whole _) scB (Memref.isWhole_whole _) ((hcond t).mpr h) (iblk m c 0 t) (iblk m c 1 t) (iblk m c 2 t) (V m c main_v2) (V m c main_v4) := dif_pos h
theorem outAt_later (c : Dev nD) (t : Fin cfg0.N) (h : ¬t.val % 32 = 0) : outAt m c t
    = outLater c (grid0.coords t) (ms0 t) (hs0 t) (ms1 t) (hs1 t) (ms2 t) (hs2 t) (ms3 t) (hs3 t) scA (Memref.isWhole_whole _) scB (Memref.isWhole_whole _) (fun h' => h ((hcond t).mp h')) (iblk m c 0 t) (iblk m c 1 t) (iblk m c 2 t) (wA m c) (wB m c) := dif_neg h

/-- The invariant once the weights are in scratch: both scratch buffers at the weights, the generator register at
    some state, the two cells at zero, the two weight arrays at their entry contents. -/
def PhiW (c : Dev nD) : sProp 𝕄 :=
  iprop(iprop(owns (c : Thread nD τ) scA fullShare (wA m c) ∗ owns (c : Thread nD τ) scB fullShare (wB m c)) ∗ (∃ r, prngReg c r)
    ∗ iprop(semVal ((c : Thread nD τ), SemLoc.dma 7) 0 ∗ semVal ((c : Thread nD τ), SemLoc.dma 8) 0)
    ∗ iprop(hbPt c hbA (V m c main_v2) ∗ hbPt c hbB (V m c main_v4)))

/-- The invariant before position `n`: what the launch hands over before the first point, the weights in
    scratch afterwards. -/
def PhiS (c : Dev nD) : ℕ → sProp 𝕄
  | 0 => Pipeline.ΦD osem spec0 HB (V m) c
  | _ + 1 => PhiW m c

theorem PhiS_zero (c : Dev nD) (n : ℕ) (hz : n = 0) : PhiS m c n = Pipeline.ΦD osem spec0 HB (V m) c := by subst hz; rfl
theorem PhiS_pos (c : Dev nD) (n : ℕ) (hz : n ≠ 0) : PhiS m c n = PhiW m c := by
  cases n with
  | zero => exact absurd rfl hz
  | succ n => rfl

/-- With the weights' contents forgotten, the tracked invariant is the launch's. -/
theorem PhiW_out (c : Dev nD) : PhiW m c ⊢ Pipeline.ΦD osem spec0 HB (V m) c := by
  rw [PhiD_eq]; unfold PhiW
  iintro ⟨⟨HA, HB⟩, Hr⟩
  isplitl [HA HB]
  · isplitl [HA]; · iexists _; iexact HA
    iexists _; iexact HB
  iexact Hr

/-! ## The proof data -/

/-- Core `c`'s account of the 64 points.  Arrays: their entry contents.  After point `t`: windows 0, 1 and 2 (the
    inputs) still hold their blocks, window 3 (the output) holds `outAt m c t`.  Invariant before position `n`:
    `PhiS m c n`.  Every share is full and the core owes no one a signal. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiW m c := rfl

/-! ## The body obligation -/

/-- The body's precondition at point `t`: the invariant before the point, the core's record of waits, and each
    window's staging buffer in use there — an input's at its block, the output's at anything. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- The body's postcondition at point `t`: the invariant after the point, the record of waits, and each
    staging buffer at what the proof data says the body leaves in it. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 4800000 in
/-- The body at any point.  The input buffers hold their blocks.  At a copying point the invariant hands over
    the scratch buffers at whatever they hold (anything at the first point, the weights at point 32), the
    cells at zero and the weight arrays; the run copies, and hands the scratch buffers back at the weights.
    At any other point the invariant already holds the weights in scratch, and the run leaves it as it is. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [after0, after1, after2, after3, Phi_succ, Phi_castSucc]
  unfold Dat.owesAt Pipeline.owesWithin
  rw [show (dats m 0 c).owed t.castSucc = 0 from rfl, show (dats m 0 c).owed t.succ = 0 from rfl]
  by_cases h0 : t.val % 32 = 0
  · rw [outAt_first m c t h0]
    unfold outFirst
    have hpre : PhiS m c t.val ⊢ Pipeline.ΦD osem spec0 HB (V m) c := by
      by_cases hz : t.val = 0
      · rw [PhiS_zero m c _ hz]
      · rw [PhiS_pos m c _ hz]; exact PhiW_out m c
    refine (sep_mono hpre .rfl).trans ?_
    rw [PhiD_eq]
    iintro ⟨⟨⟨HA, HB⟩, Hg, ⟨Hq0, Hq1⟩, HhA, HhB⟩, ⟨%W, -, HW⟩, ⟨%d0, H0⟩, ⟨%d1, H1⟩, ⟨%d2, H2⟩, ⟨%d3, H3⟩⟩
    iapply ((runFirst c (grid0.coords t) (ms0 t) (hs0 t) (ms1 t) (hs1 t) (ms2 t) (hs2 t) (ms3 t) (hs3 t) scA (Memref.isWhole_whole _) scB (Memref.isWhole_whole _) ((hcond t).mpr h0) (iblk m c 0 t) (iblk m c 1 t) (iblk m c 2 t) (V m c main_v2) (V m c main_v4)).2.2.2 W _)
    isplitl [H0]; · iexact H0
    isplitl [H1]; · iexact H1
    isplitl [H2]; · iexact H2
    isplitl [H3]; · iexists _; iexact H3
    isplitl [HA]; · iexact HA
    isplitl [HB]; · iexact HB
    isplitl [Hq0]; · iexact Hq0
    isplitl [Hq1]; · iexact Hq1
    isplitl [HhA]; · iexact HhA
    isplitl [HhB]; · iexact HhB
    isplitl [HW]; · iexact HW
    iintro ⟨H0, H1, H2, ⟨%e3, H3⟩, ⟨%eA, HA⟩, ⟨%eB, HB⟩, Hq0, Hq1, HhA, HhB, ⟨%W', HW'⟩⟩
    isplitl [HA HB Hg Hq0 Hq1 HhA HhB]
    · unfold PhiW
      isplitl [HA HB]
      · isplitl [HA]
        · unfold owns; iexists _; isplitr
          swap; · iexact HA
          ipureintro
          exact (View.read_writes_of_cover _ _ _ _ _ (coverFirstA c _ _ _ _ _ _ _ _ _ _ _ _ _ _ _ _ _ _ _)).trans (scA_first c _ _ _ _ _ _ _ _ _ _ _ _ _ _ _ _ _ _ _)
        · unfold owns; iexists _; isplitr
          swap; · iexact HB
          ipureintro
          exact (View.read_writes_of_cover _ _ _ _ _ (coverFirstB c _ _ _ _ _ _ _ _ _ _ _ _ _ _ _ _ _ _ _)).trans (scB_first c _ _ _ _ _ _ _ _ _ _ _ _ _ _ _ _ _ _ _)
      isplitl [Hg]; · iexact Hg
      isplitl [Hq0 Hq1]
      · isplitl [Hq0]; · iexact Hq0
        iexact Hq1
      isplitl [HhA]; · iexact HhA
      iexact HhB
    isplitl [HW']
    · iexists W'; isplitr; · ipureintro; exact fun _ _ => Or.inl trivial
      iexact HW'
    isplitl [H0]; · iexact H0
    isplitl [H1]; · iexact H1
    isplitl [H2]; · iexact H2
    unfold owns; iexists _; isplitr
    swap; · iexact H3
    ipureintro; exact View.read_writes_of_cover _ _ _ _ _ (coverFirst3 c _ _ _ _ _ _ _ _ _ _ _ _ _ _ _ _ _ _ _)
  · rw [outAt_later m c t h0]
    unfold outLater
    have hz : t.val ≠ 0 := fun e => h0 (by rw [e])
    rw [PhiS_pos m c _ hz]
    unfold PhiW
    iintro ⟨⟨⟨HA, HB⟩, Hr⟩, Ho, ⟨%d0, H0⟩, ⟨%d1, H1⟩, ⟨%d2, H2⟩, ⟨%d3, H3⟩⟩
    iapply ((runLater c (grid0.coords t) (ms0 t) (hs0 t) (ms1 t) (hs1 t) (ms2 t) (hs2 t) (ms3 t) (hs3 t) scA (Memref.isWhole_whole _) scB (Memref.isWhole_whole _) (fun h' => h0 ((hcond t).mp h')) (iblk m c 0 t) (iblk m c 1 t) (iblk m c 2 t) (wA m c) (wB m c)).2 Set.univ _)
    isplitl [H0]; · iexact H0
    isplitl [H1]; · iexact H1
    isplitl [H2]; · iexact H2
    isplitl [H3]; · iexists _; iexact H3
    isplitl [HA]; · iexact HA
    isplitl [HB]; · iexact HB
    iintro ⟨H0, H1, H2, ⟨%e3, H3⟩, HA, HB⟩
    isplitl [HA HB Hr]
    · isplitl [HA HB]
      · isplitl [HA]; · iexact HA
        iexact HB
      iexact Hr
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater3 c _ _ _ _ _ _ _ _ _ _ _ _ _ _ _ _ _ _ _)

/-- The triple at every point, with the four windows' staging buffers written as one iterated conjunction. -/
theorem body_obligation (c : Dev nD) : BodyObligation (dats (F := F) m 0 c) (defs₀ (F := F)) Variants.none () Set.univ := fun t => by
  rw [bigSep_W0, bigSep_W0]
  exact sound_body m c t

/-- Before the first point the invariant is exactly what the region starts with. -/
theorem hin (c : Dev nD) : Pipeline.ΦD osem spec0 HB (V m) c ⊢ (dats m 0 c).Φ 0 := by
  rw [show (dats m 0 c).Φ 0 = PhiS m c 0 from rfl, PhiS_zero m c 0 rfl]

/-- After the last point the invariant entails what the region must end with: the scratch buffers' contents are
    simply no longer named. -/
theorem hout (c : Dev nD) : (dats m 0 c).Φ (Fin.last cfg0.N) ⊢ Pipeline.ΦD osem spec0 HB (V m) c := by
  rw [show (dats m 0 c).Φ (Fin.last cfg0.N) = PhiS m c cfg0.N from rfl,
    PhiS_pos m c _ (by rw [show cfg0.N = 64 from N_0]; decide)]
  exact PhiW_out m c

/-! ## The run and the frame -/

set_option backward.isDefEq.respectTransparency.types false in
/-- The whole program, started from memory `m` with every semaphore counter at zero: each weakly fair execution on
    the TensorCores ends, without a fault, in a state where the four windowed arrays hold what the 64 points'
    write-backs and the proof data determine, and every other unscoped buffer holds its entry contents. -/
theorem run_main : θ_run defs (onTc (τ := τ) (main (F := F))) (s₀ m ρ) (Pipeline.FramePost cfgs (dats m) 0 (V m)) :=
  Pipeline.θ_run_frame_dma cfgs (dats m) (0 : Fin 1) launch0 osem defs₀ Variants.none ownSemFacts HB HB_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run's post read at the result array: what the library computes from the proof data. -/
theorem post3 (r : PUnit × MemSt nD τ sig (Elt F)) (h : Pipeline.FramePost cfgs (dats m) 0 (V m) r) (c : Dev nD) :
    r.2.mem ((c.tc : Thread nD τ).loc main_v22) = (dats m 0 c).arrAt 3 cfg0.N := (h c).1 3

/-- A buffer that bypasses the region and that no host operation writes ends as launched. -/
theorem rest_of_post (r : PUnit × MemSt nD τ sig (Elt F)) (h : Pipeline.FramePost cfgs (dats m) 0 (V m) r) (c : Dev nD)
    (b : Ref sig .tc) (hs : b.isScoped = false) (ha : ∀ w, (spec0 w).arr.view.ref ≠ b) (hw : b ∉ written) :
    r.2.mem ((c.tc : Thread nD τ).loc b) = m ((c.tc : Thread nD τ).loc b) :=
  ((h c).2 b (Pipeline.mem_restRefs_of b hs ha)).trans (V_of_not_written m c b hw)

/-- The run's post read at the argument arrays: each ends as launched — `h`'s rows are an input window's
    array, which the pipeline only reads; every other argument bypasses the region; and no host operation
    writes an argument. -/
theorem args_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  ⟨rest_of_post m r h c main_arg0 (by decide) (by decide) (by decide),
   ((h c).1 1).trans (((dats m 0 c).arrAt_in 1 rfl _).trans ((A_eq m c 1).trans (V_main_arg1 m c))),
   rest_of_post m r h c main_arg2 (by decide) (by decide) (by decide),
   rest_of_post m r h c main_arg3 (by decide) (by decide) (by decide),
   rest_of_post m r h c main_arg4 (by decide) (by decide) (by decide),
   rest_of_post m r h c main_arg5 (by decide) (by decide) (by decide),
   rest_of_post m r h c main_arg6 (by decide) (by decide) (by decide),
   rest_of_post m r h c main_arg7 (by decide) (by decide) (by decide),
   rest_of_post m r h c main_arg8 (by decide) (by decide) (by decide),
   rest_of_post m r h c main_arg9 (by decide) (by decide) (by decide),
   rest_of_post m r h c main_arg10 (by decide) (by decide) (by decide),
   rest_of_post m r h c main_arg11 (by decide) (by decide) (by decide),
   rest_of_post m r h c main_arg12 (by decide) (by decide) (by decide),
   rest_of_post m r h c main_arg13 (by decide) (by decide) (by decide),
   rest_of_post m r h c main_arg14 (by decide) (by decide) (by decide),
   rest_of_post m r h c main_arg15 (by decide) (by decide) (by decide),
   rest_of_post m r h c main_arg16 (by decide) (by decide) (by decide),
   rest_of_post m r h c main_arg17 (by decide) (by decide) (by decide),
   rest_of_post m r h c main_arg18 (by decide) (by decide) (by decide),
   rest_of_post m r h c main_arg19 (by decide) (by decide) (by decide),
   rest_of_post m r h c main_arg20 (by decide) (by decide) (by decide),
   rest_of_post m r h c main_arg21 (by decide) (by decide) (by decide),
   rest_of_post m r h c main_arg22 (by decide) (by decide) (by decide)⟩

/-- THE FRAME, at any float instance: the program runs to its end without a fault and every argument array
    ends as it was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => args_of_post m r h c) (run_main m ρ)

end Cert.Kernel.Frm

end
-- ==== Proof.lean ====
/-
  The certificate of a layer-normalised GRU cell computed by one kernel over 64 blocks of 128 rows against
  its plain array-program reference.

  Both programs compute, row by row, r = σ(LN(x·W_ir + b_ir) + LN(h·W_hr)), z = σ(LN(x·W_iz + b_iz) + LN(h·W_hz)),
  n = tanh(LN(x·W_in + b_in) + r·LN(h·W_hn)), out = (1 − z)·n + z·h  (`Gru.G`, Proof/GruSpec.lean), with the same
  words for 2048, ε and 1; on the extended reals narrowing to bf16 is the identity, a product accumulated from zero
  is the reference's inner product, a lane sum is the reference's row sum, and the reference's spelt-out logistic
  is the kernel's.  No algebraic law beyond reading both sides entry by entry is needed, so the precondition is
  never opened.

  The kernel side: the kernel copies its two packed weight arrays into scratch at the first point of each
  sequence of 32 and reads them from there at every point; its frame run tracks the scratch contents
  (Proof/FrEntry … FrRun for the idealized program, Proof/KbEntry … KbRun for the program as printed), the stored
  block is read as one pure function of the loaded blocks (Proof/FrAfter, Proof/KiCell), that function is the
  specification's row function (Proof/KiBlockMath, KiCellAt), the arrays the region finds are the argument
  arrays repacked (Proof/KiEntryRead), and the 64 blocks tile the result (Proof/KiValue).
  The reference side: its run read stage by stage (Proof/RefOps, RefLayers, RefValue); its frame is that run with
  the result dropped (Proof/RefFrame).  The idealization rewrote nothing, so `preserves` is trivial.
-/
import proofs.«101222_j4458176053543_2_alg».proof.Defs
import proofs.«101222_j4458176053543_2_alg».proof.Proof.RefFrame
import proofs.«101222_j4458176053543_2_alg».proof.Proof.RefValue
import proofs.«101222_j4458176053543_2_alg».proof.Proof.KiValue
import proofs.«101222_j4458176053543_2_alg».proof.Proof.KbRun
import proofs.«101222_j4458176053543_2_alg».proof.Proof.Gen.Kernel
import proofs.«101222_j4458176053543_2_alg».proof.Proof.Gen.KernelIdeal
import proofs.«101222_j4458176053543_2_alg».proof.Proof.Gen.ReferenceIdeal
import proofs.«101222_j4458176053543_2_alg».proof.Proof.Gen.Pre_finite_inputs
import Idealize.ShloMosaic.Adequacy
import Idealize.ShloMosaic.Init

noncomputable section

namespace Cert.Proof

open Idealize.ShloMosaic Idealize.SL.Sem

/-- The kernel as printed terminates without a fault and leaves its argument arrays as they were. -/
theorem frame_k : Cert.frame_Kernel (hKernel := Cert.Kernel.Gen.facts) (hPre_finite_inputs := Cert.Pre_finite_inputs.Gen.facts) :=
  fun m ρ _ => Cert.Kernel.Frm.frame (F := Bits) m ρ

/-- So does the idealized kernel. -/
theorem frame_ki : Cert.frame_KernelIdeal (hKernelIdeal := Cert.KernelIdeal.Gen.facts)
    (hPre_finite_inputs := Cert.Pre_finite_inputs.Gen.facts) :=
  fun m ρ _ => Cert.KernelIdeal.Frm.frame (F := Ideal) m ρ

/-- From memories agreeing on the arguments both idealized programs end with the specification of those arguments
    in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Gru.G (Cert.KernelIdeal.ValueLeg.inputs m c), Cert.KernelIdeal.ValueLeg.run m ρ, ?_⟩
  refine (θ_run Cert.ReferenceIdeal.defs _ _).mono (fun _ h c => ⟨(h c).1.trans ?_, (h c).2⟩)
    (Cert.ReferenceIdeal.RefValue.run_G m' ρ')
  obtain ⟨h0, h1, h2, h3, h4, h5, h6, h7, h8, h9, h10, h11, h12, h13, h14, h15, h16, h17, h18, h19, h20, h21, h22⟩ := hagree c
  unfold Cert.ReferenceIdeal.RefValue.inputs Cert.KernelIdeal.ValueLeg.inputs
  rw [h0, h1, h2, h3, h4, h5, h6, h7, h8, h9, h10, h11, h12, h13, h14, h15, h16, h17, h18, h19, h20, h21, h22]

theorem claim : Cert.Claim :=
  ⟨Cert.Kernel.Gen.facts, Cert.KernelIdeal.Gen.facts, Cert.ReferenceIdeal.Gen.facts, Cert.Pre_finite_inputs.Gen.facts,
    frame_k, frame_ki, RefClaims.frame_ri, trivial, algebraic⟩

end Cert.Proof

end
